-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S50000x128 : Shape := ⟨2, ![50000, 128]⟩
abbrev S128x64 : Shape := ⟨2, ![128, 64]⟩
abbrev S1x4x16 : Shape := ⟨3, ![1, 4, 16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1x4x16 : S_.BroadcastsInDim S1x4x16 (![] : Fin 0 → Fin S1x4x16.rank)
  reducesTo_S1x4x16_S_d0_1_2 : S1x4x16.ReducesTo [0, 1, 2] S_

variable [Facts]

def fn_part1 {F : FTy → Type} [FloatOps F] (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  main_v18

def fn {F : FTy → Type} [FloatOps F] (main_arg0 : IVec S2x1000000 32) (main_arg1 : FVec F S50000x128 .f32) (main_arg2 : FVec F S128x64 .f32) (main_arg3 : FVec F S1x4x16 .f32) (main_arg4 : FVec F S1x4x16 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x4x16 .f32 := Host.absf main_arg3
  let main_cst_2 : FVec F S_ .f32 := constant S_ .f32 0x7F800000#32
  let main_v10 : FVec F S1x4x16 .f32 := broadcastInDim S1x4x16 ![] bcast_S_S1x4x16 main_cst_2
  let main_v11 : IVec S1x4x16 1 := cmpf .olt main_v9 main_v10
  let main_c_3 : IVec S_ 1 := constantI S_ 1 1#1
  let main_v12 : IVec S_ 1 := (fun x v => Host.reduce IntOp.andi x v reducesTo_S1x4x16_S_d0_1_2 h_S_) main_v11 main_c_3
  let main_v13 : IVec S_ 1 := andi main_v8 main_v12
  let main_v14 : FVec F S1x4x16 .f32 := Host.absf main_arg4
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_v13 main_v16
-- ==== Kernel.lean ====
abbrev S2x1000000 : Shape := ⟨2, ![2, 1000000]⟩
abbrev S50000x128 : Shape := ⟨2, ![50000, 128]⟩
abbrev S128x64 : Shape := ⟨2, ![128, 64]⟩
abbrev S1x4x16 : Shape := ⟨3, ![1, 4, 16]⟩
abbrev S64x4 : Shape := ⟨2, ![64, 4]⟩
abbrev S4x64 : Shape := ⟨2, ![4, 64]⟩
abbrev S1x1000000 : Shape := ⟨2, ![1, 1000000]⟩
abbrev S1000000 : Shape := ⟨1, ![1000000]⟩
abbrev S1x64 : Shape := ⟨2, ![1, 64]⟩
abbrev S50000x64 : Shape := ⟨2, ![50000, 64]⟩
abbrev S50000x4 : Shape := ⟨2, ![50000, 4]⟩
abbrev S5000x128 : Shape := ⟨2, ![5000, 128]⟩
abbrev S5000x64 : Shape := ⟨2, ![5000, 64]⟩
abbrev S5000x4 : Shape := ⟨2, ![5000, 4]⟩
abbrev S_ : Shape := ⟨0, ![]⟩
abbrev S1000000x1 : Shape := ⟨2, ![1000000, 1]⟩
abbrev S1000000x4 : Shape := ⟨2, ![1000000, 4]⟩
abbrev S1000000x64 : Shape := ⟨2, ![1000000, 64]⟩
abbrev S1x4 : Shape := ⟨2, ![1, 4]⟩
abbrev S8000x4 : Shape := ⟨2, ![8000, 4]⟩
abbrev S4 : Shape := ⟨1, ![4]⟩
abbrev S8000x64 : Shape := ⟨2, ![8000, 64]⟩

abbrev nBuf : Space → Nat
  | .hbm => 52
  | .vmem => 34
  | .smem => 0
  | _ => 0

abbrev bufTy : (tb : Table) → Fin (tcTables nBuf tb) → BufTy
  | .hbm, ⟨0, _⟩ => ⟨S2x1000000, .i32⟩
  | .hbm, ⟨1, _⟩ => ⟨S50000x128, .f32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S64x4, .f32⟩
  | .hbm, ⟨6, _⟩ => ⟨S4x64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S1x64, .f32⟩
  | .hbm, ⟨12, _⟩ => ⟨S1x64, .f32⟩
  | .hbm, ⟨13, _⟩ => ⟨S50000x64, .bf16⟩
  | .hbm, ⟨14, _⟩ => ⟨S50000x4, .f32⟩
  | .hbm, ⟨15, _⟩ => ⟨S50000x4, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x4, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x4, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .bf16⟩
  | .hbm, ⟨43, _⟩ => ⟨S1000000x4, .f32⟩
  | .hbm, ⟨44, _⟩ => ⟨S1x4, .f32⟩
  | .hbm, ⟨45, _⟩ => ⟨S1000000x64, .f32⟩
  | .hbm, ⟨46, _⟩ => ⟨S1x4, .f32⟩
  | .hbm, ⟨47, _⟩ => ⟨S_, .f32⟩
  | .hbm, ⟨48, _⟩ => ⟨S50000x64, .f32⟩
  | .hbm, ⟨49, _⟩ => ⟨S1000000x1, .i32⟩
  | .hbm, ⟨50, _⟩ => ⟨S50000x64, .f32⟩
  | .hbm, ⟨51, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S64x4, .f32⟩
  | .local _ .vmem, ⟨6, _⟩ => ⟨S5000x64, .bf16⟩
  | .local _ .vmem, ⟨7, _⟩ => ⟨S5000x64, .bf16⟩
  | .local _ .vmem, ⟨8, _⟩ => ⟨S5000x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S8000x4, .f32⟩
  | .local _ .vmem, ⟨13, _⟩ => ⟨S8000x4, .f32⟩
  | .local _ .vmem, ⟨14, _⟩ => ⟨S8000x4, .f32⟩
  | .local _ .vmem, ⟨15, _⟩ => ⟨S8000x4, .f32⟩
  | .local _ .vmem, ⟨16, _⟩ => ⟨S8000x4, .f32⟩
  | .local _ .vmem, ⟨17, _⟩ => ⟨S8000x4, .f32⟩
  | .local _ .vmem, ⟨18, _⟩ => ⟨S1x4, .f32⟩
  | .local _ .vmem, ⟨19, _⟩ => ⟨S8000x4, .f32⟩
  | .local _ .vmem, ⟨20, _⟩ => ⟨S8000x4, .f32⟩
  | .local _ .vmem, ⟨21, _⟩ => ⟨S1x4, .f32⟩
  | .local _ .vmem, ⟨22, _⟩ => ⟨S8000x64, .bf16⟩
  | .local _ .vmem, ⟨23, _⟩ => ⟨S8000x64, .bf16⟩
  | .local _ .vmem, ⟨24, _⟩ => ⟨S4x64, .f32⟩
  | .local _ .vmem, ⟨25, _⟩ => ⟨S8000x64, .f32⟩
  | .local _ .vmem, ⟨26, _⟩ => ⟨S8000x64, .f32⟩
  | .local _ .vmem, ⟨27, _⟩ => ⟨S1x4, .f32⟩
  | .local _ .vmem, ⟨28, _⟩ => ⟨S5000x64, .f32⟩
  | .local _ .vmem, ⟨29, _⟩ => ⟨S5000x64, .f32⟩
  | .local _ .vmem, ⟨30, _⟩ => ⟨S1x4, .f32⟩
  | .local _ .vmem, ⟨31, _⟩ => ⟨S4x64, .f32⟩
  | .local _ .vmem, ⟨32, _⟩ => ⟨S5000x64, .f32⟩
  | .local _ .vmem, ⟨33, _⟩ => ⟨S5000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29_0 : Ref sig .tc := ⟨.hbm, 45, rfl⟩
abbrev main_v29_1 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc2_sem5_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S1x4x16_S1x64 : S1x4x16.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x4_S64x4_0_0 : ∀ a, (![0, 0] : Fin 2 → Nat) a + S64x4.size a ≤ S64x4.size a
  h_S64x4 : 0 < S64x4.numel
  broadcasts_S1x64_S5000x64 : S1x64.Broadcasts S5000x64
  inb_S5000x4_S5000x4_0_0 : ∀ a, (![0, 0] : Fin 2 → Nat) a + S5000x4.size a ≤ S5000x4.size a
  h_S5000x4 : 0 < S5000x4.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S1x4_S1x4_0_0 : ∀ a, (![0, 0] : Fin 2 → Nat) a + S1x4.size a ≤ S1x4.size a
  h_S1x4 : 0 < S1x4.numel
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  shapeCasts_S1x4_S1x4 : S1x4.ShapeCasts S1x4
  reduces_S8000x4_S4 : S8000x4.Reduces [0] S4
  shapeCasts_S4_S1x4 : S4.ShapeCasts S1x4
  broadcasts_S1x4_S8000x4 : S1x4.Broadcasts S8000x4
  inb_S4x64_S4x64_0_0 : ∀ a, (![0, 0] : Fin 2 → Nat) a + S4x64.size a ≤ S4x64.size a
  h_S4x64 : 0 < S4x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  dot_S5000x64_S64x4_S5000x4_1_0_0_1_n_n_wf : DotDims.WF S5000x64 S64x4 S5000x4 [1] [0] [0] [1] [] []
  gather_S50000x4_S1000000x1_S1000000x4_1_0_n_n_0_1_14_wf : GatherDims.WF S50000x4 S1000000x1 S1000000x4 [1] [0] [] [0] [] 1 ![1, 4]
  gather_S50000x64_S1000000x1_S1000000x64_1_0_n_n_0_1_164_wf : GatherDims.WF S50000x64 S1000000x1 S1000000x64 [1] [0] [] [0] [] 1 ![1, 64]
  dot_S8000x4_S4x64_S8000x64_1_0_0_1_n_n_wf : DotDims.WF S8000x4 S4x64 S8000x64 [1] [0] [0] [1] [] []
  scatter_S50000x64_S1000000x1_S1000000x64_1_0_0_1_wf : ScatterDims.WF S50000x64 S1000000x1 S1000000x64 [1] [0] [0] 1
  dot_S1x4_S4x64_S1x64_1_0_0_1_n_n_wf : DotDims.WF S1x4 S4x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .bf16 = 32 ∨ (Rect.block (s := S50000x64) S5000x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x4.size a ≤ S50000x4.size a
  hwx0_6 : ∀ i : grid0.Coords, EltTy.bits .f32 = 32 ∨ (Rect.block (s := S50000x4) S5000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x4.size a ≤ S50000x4.size a
  hwx0_7 : ∀ i : grid0.Coords, EltTy.bits .f32 = 32 ∨ (Rect.block (s := S50000x4) S5000x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S1000000x4.size a
  hwx1_0 : ∀ i : grid1.Coords, EltTy.bits .f32 = 32 ∨ (Rect.block (s := S1000000x4) S8000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1000000x4.size a
  hwx1_1 : ∀ i : grid1.Coords, EltTy.bits .f32 = 32 ∨ (Rect.block (s := S1000000x4) S8000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x4.size a ≤ S1000000x4.size a
  hwx1_2 : ∀ i : grid1.Coords, EltTy.bits .f32 = 32 ∨ (Rect.block (s := S1000000x4) S8000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S1000000x4.size a
  hwx2_0 : ∀ i : grid2.Coords, EltTy.bits .f32 = 32 ∨ (Rect.block (s := S1000000x4) S8000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1000000x64.size a
  hwx2_2 : ∀ i : grid2.Coords, EltTy.bits .bf16 = 32 ∨ (Rect.block (s := S1000000x64) S8000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S1000000x64.size a
  hwx2_4 : ∀ i : grid2.Coords, EltTy.bits .f32 = 32 ∨ (Rect.block (s := S1000000x64) S8000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4.size a ≤ S1x4.size a
  hwx2_5 : ∀ i : grid2.Coords, EltTy.bits .f32 = 32 ∨ (Rect.block (s := S1x4) S1x4.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x64.size a ≤ S4x64.size a
  hwx3_2 : ∀ i : grid3.Coords, EltTy.bits .f32 = 32 ∨ (Rect.block (s := S4x64) S4x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def gather_S50000x4_S1000000x1_S1000000x4_1_0_n_n_0_1_14 : GatherDims S50000x4 S1000000x1 S1000000x4 where
  offsetDims := [1]
  collapsedSliceDims := [0]
  operandBatchingDims := []
  startIndicesBatchingDims := []
  startIndexMap := [0]
  indexVectorDim := 1
  sliceSizes := ![1, 4]
  wf := gather_S50000x4_S1000000x1_S1000000x4_1_0_n_n_0_1_14_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S1x4_S4x64_S1x64_1_0_0_1_n_n : DotDims S1x4 S4x64 S1x64 where
  lhsContracting := [1]
  rhsContracting := [0]
  lhsNonContracting := [0]
  rhsNonContracting := [1]
  lhsBatch := []
  rhsBatch := []
  wf := dot_S1x4_S4x64_S1x64_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S5000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S5000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S8000x4.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S1x4.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28_0) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28_1) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_cst_0) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29_0) S8000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29_1) S1x4.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_1) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_cst_0) S4x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x1000000 : Shape := ⟨2, ![2, 1000000]⟩
abbrev S50000x128 : Shape := ⟨2, ![50000, 128]⟩
abbrev S128x64 : Shape := ⟨2, ![128, 64]⟩
abbrev S1x4x16 : Shape := ⟨3, ![1, 4, 16]⟩
abbrev S50000x64 : Shape := ⟨2, ![50000, 64]⟩
abbrev S50000x4x16 : Shape := ⟨3, ![50000, 4, 16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x4x16 : Shape := ⟨3, ![1000000, 4, 16]⟩
abbrev S1000000x4 : Shape := ⟨2, ![1000000, 4]⟩
abbrev S4 : Shape := ⟨1, ![4]⟩
abbrev S1x4 : Shape := ⟨2, ![1, 4]⟩
abbrev S1000000x4x1 : Shape := ⟨3, ![1000000, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S50000x128, .f32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S50000x64, .f32⟩
  | .hbm, ⟨6, _⟩ => ⟨S50000x4x16, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x4x16, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x4x16, .f32⟩
  | .hbm, ⟨29, _⟩ => ⟨S1000000x4x16, .f32⟩
  | .hbm, ⟨30, _⟩ => ⟨S1000000x4x16, .f32⟩
  | .hbm, ⟨31, _⟩ => ⟨S_, .f32⟩
  | .hbm, ⟨32, _⟩ => ⟨S1000000x4, .f32⟩
  | .hbm, ⟨33, _⟩ => ⟨S1000000x4x16, .f32⟩
  | .hbm, ⟨34, _⟩ => ⟨S1000000x4x16, .f32⟩
  | .hbm, ⟨35, _⟩ => ⟨S_, .f32⟩
  | .hbm, ⟨36, _⟩ => ⟨S1000000x4, .f32⟩
  | .hbm, ⟨37, _⟩ => ⟨S1000000x4, .f32⟩
  | .hbm, ⟨38, _⟩ => ⟨S_, .f32⟩
  | .hbm, ⟨39, _⟩ => ⟨S1000000x4, .f32⟩
  | .hbm, ⟨40, _⟩ => ⟨S1000000x4, .i1⟩
  | .hbm, ⟨41, _⟩ => ⟨S_, .f32⟩
  | .hbm, ⟨42, _⟩ => ⟨S1000000x4, .f32⟩
  | .hbm, ⟨43, _⟩ => ⟨S1000000x4, .f32⟩
  | .hbm, ⟨44, _⟩ => ⟨S1000000x4, .f32⟩
  | .hbm, ⟨45, _⟩ => ⟨S_, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S1x4, .f32⟩
  | .hbm, ⟨51, _⟩ => ⟨S1000000x4, .f32⟩
  | .hbm, ⟨52, _⟩ => ⟨S1000000x4, .f32⟩
  | .hbm, ⟨53, _⟩ => ⟨S1000000x4, .f32⟩
  | .hbm, ⟨54, _⟩ => ⟨S_, .f32⟩
  | .hbm, ⟨55, _⟩ => ⟨S4, .f32⟩
  | .hbm, ⟨56, _⟩ => ⟨S1x4, .f32⟩
  | .hbm, ⟨57, _⟩ => ⟨S1000000x4, .f32⟩
  | .hbm, ⟨58, _⟩ => ⟨S1000000x4, .f32⟩
  | .hbm, ⟨59, _⟩ => ⟨S1000000x4x1, .f32⟩
  | .hbm, ⟨60, _⟩ => ⟨S1000000x4x16, .f32⟩
  | .hbm, ⟨61, _⟩ => ⟨S1000000x4x16, .f32⟩
  | .hbm, ⟨62, _⟩ => ⟨S_, .f32⟩
  | .hbm, ⟨63, _⟩ => ⟨S50000x4x16, .f32⟩
  | .hbm, ⟨64, _⟩ => ⟨S1000000x1, .i32⟩
  | .hbm, ⟨65, _⟩ => ⟨S50000x4x16, .f32⟩
  | .hbm, ⟨66, _⟩ => ⟨S_, .f32⟩
  | .hbm, ⟨67, _⟩ => ⟨S50000x4x16, .f32⟩
  | .hbm, ⟨68, _⟩ => ⟨S50000x4x16, .f32⟩
  | .hbm, ⟨69, _⟩ => ⟨S50000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  shapeCasts_S50000x64_S50000x4x16 : S50000x64.ShapeCasts S50000x4x16
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x4x16_S1000000x4x16_0_1_2 : S1x4x16.BroadcastsInDim S1000000x4x16 (![0, 1, 2] : Fin 3 → Fin S1000000x4x16.rank)
  reducesTo_S1000000x4x16_S1000000x4_d2 : S1000000x4x16.ReducesTo [2] S1000000x4
  h_S_ : 0 < S_.numel
  bcast_S_S1000000x4 : S_.BroadcastsInDim S1000000x4 (![] : Fin 0 → Fin S1000000x4.rank)
  reducesTo_S1000000x4_S4_d0 : S1000000x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S1000000x4_S1000000x4x1_0_1 : S1000000x4.BroadcastsInDim S1000000x4x1 (![0, 1] : Fin 2 → Fin S1000000x4x1.rank)
  bcast_S1000000x4x1_S1000000x4x16_0_1_2 : S1000000x4x1.BroadcastsInDim S1000000x4x16 (![0, 1, 2] : Fin 3 → Fin S1000000x4x16.rank)
  bcast_S_S50000x4x16 : S_.BroadcastsInDim S50000x4x16 (![] : Fin 0 → Fin S50000x4x16.rank)
  shapeCasts_S50000x4x16_S50000x64 : S50000x4x16.ShapeCasts S50000x64
  dot_S50000x128_S128x64_S50000x64_1_0_0_1_n_n_wf : DotDims.WF S50000x128 S128x64 S50000x64 [1] [0] [0] [1] [] []
  gather_S50000x4x16_S1000000x1_S1000000x4x16_12_0_n_n_0_1_1416_wf : GatherDims.WF S50000x4x16 S1000000x1 S1000000x4x16 [1, 2] [0] [] [0] [] 1 ![1, 4, 16]
  scatter_S50000x4x16_S1000000x1_S1000000x4x16_12_0_0_1_wf : ScatterDims.WF S50000x4x16 S1000000x1 S1000000x4x16 [1, 2] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x4x16_S1000000x1_S1000000x4x16_12_0_n_n_0_1_1416 : GatherDims S50000x4x16 S1000000x1 S1000000x4x16 where
  offsetDims := [1, 2]
  collapsedSliceDims := [0]
  operandBatchingDims := []
  startIndicesBatchingDims := []
  startIndexMap := [0]
  indexVectorDim := 1
  sliceSizes := ![1, 4, 16]
  wf := gather_S50000x4x16_S1000000x1_S1000000x4x16_12_0_n_n_0_1_1416_wf
def scatter_S50000x4x16_S1000000x1_S1000000x4x16_12_0_0_1 : ScatterDims S50000x4x16 S1000000x1 S1000000x4x16 where
  updateWindowDims := [1, 2]
  insertedWindowDims := [0]
  scatterDimsToOperandDims := [0]
  indexVectorDim := 1
  wf := scatter_S50000x4x16_S1000000x1_S1000000x4x16_12_0_0_1_wf

class Facts : Prop extends Facts₀ where

variable [Facts]
-- ==== Proof.KRun.lean ====
/-
  The idealized kernel program's run, with its result array named.

  The program is four grid computations among three stretches of array operations.  The contents of every buffer
  at each boundary are a fold from the launch memory: a stretch of array operations applies them in order, a grid
  computation replaces its arrays by what its write-backs leave.  Every weakly fair execution ends with each buffer
  at the last boundary's contents; read at the result buffer and at the five argument buffers this is the statement below.
-/
import proofs.«116205_j188978561163_2_alg».proof.Proof.Gen.KernelIdeal.Frame

set_option maxRecDepth 16384

noncomputable section

namespace Cert.Gat.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and the
    argument arrays as launched. -/
theorem run_named : θ_run defs (onTc (τ := τ) (main (F := F))) ⟨m, fun _ => 0, ρ⟩ (fun r => ∀ c : Dev nD,
      r.2.mem ((c.tc : Thread nD τ).loc main_v33) = W7 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v33 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Gat.KRun

end
-- ==== Proof.Spec.lean ====
/-
  One graph-attention layer over a fixed edge list, written twice over the extended reals.

  Nodes carry feature rows h (50000 x 128); W (128 x 64) projects them to 4 heads of 16 features; each edge e has a
  source word, a destination word used for reading, and a destination word used for accumulation.  A word names a node
  when it is read by a gather (read signed, clamped into the node range, `node`), and an edge lands on node n when its
  accumulation word, read signed, IS n (no clamping: an edge whose word is out of range lands nowhere).

  Both forms compute, per edge and head, the logit  leaky (s_src[src e] + s_dst[dst e]),  its softmax over ALL edges
  (per head), and per node and feature the rectified sum of the softmax weight times the source's projected feature.
  `outK` keeps the feature axis flat (64 = 4 * 16) and moves between heads and features through two 0/1 tables
  (`G`, `Gt`), normalising AFTER the sum over edges by the reciprocal of the softmax denominator; `outR` splits the
  axis into (head, feature) and normalises each edge's weight BEFORE the sum.  That they agree on finite data is
  proved elsewhere; this file only names the two forms and their parts.
-/
import Idealize.ShloMosaic.PureOps.Ideal
import Idealize.ShloMosaic.Lib.ValueIdx

noncomputable section

open scoped BigOperators

namespace Cert.Gat

open Idealize.ShloMosaic Idealize.ShloMosaic.ValueIdx

/-- A rank-2 array as a function of its two coordinates. -/
abbrev arr2 {α : Type} {a b : Nat} (x : (⟨2, ![a, b]⟩ : Shape).Idx → α) (i : Fin a) (j : Fin b) : α := x (ix2 i j)
/-- A rank-3 array as a function of its three coordinates. -/
abbrev arr3 {α : Type} {a b c : Nat} (x : (⟨3, ![a, b, c]⟩ : Shape).Idx → α) (i : Fin a) (j : Fin b) (k : Fin c) : α :=
  x (ix3 i j k)

/-- The zero word's value (it is 0; kept as the word so that both programs' terms meet it unevaluated). -/
abbrev z0 : EReal := Ideal.ofBits .f32 0x00000000#32
/-- The one word's value. -/
abbrev o1 : EReal := Ideal.ofBits .f32 0x3F800000#32
/-- The rectifier's negative slope, the f32 nearest 0.2. -/
abbrev slope : EReal := Ideal.ofBits .f32 0x3E4CCCCD#32

/-- The node an index word names when a gather reads it: the word read signed, clamped into [0, 49999]. -/
def node (x : BitVec 32) : Fin 50000 := ⟨min x.toInt.toNat 49999, by omega⟩

/-- The leaky rectifier: x where x > 0, slope * x elsewhere (the comparison's bit selects). -/
def leaky (x : EReal) : EReal :=
  Scalar.select (FloatOps.cmpf (F := Ideal) (φ := .f32) .ogt x z0) x (slope * x)

/-- Head hd owns the flat features 16 hd … 16 hd + 15: the 0/1 table from flat feature to head. -/
def G (d : Fin 64) (hd : Fin 4) : EReal := if d.val / 16 = hd.val then o1 else z0
/-- Its transpose. -/
def Gt (hd : Fin 4) (d : Fin 64) : EReal := if d.val / 16 = hd.val then o1 else z0

/-- The flat feature 16 hd + f. -/
abbrev flat (hd : Fin 4) (f : Fin 16) : Fin 64 := ⟨16 * hd.val + f.val, by omega⟩
/-- The head of a flat feature. -/
abbrev headOf (d : Fin 64) : Fin 4 := ⟨d.val / 16, by omega⟩
/-- The feature within its head. -/
abbrev featOf (d : Fin 64) : Fin 16 := ⟨d.val % 16, by omega⟩

/-! ## The parts -/

/-- Projected features: row n of h times column d of W. -/
def wh (h : Fin 50000 → Fin 128 → EReal) (W : Fin 128 → Fin 64 → EReal) (n : Fin 50000) (d : Fin 64) : EReal :=
  ∑ k : Fin 128, h n k * W k d

/-- A node's score per head, flat form: the projected row times a flat attention vector, grouped by a table. -/
def scoreK (P : Fin 50000 → Fin 64 → EReal) (a : Fin 64 → EReal) (T : Fin 64 → Fin 4 → EReal)
    (n : Fin 50000) (hd : Fin 4) : EReal :=
  ∑ d : Fin 64, (P n d * a d) * T d hd

/-- An edge's logit from its two gathered scores. -/
def logit (es ed : Fin 1000000 → Fin 4 → EReal) (e : Fin 1000000) (hd : Fin 4) : EReal := leaky (es e hd + ed e hd)

/-- The largest logit of a head over all edges. -/
def top (E : Fin 1000000 → Fin 4 → EReal) (hd : Fin 4) : EReal := Finset.univ.sup fun e => E e hd

/-- The softmax numerator: exp of the logit less the head's largest. -/
def pexp (E : Fin 1000000 → Fin 4 → EReal) (M : Fin 4 → EReal) (e : Fin 1000000) (hd : Fin 4) : EReal :=
  Ideal.exp (E e hd - M hd)

/-- The softmax denominator of a head. -/
def zsum (P : Fin 1000000 → Fin 4 → EReal) (hd : Fin 4) : EReal := ∑ e : Fin 1000000, P e hd

/-- An edge's unnormalised message, flat form: its numerators spread over the features by a table, times the source's row. -/
def msgK (P : Fin 1000000 → Fin 4 → EReal) (T : Fin 4 → Fin 64 → EReal) (ws : Fin 1000000 → Fin 64 → EReal)
    (e : Fin 1000000) (d : Fin 64) : EReal :=
  (∑ hd : Fin 4, P e hd * T hd d) * ws e d

/-- The edges that land on node n. -/
def hits (dS : Fin 1000000 → BitVec 32) (n : Fin 50000) : Finset (Fin 1000000) :=
  Finset.univ.filter fun e => (dS e).toInt = (n.val : Int)

/-- What lands on node n, flat form: zero plus the messages of the edges that land there. -/
def landK (dS : Fin 1000000 → BitVec 32) (msg : Fin 1000000 → Fin 64 → EReal) (n : Fin 50000) (d : Fin 64) : EReal :=
  z0 + ∑ e ∈ hits dS n, msg e d

/-- The last step, flat form: rectify, then scale by the reciprocal denominators spread over the features by a table. -/
def normK (H : Fin 50000 → Fin 64 → EReal) (Z : Fin 4 → EReal) (T : Fin 4 → Fin 64 → EReal)
    (n : Fin 50000) (d : Fin 64) : EReal :=
  max (H n d) z0 * ∑ hd : Fin 4, Ideal.div o1 (Z hd) * T hd d

/-! ## The flat form, whole -/

section Whole
variable (h : Fin 50000 → Fin 128 → EReal) (W : Fin 128 → Fin 64 → EReal)
  (as3 ad3 : Fin 4 → Fin 16 → EReal) (sW dW dS : Fin 1000000 → BitVec 32)

/-- The flat attention vector of a (head, feature) table. -/
def flatA (a3 : Fin 4 → Fin 16 → EReal) (d : Fin 64) : EReal := a3 (headOf d) (featOf d)

/-- Edge logits, flat form. -/
def logitK : Fin 1000000 → Fin 4 → EReal :=
  logit (fun e hd => scoreK (wh h W) (flatA as3) G (node (sW e)) hd) (fun e hd => scoreK (wh h W) (flatA ad3) G (node (dW e)) hd)
/-- Softmax numerators, flat form. -/
def pK : Fin 1000000 → Fin 4 → EReal := pexp (logitK h W as3 ad3 sW dW) (top (logitK h W as3 ad3 sW dW))
/-- The layer, flat form. -/
def outK (n : Fin 50000) (d : Fin 64) : EReal :=
  normK (landK dS (msgK (pK h W as3 ad3 sW dW) Gt fun e d => wh h W (node (sW e)) d)) (zsum (pK h W as3 ad3 sW dW)) Gt n d

/-! ## The split form, whole -/

/-- A node's score per head, split form: zero plus the sum over the head's features. -/
def scoreR (a3 : Fin 4 → Fin 16 → EReal) (n : Fin 50000) (hd : Fin 4) : EReal :=
  z0 + ∑ f : Fin 16, wh h W n (flat hd f) * a3 hd f
/-- Edge logits, split form. -/
def logitR : Fin 1000000 → Fin 4 → EReal :=
  logit (fun e hd => scoreR h W as3 (node (sW e)) hd) (fun e hd => scoreR h W ad3 (node (dW e)) hd)
/-- The head's largest logit, split form: the larger of minus infinity and the largest. -/
def topR (hd : Fin 4) : EReal := max (Ideal.ofBits .f32 0xFF800000#32) (top (logitR h W as3 ad3 sW dW) hd)
/-- Softmax numerators, split form. -/
def pR : Fin 1000000 → Fin 4 → EReal := pexp (logitR h W as3 ad3 sW dW) (topR h W as3 ad3 sW dW)
/-- Softmax weights, split form: numerator over zero plus the sum of the numerators. -/
def attnR (e : Fin 1000000) (hd : Fin 4) : EReal :=
  Ideal.div (pR h W as3 ad3 sW dW e hd) (z0 + zsum (pR h W as3 ad3 sW dW) hd)
/-- The layer, split form, read at a flat feature. -/
def outR (n : Fin 50000) (d : Fin 64) : EReal :=
  max (z0 + ∑ e ∈ hits dS n, attnR h W as3 ad3 sW dW e (headOf d) * wh h W (node (sW e)) d) z0

end Whole

end Cert.Gat

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.EdgeIdx.lean ====
/-
  The three index columns that both programs compute from the edge list.

  The edge list is a 2 x 1000000 array of 32-bit words: row 0 holds each edge's source word, row 1 its destination
  word.  A row is taken out as a 1 x 1000000 slice and flattened.  For READING (a gather) a word is first wrapped the
  way Python indexing wraps: a word that is negative as a signed number has 50000 added to it, any other word is kept;
  the gather itself then clamps.  For ACCUMULATING (the scatter) the destination row is used as it is.  Each of the
  three vectors is finally laid out as a 1000000 x 1 column, which is the form the gathers and the scatter take.

  Everything here is spelt with the library's own operations over literal shapes, and the side conditions of the
  layout operations are decided, so a program's own spelling of the same chain is equal to these by unfolding.
-/
import Idealize.ShloMosaic.PureOps

namespace Cert.Gat

open Idealize.ShloMosaic

/-- Row `r` (given as the slice's offsets `![r, 0]`) of the edge list, flattened to a vector of 1000000 words. -/
def edgeRow (off : Fin 2 → Nat) (h : (⟨2, ![2, 1000000]⟩ : Shape).Slices off ⟨2, ![1, 1000000]⟩)
    (A0 : IVec ⟨2, ![2, 1000000]⟩ 32) : IVec ⟨1, ![1000000]⟩ 32 :=
  shapeCast ⟨1, ![1000000]⟩ (extractStridedSlice (s := ⟨2, ![2, 1000000]⟩) ⟨2, ![1, 1000000]⟩ off A0 h) (by decide)

/-- Python's wrap of a possibly negative index into an axis of 50000: `v + 50000` where `v < 0` (signed), else `v`. -/
def wrapIdx (v : IVec ⟨1, ![1000000]⟩ 32) : IVec ⟨1, ![1000000]⟩ 32 :=
  select (cmpi .slt v (broadcastInDim (s := ⟨0, ![]⟩) ⟨1, ![1000000]⟩ ![] (by decide) (constantI ⟨0, ![]⟩ 32 0#32)))
    (addi v (broadcastInDim (s := ⟨0, ![]⟩) ⟨1, ![1000000]⟩ ![] (by decide) (constantI ⟨0, ![]⟩ 32 50000#32))) v

/-- A vector of 1000000 words as a 1000000 x 1 column. -/
def asColumn (v : IVec ⟨1, ![1000000]⟩ 32) : IVec ⟨2, ![1000000, 1]⟩ 32 :=
  broadcastInDim (s := ⟨1, ![1000000]⟩) ⟨2, ![1000000, 1]⟩ ![0] (by decide) v

/-- The start indices of the gather by source: row 0, wrapped, as a column. -/
def srcIdx (A0 : IVec ⟨2, ![2, 1000000]⟩ 32) : IVec ⟨2, ![1000000, 1]⟩ 32 :=
  asColumn (wrapIdx (edgeRow ![0, 0] (by decide) A0))

/-- The start indices of the gather by destination: row 1, wrapped, as a column. -/
def dstIdx (A0 : IVec ⟨2, ![2, 1000000]⟩ 32) : IVec ⟨2, ![1000000, 1]⟩ 32 :=
  asColumn (wrapIdx (edgeRow ![1, 0] (by decide) A0))

/-- The scatter's indices: row 1 as it is, as a column. -/
def dstRaw (A0 : IVec ⟨2, ![2, 1000000]⟩ 32) : IVec ⟨2, ![1000000, 1]⟩ 32 :=
  asColumn (edgeRow ![1, 0] (by decide) A0)

end Cert.Gat
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.KValue.lean ====
/-
  The idealized kernel program's result array, as the flat form of the layer.

  The buffer contents at each boundary of the program are a fold from the launch memory.  Walking that fold:
  the first stretch lays the two attention vectors out flat (feature 16 hd + f of the flat vector is entry (hd, f)), takes
  the two rows of the edge list, and writes the two 0/1 tables; the first grid computation leaves the projected rows and the
  two per-node scores; the second stretch wraps the edge words and gathers scores and projected rows per edge (a gather reads
  the row its word names, clamped); the second and third grid computations leave the logits, their largest value per head,
  the unnormalised messages and the softmax denominators; the third stretch adds each edge's message into the row its
  destination word names; the last grid computation rectifies and scales.  Composed, the result array is `outK`.
-/
import proofs.«116205_j188978561163_2_alg».proof.Proof.Gen.KernelIdeal.Frame
import proofs.«116205_j188978561163_2_alg».proof.Proof.Spec
import proofs.«116205_j188978561163_2_alg».proof.Proof.LibRowOps
import proofs.«116205_j188978561163_2_alg».proof.Proof.EdgeIdx
import proofs.«116205_j188978561163_2_alg».proof.Proof.LibHitSet
import Idealize.ShloMosaic.Lib.StableHlo.Run
import Idealize.ShloMosaic.Lib.Pipeline.Value
import Idealize.ShloMosaic.PureOps.Ideal

set_option maxRecDepth 16384

noncomputable section

open scoped BigOperators

namespace Cert.Gat.KValue

open Cert.KernelIdeal Cert.KernelIdeal.Gen Cert.Gat
open Idealize.ShloMosaic Idealize.ShloMosaic.TcCoe Idealize.ShloMosaic.Tactic Idealize.SL.Sem Idealize.ShloMosaic.StableHlo
open Idealize.ShloMosaic.ValueIdx

/-- What each of the four grid computations leaves in its output arrays, as functions of what it finds in its input arrays
    (`V`: the buffer contents when the computation is entered). -/
structure RegionFacts : Prop where
  r0_wh : ∀ (V : (c : Dev nD) → (b : Ref sig .tc) → Buf (Elt Ideal) ((c : Thread nD τ).loc b)) (c : Dev nD) (n : Fin 50000) (d : Fin 64),
    (dat0 V c).arrAt 5 cfg0.N (ix2 n d) = wh (arr2 (V c main_arg1)) (arr2 (V c main_arg2)) n d
  r0_ss : ∀ (V : (c : Dev nD) → (b : Ref sig .tc) → Buf (Elt Ideal) ((c : Thread nD τ).loc b)) (c : Dev nD) (n : Fin 50000) (hd : Fin 4),
    (dat0 V c).arrAt 6 cfg0.N (ix2 n hd) = scoreK (wh (arr2 (V c main_arg1)) (arr2 (V c main_arg2))) (fun d => V c main_v4 (ix2 0 d)) (arr2 (V c main_cst)) n hd
  r0_sd : ∀ (V : (c : Dev nD) → (b : Ref sig .tc) → Buf (Elt Ideal) ((c : Thread nD τ).loc b)) (c : Dev nD) (n : Fin 50000) (hd : Fin 4),
    (dat0 V c).arrAt 7 cfg0.N (ix2 n hd) = scoreK (wh (arr2 (V c main_arg1)) (arr2 (V c main_arg2))) (fun d => V c main_v5 (ix2 0 d)) (arr2 (V c main_cst)) n hd
  r1_e : ∀ (V : (c : Dev nD) → (b : Ref sig .tc) → Buf (Elt Ideal) ((c : Thread nD τ).loc b)) (c : Dev nD) (e : Fin 1000000) (hd : Fin 4),
    (dat1 V c).arrAt 2 cfg1.N (ix2 e hd) = logit (arr2 (V c main_v13)) (arr2 (V c main_v20)) e hd
  r1_m : ∀ (V : (c : Dev nD) → (b : Ref sig .tc) → Buf (Elt Ideal) ((c : Thread nD τ).loc b)) (c : Dev nD) (hd : Fin 4),
    (dat1 V c).arrAt 3 cfg1.N (ix2 0 hd) = top (logit (arr2 (V c main_v13)) (arr2 (V c main_v20))) hd
  r2_msg : ∀ (V : (c : Dev nD) → (b : Ref sig .tc) → Buf (Elt Ideal) ((c : Thread nD τ).loc b)) (c : Dev nD) (e : Fin 1000000) (d : Fin 64),
    (dat2 V c).arrAt 4 cfg2.N (ix2 e d) = msgK (pexp (arr2 (V c main_v28_0)) (fun hd => V c main_v28_1 (ix2 0 hd))) (arr2 (V c main_cst_0)) (arr2 (V c main_v27)) e d
  r2_z : ∀ (V : (c : Dev nD) → (b : Ref sig .tc) → Buf (Elt Ideal) ((c : Thread nD τ).loc b)) (c : Dev nD) (hd : Fin 4),
    (dat2 V c).arrAt 5 cfg2.N (ix2 0 hd) = zsum (pexp (arr2 (V c main_v28_0)) (fun hd => V c main_v28_1 (ix2 0 hd))) hd
  r3_out : ∀ (V : (c : Dev nD) → (b : Ref sig .tc) → Buf (Elt Ideal) ((c : Thread nD τ).loc b)) (c : Dev nD) (n : Fin 50000) (d : Fin 64),
    (dat3 V c).arrAt 3 cfg3.N (ix2 n d) = normK (arr2 (V c main_v32)) (fun hd => V c main_v29_1 (ix2 0 hd)) (arr2 (V c main_cst_0)) n d

/-- A buffer that no operation of a stretch writes holds after the stretch what it held before. -/
local macro "nw_tac " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The argument arrays and the layer's data read off them -/

abbrev A0 : IVec S2x1000000 32 := m ((c : Thread nD τ).loc main_arg0)
abbrev A1 : FVec Ideal S50000x128 .f32 := m ((c : Thread nD τ).loc main_arg1)
abbrev A2 : FVec Ideal S128x64 .f32 := m ((c : Thread nD τ).loc main_arg2)
abbrev A3 : FVec Ideal S1x4x16 .f32 := m ((c : Thread nD τ).loc main_arg3)
abbrev A4 : FVec Ideal S1x4x16 .f32 := m ((c : Thread nD τ).loc main_arg4)

abbrev hA : Fin 50000 → Fin 128 → EReal := arr2 (A1 m c)
abbrev WA : Fin 128 → Fin 64 → EReal := arr2 (A2 m c)
abbrev as3 : Fin 4 → Fin 16 → EReal := fun hd f => A3 m c (ix3 0 hd f)
abbrev ad3 : Fin 4 → Fin 16 → EReal := fun hd f => A4 m c (ix3 0 hd f)
abbrev sW : Fin 1000000 → BitVec 32 := fun e => srcIdx (A0 m c) (ix2 e 0)
abbrev dW : Fin 1000000 → BitVec 32 := fun e => dstIdx (A0 m c) (ix2 e 0)
abbrev dS : Fin 1000000 → BitVec 32 := fun e => dstRaw (A0 m c) (ix2 e 0)

/-! ## The first stretch -/

theorem W1_arg1 : W1 m ρ c (Proc.devRef .tc main_arg1) = A1 m c := by
  show StableHlo.after hostOps0 (W0 m ρ c) (Proc.devRef .tc main_arg1) = _
  exact Eq.trans (by nw_tac hostOps0) rfl

theorem W1_arg2 : W1 m ρ c (Proc.devRef .tc main_arg2) = A2 m c := by
  show StableHlo.after hostOps0 (W0 m ρ c) (Proc.devRef .tc main_arg2) = _
  exact Eq.trans (by nw_tac hostOps0) rfl

/-- The two tables as the program writes them: word by word, row-major. -/
theorem W1_cst : W1 m ρ c (Proc.devRef .tc main_cst) = fun i => Ideal.ofBits .f32 (lit0 (S64x4.rowMajor i)) := by
  show StableHlo.after hostOps0 (W0 m ρ c) (Proc.devRef .tc main_cst) = _
  after_results; rfl

theorem W1_cst_0 : W1 m ρ c (Proc.devRef .tc main_cst_0) = fun i => Ideal.ofBits .f32 (lit1 (S4x64.rowMajor i)) := by
  show StableHlo.after hostOps0 (W0 m ρ c) (Proc.devRef .tc main_cst_0) = _
  after_results; rfl

/-- The first table's word at (d, hd) is the word of 1 when d lies in head hd's block of sixteen, the zero word otherwise. -/
theorem lit0_eq : ∀ (d : Fin 64) (hd : Fin 4),
    lit0 (S64x4.rowMajor (ix2 d hd)) = if d.val / 16 = hd.val then 0x3F800000#32 else 0x00000000#32 := by
  decide +kernel

theorem lit1_eq : ∀ (hd : Fin 4) (d : Fin 64),
    lit1 (S4x64.rowMajor (ix2 hd d)) = if d.val / 16 = hd.val then 0x3F800000#32 else 0x00000000#32 := by
  decide +kernel

theorem W1_cst_at (d : Fin 64) (hd : Fin 4) : W1 m ρ c (Proc.devRef .tc main_cst) (ix2 d hd) = G d hd := by
  rw [W1_cst]
  show Ideal.ofBits .f32 (lit0 (S64x4.rowMajor (ix2 d hd))) = _
  rw [lit0_eq]; unfold G
  split <;> rfl

theorem W1_cst_0_at (hd : Fin 4) (d : Fin 64) : W1 m ρ c (Proc.devRef .tc main_cst_0) (ix2 hd d) = Gt hd d := by
  rw [W1_cst_0]
  show Ideal.ofBits .f32 (lit1 (S4x64.rowMajor (ix2 hd d))) = _
  rw [lit1_eq]; unfold Gt
  split <;> rfl

/-- The flat attention vectors: flat feature d is entry (head of d, feature of d within its head). -/
theorem W1_v4_at (d : Fin 64) : W1 m ρ c (Proc.devRef .tc main_v4) (ix2 0 d) = flatA (as3 m c) d := by
  have e : W1 m ρ c (Proc.devRef .tc main_v4) = shapeCast S1x64 (A3 m c) shapeCasts_S1x4x16_S1x64 := by
    show StableHlo.after hostOps0 (W0 m ρ c) (Proc.devRef .tc main_v4) = _
    after_results; rfl
  rw [e]
  refine (shapeCast_apply (A3 m c) shapeCasts_S1x4x16_S1x64 (ix2 0 d) (ix3 0 (headOf d) (featOf d)) ?_).trans rfl
  rw [Shape.rowMajor_val_three, Shape.rowMajor_val_two]
  show (0 * 4 + d.val / 16) * 16 + d.val % 16 = 0 * 64 + d.val
  omega

theorem W1_v5_at (d : Fin 64) : W1 m ρ c (Proc.devRef .tc main_v5) (ix2 0 d) = flatA (ad3 m c) d := by
  have e : W1 m ρ c (Proc.devRef .tc main_v5) = shapeCast S1x64 (A4 m c) shapeCasts_S1x4x16_S1x64 := by
    show StableHlo.after hostOps0 (W0 m ρ c) (Proc.devRef .tc main_v5) = _
    after_results; rfl
  rw [e]
  refine (shapeCast_apply (A4 m c) shapeCasts_S1x4x16_S1x64 (ix2 0 d) (ix3 0 (headOf d) (featOf d)) ?_).trans rfl
  rw [Shape.rowMajor_val_three, Shape.rowMajor_val_two]
  show (0 * 4 + d.val / 16) * 16 + d.val % 16 = 0 * 64 + d.val
  omega

/-- The two rows of the edge list, flattened. -/
theorem W1_v1 : W1 m ρ c (Proc.devRef .tc main_v1) = edgeRow ![0, 0] (by decide) (A0 m c) := by
  show StableHlo.after hostOps0 (W0 m ρ c) (Proc.devRef .tc main_v1) = _
  after_results; rfl

theorem W1_v3 : W1 m ρ c (Proc.devRef .tc main_v3) = edgeRow ![1, 0] (by decide) (A0 m c) := by
  show StableHlo.after hostOps0 (W0 m ρ c) (Proc.devRef .tc main_v3) = _
  after_results; rfl

/-! ## The first grid computation: projected rows and per-node scores -/

theorem W2_v6_0_at (H : RegionFacts) (n : Fin 50000) (d : Fin 64) :
    W2 m ρ c (Proc.devRef .tc main_v6_0) (ix2 n d) = wh (hA m c) (WA m c) n d := by
  have e := congrFun (W2_arr m ρ c 5) (ix2 n d)
  refine e.trans ((H.r0_wh (V1 m ρ) c n d).trans ?_)
  show wh (arr2 (W1 m ρ c (Proc.devRef .tc main_arg1))) (arr2 (W1 m ρ c (Proc.devRef .tc main_arg2))) n d = _
  rw [W1_arg1, W1_arg2]

theorem W2_v6_1_at (H : RegionFacts) (n : Fin 50000) (hd : Fin 4) :
    W2 m ρ c (Proc.devRef .tc main_v6_1) (ix2 n hd) = scoreK (wh (hA m c) (WA m c)) (flatA (as3 m c)) G n hd := by
  have e := congrFun (W2_arr m ρ c 6) (ix2 n hd)
  refine e.trans ((H.r0_ss (V1 m ρ) c n hd).trans ?_)
  show scoreK (wh (arr2 (W1 m ρ c (Proc.devRef .tc main_arg1))) (arr2 (W1 m ρ c (Proc.devRef .tc main_arg2))))
    (fun d => W1 m ρ c (Proc.devRef .tc main_v4) (ix2 0 d)) (arr2 (W1 m ρ c (Proc.devRef .tc main_cst))) n hd = _
  rw [W1_arg1, W1_arg2]
  have e1 : (fun d => W1 m ρ c (Proc.devRef .tc main_v4) (ix2 0 d)) = flatA (as3 m c) := funext fun d => W1_v4_at m ρ c d
  have e2 : (arr2 (W1 m ρ c (Proc.devRef .tc main_cst)) : Fin 64 → Fin 4 → EReal) = G :=
    funext fun d => funext fun hd => W1_cst_at m ρ c d hd
  rw [e1, e2]

theorem W2_v6_2_at (H : RegionFacts) (n : Fin 50000) (hd : Fin 4) :
    W2 m ρ c (Proc.devRef .tc main_v6_2) (ix2 n hd) = scoreK (wh (hA m c) (WA m c)) (flatA (ad3 m c)) G n hd := by
  have e := congrFun (W2_arr m ρ c 7) (ix2 n hd)
  refine e.trans ((H.r0_sd (V1 m ρ) c n hd).trans ?_)
  show scoreK (wh (arr2 (W1 m ρ c (Proc.devRef .tc main_arg1))) (arr2 (W1 m ρ c (Proc.devRef .tc main_arg2))))
    (fun d => W1 m ρ c (Proc.devRef .tc main_v5) (ix2 0 d)) (arr2 (W1 m ρ c (Proc.devRef .tc main_cst))) n hd = _
  rw [W1_arg1, W1_arg2]
  have e1 : (fun d => W1 m ρ c (Proc.devRef .tc main_v5) (ix2 0 d)) = flatA (ad3 m c) := funext fun d => W1_v5_at m ρ c d
  have e2 : (arr2 (W1 m ρ c (Proc.devRef .tc main_cst)) : Fin 64 → Fin 4 → EReal) = G :=
    funext fun d => funext fun hd => W1_cst_at m ρ c d hd
  rw [e1, e2]

/-- The edge rows and the second table pass through the first grid computation untouched. -/
theorem W2_v1 : W2 m ρ c (Proc.devRef .tc main_v1) = edgeRow ![0, 0] (by decide) (A0 m c) :=
  (W2_of_ne m ρ c main_v1 (by decide)).trans (W1_v1 m ρ c)

theorem W2_v3 : W2 m ρ c (Proc.devRef .tc main_v3) = edgeRow ![1, 0] (by decide) (A0 m c) :=
  (W2_of_ne m ρ c main_v3 (by decide)).trans (W1_v3 m ρ c)

theorem W2_cst_0_at (hd : Fin 4) (d : Fin 64) : W2 m ρ c (Proc.devRef .tc main_cst_0) (ix2 hd d) = Gt hd d :=
  (congrFun (W2_of_ne m ρ c main_cst_0 (by decide)) (ix2 hd d)).trans (W1_cst_0_at m ρ c hd d)

/-! ## The second stretch: wrapped edge words, and the three gathers -/

/-- The node the gather reads for a start word is the word read signed and clamped: `node`. -/
theorem node_eq (x : BitVec 32) :
    (⟨min x.toInt.toNat (50000 - 1), by omega⟩ : Fin 50000) = node x := rfl

theorem W3_v13_at (H : RegionFacts) (e : Fin 1000000) (hd : Fin 4) :
    W3 m ρ c (Proc.devRef .tc main_v13) (ix2 e hd)
      = scoreK (wh (hA m c) (WA m c)) (flatA (as3 m c)) G (node (sW m c e)) hd := by
  have e1 : W3 m ρ c (Proc.devRef .tc main_v13)
      = Host.gather (Rows.rowDims (N := 50000) (C := 4) (E := 1000000) (by decide)) (W2 m ρ c (Proc.devRef .tc main_v6_1)) (srcIdx (A0 m c)) := by
    show StableHlo.after hostOps1 (W2 m ρ c) (Proc.devRef .tc main_v13) = _
    after_results
    rw [W2_v1]
    rfl
  rw [e1]
  refine (Rows.gather_row_apply (by decide) _ _ _ e hd).trans ?_
  exact W2_v6_1_at m ρ c H _ hd

theorem W3_v20_at (H : RegionFacts) (e : Fin 1000000) (hd : Fin 4) :
    W3 m ρ c (Proc.devRef .tc main_v20) (ix2 e hd)
      = scoreK (wh (hA m c) (WA m c)) (flatA (ad3 m c)) G (node (dW m c e)) hd := by
  have e1 : W3 m ρ c (Proc.devRef .tc main_v20)
      = Host.gather (Rows.rowDims (N := 50000) (C := 4) (E := 1000000) (by decide)) (W2 m ρ c (Proc.devRef .tc main_v6_2)) (dstIdx (A0 m c)) := by
    show StableHlo.after hostOps1 (W2 m ρ c) (Proc.devRef .tc main_v20) = _
    after_results
    rw [W2_v3]
    rfl
  rw [e1]
  refine (Rows.gather_row_apply (by decide) _ _ _ e hd).trans ?_
  exact W2_v6_2_at m ρ c H _ hd

set_option maxHeartbeats 2000000 in
theorem W3_v27_at (H : RegionFacts) (e : Fin 1000000) (d : Fin 64) :
    W3 m ρ c (Proc.devRef .tc main_v27) (ix2 e d) = wh (hA m c) (WA m c) (node (sW m c e)) d := by
  have e1 : W3 m ρ c (Proc.devRef .tc main_v27)
      = Host.gather (Rows.rowDims (N := 50000) (C := 64) (E := 1000000) (by decide)) (W2 m ρ c (Proc.devRef .tc main_v6_0)) (srcIdx (A0 m c)) := by
    show StableHlo.after hostOps1 (W2 m ρ c) (Proc.devRef .tc main_v27) = _
    after_results_simp
    rw [W2_v1]
    rfl
  rw [e1]
  refine (Rows.gather_row_apply (by decide) _ _ _ e d).trans ?_
  exact W2_v6_0_at m ρ c H _ d

theorem W3_v3 : W3 m ρ c (Proc.devRef .tc main_v3) = edgeRow ![1, 0] (by decide) (A0 m c) := by
  show StableHlo.after hostOps1 (W2 m ρ c) (Proc.devRef .tc main_v3) = _
  exact Eq.trans (by nw_tac hostOps1) (W2_v3 m ρ c)

theorem W3_cst_0_at (hd : Fin 4) (d : Fin 64) : W3 m ρ c (Proc.devRef .tc main_cst_0) (ix2 hd d) = Gt hd d := by
  have e : W3 m ρ c (Proc.devRef .tc main_cst_0) = W2 m ρ c (Proc.devRef .tc main_cst_0) := by
    show StableHlo.after hostOps1 (W2 m ρ c) (Proc.devRef .tc main_cst_0) = _
    nw_tac hostOps1
  rw [e]; exact W2_cst_0_at m ρ c hd d

/-! ## The second grid computation: the logits and their largest value per head -/

theorem W3_scores_src (H : RegionFacts) :
    (arr2 (W3 m ρ c (Proc.devRef .tc main_v13)) : Fin 1000000 → Fin 4 → EReal)
      = fun e hd => scoreK (wh (hA m c) (WA m c)) (flatA (as3 m c)) G (node (sW m c e)) hd :=
  funext fun e => funext fun hd => W3_v13_at m ρ c H e hd

theorem W3_scores_dst (H : RegionFacts) :
    (arr2 (W3 m ρ c (Proc.devRef .tc main_v20)) : Fin 1000000 → Fin 4 → EReal)
      = fun e hd => scoreK (wh (hA m c) (WA m c)) (flatA (ad3 m c)) G (node (dW m c e)) hd :=
  funext fun e => funext fun hd => W3_v20_at m ρ c H e hd

theorem W4_v28_0_at (H : RegionFacts) (e : Fin 1000000) (hd : Fin 4) :
    W4 m ρ c (Proc.devRef .tc main_v28_0) (ix2 e hd) = logitK (hA m c) (WA m c) (as3 m c) (ad3 m c) (sW m c) (dW m c) e hd := by
  have e0 := congrFun (W4_arr m ρ c 2) (ix2 e hd)
  refine e0.trans ((H.r1_e (V3 m ρ) c e hd).trans ?_)
  show logit (arr2 (W3 m ρ c (Proc.devRef .tc main_v13))) (arr2 (W3 m ρ c (Proc.devRef .tc main_v20))) e hd = _
  rw [W3_scores_src m ρ c H, W3_scores_dst m ρ c H]
  rfl

theorem W4_v28_1_at (H : RegionFacts) (hd : Fin 4) :
    W4 m ρ c (Proc.devRef .tc main_v28_1) (ix2 0 hd) = top (logitK (hA m c) (WA m c) (as3 m c) (ad3 m c) (sW m c) (dW m c)) hd := by
  have e0 := congrFun (W4_arr m ρ c 3) (ix2 0 hd)
  refine e0.trans ((H.r1_m (V3 m ρ) c hd).trans ?_)
  show top (logit (arr2 (W3 m ρ c (Proc.devRef .tc main_v13))) (arr2 (W3 m ρ c (Proc.devRef .tc main_v20)))) hd = _
  rw [W3_scores_src m ρ c H, W3_scores_dst m ρ c H]
  rfl

theorem W4_v27_at (H : RegionFacts) (e : Fin 1000000) (d : Fin 64) :
    W4 m ρ c (Proc.devRef .tc main_v27) (ix2 e d) = wh (hA m c) (WA m c) (node (sW m c e)) d :=
  (congrFun (W4_of_ne m ρ c main_v27 (by decide)) (ix2 e d)).trans (W3_v27_at m ρ c H e d)

theorem W4_cst_0_at (hd : Fin 4) (d : Fin 64) : W4 m ρ c (Proc.devRef .tc main_cst_0) (ix2 hd d) = Gt hd d :=
  (congrFun (W4_of_ne m ρ c main_cst_0 (by decide)) (ix2 hd d)).trans (W3_cst_0_at m ρ c hd d)

theorem W4_v3 : W4 m ρ c (Proc.devRef .tc main_v3) = edgeRow ![1, 0] (by decide) (A0 m c) :=
  (W4_of_ne m ρ c main_v3 (by decide)).trans (W3_v3 m ρ c)

/-! ## The third grid computation: the unnormalised messages and the softmax denominators -/

theorem W4_pexp (H : RegionFacts) :
    pexp (arr2 (W4 m ρ c (Proc.devRef .tc main_v28_0))) (fun hd => W4 m ρ c (Proc.devRef .tc main_v28_1) (ix2 0 hd))
      = pK (hA m c) (WA m c) (as3 m c) (ad3 m c) (sW m c) (dW m c) := by
  have e1 : (arr2 (W4 m ρ c (Proc.devRef .tc main_v28_0)) : Fin 1000000 → Fin 4 → EReal)
      = logitK (hA m c) (WA m c) (as3 m c) (ad3 m c) (sW m c) (dW m c) :=
    funext fun e => funext fun hd => W4_v28_0_at m ρ c H e hd
  have e2 : (fun hd => W4 m ρ c (Proc.devRef .tc main_v28_1) (ix2 0 hd))
      = top (logitK (hA m c) (WA m c) (as3 m c) (ad3 m c) (sW m c) (dW m c)) :=
    funext fun hd => W4_v28_1_at m ρ c H hd
  rw [e1, e2]
  rfl

theorem W5_v29_0_at (H : RegionFacts) (e : Fin 1000000) (d : Fin 64) :
    W5 m ρ c (Proc.devRef .tc main_v29_0) (ix2 e d)
      = msgK (pK (hA m c) (WA m c) (as3 m c) (ad3 m c) (sW m c) (dW m c)) Gt (fun e d => wh (hA m c) (WA m c) (node (sW m c e)) d) e d := by
  have e0 := congrFun (W5_arr m ρ c 4) (ix2 e d)
  refine e0.trans ((H.r2_msg (V4 m ρ) c e d).trans ?_)
  show msgK (pexp (arr2 (W4 m ρ c (Proc.devRef .tc main_v28_0))) (fun hd => W4 m ρ c (Proc.devRef .tc main_v28_1) (ix2 0 hd)))
    (arr2 (W4 m ρ c (Proc.devRef .tc main_cst_0))) (arr2 (W4 m ρ c (Proc.devRef .tc main_v27))) e d = _
  have e1 : (arr2 (W4 m ρ c (Proc.devRef .tc main_cst_0)) : Fin 4 → Fin 64 → EReal) = Gt :=
    funext fun hd => funext fun d => W4_cst_0_at m ρ c hd d
  have e2 : (arr2 (W4 m ρ c (Proc.devRef .tc main_v27)) : Fin 1000000 → Fin 64 → EReal)
      = fun e d => wh (hA m c) (WA m c) (node (sW m c e)) d :=
    funext fun e => funext fun d => W4_v27_at m ρ c H e d
  rw [W4_pexp m ρ c H, e1, e2]

theorem W5_v29_1_at (H : RegionFacts) (hd : Fin 4) :
    W5 m ρ c (Proc.devRef .tc main_v29_1) (ix2 0 hd) = zsum (pK (hA m c) (WA m c) (as3 m c) (ad3 m c) (sW m c) (dW m c)) hd := by
  have e0 := congrFun (W5_arr m ρ c 5) (ix2 0 hd)
  refine e0.trans ((H.r2_z (V4 m ρ) c hd).trans ?_)
  show zsum (pexp (arr2 (W4 m ρ c (Proc.devRef .tc main_v28_0))) (fun hd => W4 m ρ c (Proc.devRef .tc main_v28_1) (ix2 0 hd))) hd = _
  rw [W4_pexp m ρ c H]

/-- The second table is an input of the third grid computation: it is left as found. -/
theorem W5_cst_0_at (hd : Fin 4) (d : Fin 64) : W5 m ρ c (Proc.devRef .tc main_cst_0) (ix2 hd d) = Gt hd d := by
  have e : W5 m ρ c (Proc.devRef .tc main_cst_0) = W4 m ρ c (Proc.devRef .tc main_cst_0) :=
    (W5_arr m ρ c 3).trans (((dat2 (V4 m ρ) c).arrAt_in 3 rfl _).trans (A_eq2 (V4 m ρ) c 3))
  rw [e]; exact W4_cst_0_at m ρ c hd d

theorem W5_v3 : W5 m ρ c (Proc.devRef .tc main_v3) = edgeRow ![1, 0] (by decide) (A0 m c) :=
  (W5_of_ne m ρ c main_v3 (by decide)).trans (W4_v3 m ρ c)

/-! ## The third stretch: each edge's message added into the row its destination word names -/

theorem W6_v32_at (H : RegionFacts) (n : Fin 50000) (d : Fin 64) :
    W6 m ρ c (Proc.devRef .tc main_v32) (ix2 n d)
      = landK (dS m c) (msgK (pK (hA m c) (WA m c) (as3 m c) (ad3 m c) (sW m c) (dW m c)) Gt
          (fun e d => wh (hA m c) (WA m c) (node (sW m c e)) d)) n d := by
  have e1 : W6 m ρ c (Proc.devRef .tc main_v32)
      = Host.scatterAdd (F := Ideal) (φ := .f32) (Rows.rowScatter (N := 50000) (C := 64) (E := 1000000) (by decide))
          (fun _ => z0) (dstRaw (A0 m c)) (W5 m ρ c (Proc.devRef .tc main_v29_0)) := by
    show StableHlo.after hostOps3 (W5 m ρ c) (Proc.devRef .tc main_v32) = _
    after_results
    rw [W5_v3]
    rfl
  rw [e1]
  refine (Cert.Hits.scatterAdd_at _ _ _ _ (ix2 n d)).trans ?_
  unfold landK
  refine congrArg (fun s => z0 + s) ?_
  unfold Cert.Hits.hitSet
  refine (Rows.sum_lands (β := EReal) _ (dstRaw (A0 m c)) (W5 m ρ c (Proc.devRef .tc main_v29_0) : (⟨2, ![1000000, 64]⟩ : Shape).Idx → EReal) n d).trans ?_
  unfold hits
  exact Finset.sum_congr rfl fun e _ => W5_v29_0_at m ρ c H e d

theorem W6_v29_1_at (H : RegionFacts) (hd : Fin 4) :
    W6 m ρ c (Proc.devRef .tc main_v29_1) (ix2 0 hd) = zsum (pK (hA m c) (WA m c) (as3 m c) (ad3 m c) (sW m c) (dW m c)) hd := by
  have e : W6 m ρ c (Proc.devRef .tc main_v29_1) = W5 m ρ c (Proc.devRef .tc main_v29_1) := by
    show StableHlo.after hostOps3 (W5 m ρ c) (Proc.devRef .tc main_v29_1) = _
    nw_tac hostOps3
  rw [e]; exact W5_v29_1_at m ρ c H hd

theorem W6_cst_0_at (hd : Fin 4) (d : Fin 64) : W6 m ρ c (Proc.devRef .tc main_cst_0) (ix2 hd d) = Gt hd d := by
  have e : W6 m ρ c (Proc.devRef .tc main_cst_0) = W5 m ρ c (Proc.devRef .tc main_cst_0) := by
    show StableHlo.after hostOps3 (W5 m ρ c) (Proc.devRef .tc main_cst_0) = _
    nw_tac hostOps3
  rw [e]; exact W5_cst_0_at m ρ c hd d

/-! ## The last grid computation, and the whole -/

/-- The result array after the run is the flat form of the layer on the argument arrays. -/
theorem kernel_value (H : RegionFacts) :
    W7 m ρ c (Proc.devRef .tc main_v33)
      = fun i => outK (hA m c) (WA m c) (as3 m c) (ad3 m c) (sW m c) (dW m c) (dS m c) (i 0) (i 1) := by
  funext i
  obtain ⟨n, d, rfl⟩ : ∃ (n : Fin 50000) (d : Fin 64), i = ix2 n d := ⟨i 0, i 1, eq_ix2 i⟩
  show W7 m ρ c (Proc.devRef .tc main_v33) (ix2 n d) = outK (hA m c) (WA m c) (as3 m c) (ad3 m c) (sW m c) (dW m c) (dS m c) n d
  have e0 := congrFun (W7_arr m ρ c 3) (ix2 n d)
  refine e0.trans ((H.r3_out (V6 m ρ) c n d).trans ?_)
  show normK (arr2 (W6 m ρ c (Proc.devRef .tc main_v32))) (fun hd => W6 m ρ c (Proc.devRef .tc main_v29_1) (ix2 0 hd))
    (arr2 (W6 m ρ c (Proc.devRef .tc main_cst_0))) n d = _
  have e1 : (arr2 (W6 m ρ c (Proc.devRef .tc main_v32)) : Fin 50000 → Fin 64 → EReal)
      = landK (dS m c) (msgK (pK (hA m c) (WA m c) (as3 m c) (ad3 m c) (sW m c) (dW m c)) Gt
          (fun e d => wh (hA m c) (WA m c) (node (sW m c e)) d)) :=
    funext fun n => funext fun d => W6_v32_at m ρ c H n d
  have e2 : (fun hd => W6 m ρ c (Proc.devRef .tc main_v29_1) (ix2 0 hd))
      = zsum (pK (hA m c) (WA m c) (as3 m c) (ad3 m c) (sW m c) (dW m c)) :=
    funext fun hd => W6_v29_1_at m ρ c H hd
  have e3 : (arr2 (W6 m ρ c (Proc.devRef .tc main_cst_0)) : Fin 4 → Fin 64 → EReal) = Gt :=
    funext fun hd => funext fun d => W6_cst_0_at m ρ c hd d
  rw [e1, e2, e3]
  rfl

end Cert.Gat.KValue

end
-- ==== Proof.RefValue.lean ====
/-
  The reference program's result is the split form of the graph-attention layer.

  The reference projects the node features (50000 x 128 times 128 x 64), splits the 64 columns into 4 heads of 16
  features, gathers the projected rows at each edge's source and destination, forms per edge and head the leaky
  rectifier of the sum of two scores (each score: zero plus the sum over the head's 16 features of projected feature
  times attention coefficient), takes per head the softmax over ALL edges (largest logit from minus infinity,
  exponentials, zero plus their sum, quotient), multiplies each edge's weight into its source's projected row,
  adds every edge's row into its destination node (an edge whose destination word, read signed, is not a node
  lands nowhere), rectifies, and flattens (head, feature) back to 64 columns.

  Sixty-one of the sixty-five operations are read at an index by the generated stage lemmas.  Read here by hand:
    * the two gathers: result element (e, hd, f) is the operand at (node w, hd, f), w the edge's start word, read
      signed and clamped into [0, 49999] — axis 0 is collapsed and carries the start index, axes 1 and 2 are offset
      axes carrying the result's own coordinates;
    * the maximum over the edge axis: a fold of max from the word of minus infinity, which denotes the least extended
      real, so the fold is the supremum over the edges;
    * the scatter-add: the operand's element plus the sum of the updates landing on it; update (e, hd', f') lands on
      (n, hd, f) exactly when edge e's word read signed is n and (hd', f') = (hd, f), so the sum runs over the edges
      that land on n.
  The reshapes read (n, hd, f) at flat column 16 hd + f, by division and remainder on literals.  With these, each
  stage read at explicit coordinates is the specification's part of the same name, and the chain ends in `outR`.
-/
import proofs.«116205_j188978561163_2_alg».proof.Proof.Gen.ReferenceIdeal.Read
import proofs.«116205_j188978561163_2_alg».proof.Proof.Spec
import proofs.«116205_j188978561163_2_alg».proof.Proof.LibHitSet
import proofs.«116205_j188978561163_2_alg».proof.Proof.EdgeIdx
import Idealize.ShloMosaic.Lib.ValueIdx
import Idealize.ShloMosaic.PureOps.Ideal.Laws

noncomputable section

open scoped BigOperators

namespace Cert.Gat.Ref

open Cert.ReferenceIdeal Cert.ReferenceIdeal.Gen Cert.ReferenceIdeal.Read Idealize.ShloMosaic Idealize.ShloMosaic.ValueIdx
  Idealize.ShloMosaic.TcCoe Idealize.SL.Sem

/-! ## The three index columns are the program's own -/

theorem v11_eq (A0 : IVec S2x1000000 32) : val_main_v11 (F := Ideal) A0 = srcIdx A0 := rfl
theorem v18_eq (A0 : IVec S2x1000000 32) : val_main_v18 (F := Ideal) A0 = dstIdx A0 := rfl
theorem v47_eq (A0 : IVec S2x1000000 32) : val_main_v47 (F := Ideal) A0 = dstRaw A0 := rfl

/-! ## The gather of rows, read at an index -/

/-- The gathers' dimension numbers: operand [50000,4,16], start indices [1000000,1], result [1000000,4,16]. -/
abbrev GD : GatherDims S50000x4x16 S1000000x1 S1000000x4x16 := gather_S50000x4x16_S1000000x1_S1000000x4x16_12_0_n_n_0_1_1416

set_option maxHeartbeats 400000 in
theorem gather_rows_apply {α : Type} (x : S50000x4x16.Idx → α) (idx : IVec S1000000x1 32)
    (e : Fin 1000000) (hd : Fin 4) (f : Fin 16) :
    Host.gather GD x idx (ix3 e hd f) = x (ix3 (node (idx (ix2 e (0 : Fin 1)))) hd f) := by
  unfold Host.gather
  congr 1
  funext a
  refine Fin.ext ?_
  match a with
  | ⟨0, _⟩ =>
    show GD.start (ix3 e hd f) idx 0 + GD.batchCoord (ix3 e hd f) 0 + GD.offCoord (ix3 e hd f) 0 = _
    rw [GatherDims.batchCoord_eq_zero _ _ _ (by decide), GatherDims.offCoord_eq_zero _ _ _ (by decide)]
    simp only [Nat.add_zero]
    unfold GatherDims.start
    rw [dif_pos (show (0 : Fin S50000x4x16.rank) ∈ GD.startIndexMap by decide)]
    have hsi : GD.siIdx (ix3 e hd f) ⟨List.idxOf (0 : Fin S50000x4x16.rank) GD.startIndexMap,
        List.idxOf_lt_length_iff.2 (by decide)⟩ = ix2 e (0 : Fin 1) := by
      funext b; refine Fin.ext ?_
      match b with
      | ⟨0, _⟩ => rfl
      | ⟨1, _⟩ => rfl
    rw [hsi]
    rfl
  | ⟨1, _⟩ =>
    show GD.start (ix3 e hd f) idx 1 + GD.batchCoord (ix3 e hd f) 1 + GD.offCoord (ix3 e hd f) 1 = hd.val
    rw [GatherDims.batchCoord_eq_zero _ _ _ (by decide)]
    unfold GatherDims.start GatherDims.offCoord
    rw [dif_neg (by decide), dif_pos (by decide)]
    simp only [Nat.zero_add, Nat.add_zero]
    rfl
  | ⟨2, _⟩ =>
    show GD.start (ix3 e hd f) idx 2 + GD.batchCoord (ix3 e hd f) 2 + GD.offCoord (ix3 e hd f) 2 = f.val
    rw [GatherDims.batchCoord_eq_zero _ _ _ (by decide)]
    unfold GatherDims.start GatherDims.offCoord
    rw [dif_neg (by decide), dif_pos (by decide)]
    simp only [Nat.zero_add, Nat.add_zero]
    rfl

/-! ## The maximum over the edges, read at a head -/

/-- The reduced index `hd` with edge `k` put back on the dropped axis is (k, hd). -/
theorem lift_rows (h : S1000000x4.Reduces [0] S4) (hd : Fin 4) (k : Fin (S1000000x4.size 0)) :
    h.lift (ix1 hd) k = ix2 (⟨k.val, k.isLt⟩ : Fin 1000000) hd := by
  funext c; apply Fin.ext
  match c with
  | ⟨0, _⟩ => rfl
  | ⟨1, _⟩ => rfl

/-- The word of minus infinity denotes the least extended real. -/
theorem ofBits_ninf : Ideal.ofBits .f32 0xFF800000#32 = (⊥ : EReal) := by
  simp [Ideal.ofBits, Ideal.ieee]

set_option maxHeartbeats 400000 in
/-- From minus infinity, the host's reduce with a maximum body over the edge axis is, at head `hd`, the supremum over
    the edges. -/
theorem reduce_max_rows (x : FVec Ideal S1000000x4 .f32) (h' : S1000000x4.ReducesTo [0] S4) (hu : 0 < S_.numel) (hd : Fin 4) :
    Host.reduce FloatOps.maximumf x (constant (F := Ideal) S_ .f32 0xFF800000#32) h' hu (ix1 hd)
      = Finset.univ.sup fun e : Fin 1000000 => x (ix2 e hd) := by
  have h : S1000000x4.Reduces [0] S4 := by decide
  rw [Host.reduce_eq_fold_single FloatOps.maximumf x _ h' h hu]
  have hf : (x ∘ h.lift (ix1 hd)) = fun k : Fin 1000000 => x (ix2 k hd) := funext fun k => congrArg x (lift_rows h hd k)
  rw [hf]
  show Finset.fold max (Ideal.ofBits .f32 0xFF800000#32) (fun k : Fin 1000000 => x (ix2 k hd)) Finset.univ = _
  rw [ofBits_ninf]
  rfl

/-! ## The scatter-add, read at an element -/

/-- The scatter's dimension numbers: operand [50000,4,16], indices [1000000,1], updates [1000000,4,16]. -/
abbrev SD : ScatterDims S50000x4x16 S1000000x1 S1000000x4x16 := scatter_S50000x4x16_S1000000x1_S1000000x4x16_12_0_0_1

section Scatter
variable (idx : IVec S1000000x1 32) (e : Fin 1000000) (hd' : Fin 4) (f' : Fin 16)

theorem scatter_start0 : SD.start (ix3 e hd' f') idx 0 = (idx (ix2 e (0 : Fin 1))).toInt := by
  unfold ScatterDims.start
  rw [dif_pos (show (0 : Fin S50000x4x16.rank) ∈ SD.scatterDimsToOperandDims by decide)]
  have hsi : SD.siIdx (ix3 e hd' f') ⟨List.idxOf (0 : Fin S50000x4x16.rank) SD.scatterDimsToOperandDims,
      List.idxOf_lt_length_iff.2 (by decide)⟩ = ix2 e (0 : Fin 1) := by
    funext b; refine Fin.ext ?_
    match b with
    | ⟨0, _⟩ => rfl
    | ⟨1, _⟩ => rfl
  rw [hsi]
theorem scatter_start1 : SD.start (ix3 e hd' f') idx 1 = 0 := by
  unfold ScatterDims.start; rw [dif_neg (by decide)]
theorem scatter_start2 : SD.start (ix3 e hd' f') idx 2 = 0 := by
  unfold ScatterDims.start; rw [dif_neg (by decide)]
theorem scatter_window0 : SD.window (ix3 e hd' f') 0 = 0 := by
  unfold ScatterDims.window; rw [dif_neg (by decide)]
theorem scatter_window1 : SD.window (ix3 e hd' f') 1 = hd'.val := by
  unfold ScatterDims.window; rw [dif_pos (by decide)]; rfl
theorem scatter_window2 : SD.window (ix3 e hd' f') 2 = f'.val := by
  unfold ScatterDims.window; rw [dif_pos (by decide)]; rfl

end Scatter

section Lands
variable (idx : IVec S1000000x1 32)

set_option maxHeartbeats 400000 in
/-- An update (e, hd', f') lands on operand element (n, hd, f) exactly when edge e's word, read signed, is n and the
    window coordinates agree. -/
theorem scatter_lands (e : Fin 1000000) (hd' : Fin 4) (f' : Fin 16) (n : Fin 50000) (hd : Fin 4) (f : Fin 16) :
    SD.resultIdx? (ix3 e hd' f') idx = some (ix3 n hd f)
      ↔ (idx (ix2 e (0 : Fin 1))).toInt = (n.val : Int) ∧ hd' = hd ∧ f' = f := by
  unfold ScatterDims.resultIdx?
  constructor
  · intro h
    split at h
    · next hin =>
      have h' := Option.some.inj h
      have h0 := congrArg (fun i : S50000x4x16.Idx => (i 0).val) h'
      have h1 := congrArg (fun i : S50000x4x16.Idx => (i 1).val) h'
      have h2 := congrArg (fun i : S50000x4x16.Idx => (i 2).val) h'
      have b0 := (hin 0).1
      simp only [scatter_start0, scatter_start1, scatter_start2, scatter_window0, scatter_window1, scatter_window2] at h0 h1 h2 b0
      refine ⟨?_, Fin.ext ?_, Fin.ext ?_⟩
      · have : ((idx (ix2 e (0 : Fin 1))).toInt + ((0 : Nat) : Int)).toNat = n.val := h0
        omega
      · have : ((0 : Int) + (hd'.val : Int)).toNat = hd.val := h1
        omega
      · have : ((0 : Int) + (f'.val : Int)).toNat = f.val := h2
        omega
    · exact absurd h (by simp)
  · rintro ⟨h0, rfl, rfl⟩
    have hn := n.isLt
    have hh := hd'.isLt
    have hf := f'.isLt
    have hall : ∀ a : Fin S50000x4x16.rank, 0 ≤ SD.start (ix3 e hd' f') idx a + SD.window (ix3 e hd' f') a ∧
        SD.start (ix3 e hd' f') idx a + SD.window (ix3 e hd' f') a < S50000x4x16.size a := fun a => by
      match a with
      | ⟨0, _⟩ =>
        show 0 ≤ SD.start (ix3 e hd' f') idx 0 + SD.window (ix3 e hd' f') 0 ∧
          SD.start (ix3 e hd' f') idx 0 + SD.window (ix3 e hd' f') 0 < ((50000 : Nat) : Int)
        rw [scatter_start0, scatter_window0, h0]; omega
      | ⟨1, _⟩ =>
        show 0 ≤ SD.start (ix3 e hd' f') idx 1 + SD.window (ix3 e hd' f') 1 ∧
          SD.start (ix3 e hd' f') idx 1 + SD.window (ix3 e hd' f') 1 < ((4 : Nat) : Int)
        rw [scatter_start1, scatter_window1]; omega
      | ⟨2, _⟩ =>
        show 0 ≤ SD.start (ix3 e hd' f') idx 2 + SD.window (ix3 e hd' f') 2 ∧
          SD.start (ix3 e hd' f') idx 2 + SD.window (ix3 e hd' f') 2 < ((16 : Nat) : Int)
        rw [scatter_start2, scatter_window2]; omega
    rw [dif_pos hall]
    refine congrArg some (funext fun a => Fin.ext ?_)
    match a with
    | ⟨0, _⟩ =>
      show (SD.start (ix3 e hd' f') idx 0 + SD.window (ix3 e hd' f') 0).toNat = n.val
      rw [scatter_start0, scatter_window0, h0]; omega
    | ⟨1, _⟩ =>
      show (SD.start (ix3 e hd' f') idx 1 + SD.window (ix3 e hd' f') 1).toNat = hd'.val
      rw [scatter_start1, scatter_window1]; omega
    | ⟨2, _⟩ =>
      show (SD.start (ix3 e hd' f') idx 2 + SD.window (ix3 e hd' f') 2).toNat = f'.val
      rw [scatter_start2, scatter_window2]; omega

set_option maxHeartbeats 400000 in
/-- The updates that land on (n, hd, f) are the edges that land on n, each at window coordinates (hd, f). -/
theorem sum_hitSet (u : FVec Ideal S1000000x4x16 .f32) (n : Fin 50000) (hd : Fin 4) (f : Fin 16) :
    ∑ j ∈ Cert.Hits.hitSet SD idx (ix3 n hd f), u j
      = ∑ e ∈ hits (fun e => idx (ix2 e (0 : Fin 1))) n, u (ix3 e hd f) := by
  refine Finset.sum_nbij' (fun j : S1000000x4x16.Idx => (j 0 : Fin 1000000)) (fun e => ix3 e hd f) ?_ ?_ ?_ ?_ ?_
  · intro j hj
    obtain ⟨e, hd', f', rfl⟩ : ∃ (e : Fin 1000000) (hd' : Fin 4) (f' : Fin 16), j = ix3 e hd' f' := ⟨j 0, j 1, j 2, eq_ix3 j⟩
    have hl := (scatter_lands idx e hd' f' n hd f).mp ((Cert.Hits.mem_hitSet SD idx _ _).mp hj)
    exact Finset.mem_filter.mpr ⟨Finset.mem_univ _, hl.1⟩
  · intro e he
    exact (Cert.Hits.mem_hitSet SD idx _ _).mpr ((scatter_lands idx e hd f n hd f).mpr ⟨(Finset.mem_filter.mp he).2, rfl, rfl⟩)
  · intro j hj
    obtain ⟨e, hd', f', rfl⟩ : ∃ (e : Fin 1000000) (hd' : Fin 4) (f' : Fin 16), j = ix3 e hd' f' := ⟨j 0, j 1, j 2, eq_ix3 j⟩
    have hl := (scatter_lands idx e hd' f' n hd f).mp ((Cert.Hits.mem_hitSet SD idx _ _).mp hj)
    obtain ⟨_, rfl, rfl⟩ := hl
    rfl
  · intro e _
    rfl
  · intro j hj
    obtain ⟨e, hd', f', rfl⟩ : ∃ (e : Fin 1000000) (hd' : Fin 4) (f' : Fin 16), j = ix3 e hd' f' := ⟨j 0, j 1, j 2, eq_ix3 j⟩
    have hl := (scatter_lands idx e hd' f' n hd f).mp ((Cert.Hits.mem_hitSet SD idx _ _).mp hj)
    obtain ⟨_, rfl, rfl⟩ := hl
    rfl

end Lands

/-! ## The stages, read at explicit coordinates -/

/-- An attention table [1,4,16] as a function of head and feature. -/
abbrev att (A : (⟨S1x4x16, .f32⟩ : BufTy).Contents (Elt Ideal)) : Fin 4 → Fin 16 → EReal := fun hd f => A (ix3 (0 : Fin 1) hd f)
/-- An index column [1000000,1] as a function of the edge. -/
abbrev ecol (I : IVec S1000000x1 32) : Fin 1000000 → BitVec 32 := fun e => I (ix2 e (0 : Fin 1))

section Stages
variable (A0 : (⟨S2x1000000, .i32⟩ : BufTy).Contents (Elt Ideal))
  (A1 : (⟨S50000x128, .f32⟩ : BufTy).Contents (Elt Ideal)) (A2 : (⟨S128x64, .f32⟩ : BufTy).Contents (Elt Ideal))
  (A3 A4 : (⟨S1x4x16, .f32⟩ : BufTy).Contents (Elt Ideal))

set_option maxHeartbeats 400000 in
/-- The projected features, reshaped to (node, head, feature): element (n, hd, f) is row n of h times column
    16 hd + f of W. -/
theorem proj_at (n : Fin 50000) (hd : Fin 4) (f : Fin 16) :
    val_main_v1 (F := Ideal) A1 A2 (ix3 n hd f) = wh (arr2 A1) (arr2 A2) n (flat hd f) := by
  have hh := hd.isLt
  have hf := f.isLt
  rw [val_main_v1_apply, val_main_v0_apply]
  unfold wh
  refine Finset.sum_congr rfl fun k _ => ?_
  have el : lidx_main_v0 (idx_main_v1 (ix3 n hd f)) k = ix2 n k := funext fun a => Fin.ext (by
    match a with
    | ⟨0, _⟩ => show ((n.val * 4 + hd.val) * 16 + f.val) / 64 = n.val; omega
    | ⟨1, _⟩ => rfl)
  have er : ridx_main_v0 (idx_main_v1 (ix3 n hd f)) k = ix2 k (flat hd f) := funext fun a => Fin.ext (by
    match a with
    | ⟨0, _⟩ => rfl
    | ⟨1, _⟩ => show ((n.val * 4 + hd.val) * 16 + f.val) % 64 = 16 * hd.val + f.val; omega)
  rw [el, er]

/-- A gather of the projected rows by an index column: edge e reads the row of the node its word names. -/
theorem rows_at (I : IVec S1000000x1 32) (e : Fin 1000000) (hd : Fin 4) (f : Fin 16) :
    Host.gather GD (val_main_v1 (F := Ideal) A1 A2) I (ix3 e hd f)
      = wh (arr2 A1) (arr2 A2) (node (ecol I e)) (flat hd f) := by
  rw [gather_rows_apply, proj_at]

theorem v12_at (e : Fin 1000000) (hd : Fin 4) (f : Fin 16) :
    val_main_v12 (F := Ideal) A0 A1 A2 (ix3 e hd f) = wh (arr2 A1) (arr2 A2) (node (ecol (srcIdx A0) e)) (flat hd f) :=
  rows_at A1 A2 (srcIdx A0) e hd f

theorem v19_at (e : Fin 1000000) (hd : Fin 4) (f : Fin 16) :
    val_main_v19 (F := Ideal) A0 A1 A2 (ix3 e hd f) = wh (arr2 A1) (arr2 A2) (node (ecol (dstIdx A0) e)) (flat hd f) :=
  rows_at A1 A2 (dstIdx A0) e hd f

set_option maxHeartbeats 400000 in
/-- The source score of edge e and head hd. -/
theorem v22_at (e : Fin 1000000) (hd : Fin 4) :
    val_main_v22 (F := Ideal) A0 A1 A2 A3 (ix2 e hd)
      = scoreR (arr2 A1) (arr2 A2) (att A3) (node (ecol (srcIdx A0) e)) hd := by
  rw [val_main_v22_apply]
  unfold scoreR
  refine congrArg₂ (· + ·) rfl (Finset.sum_congr rfl fun k _ => ?_)
  have ei : idx_main_v22 (ix2 e hd) k = ix3 e hd k := funext fun a => by
    match a with
    | ⟨0, _⟩ => rfl
    | ⟨1, _⟩ => rfl
    | ⟨2, _⟩ => rfl
  have e20 : idx_main_v20 (ix3 e hd k) = ix3 (0 : Fin 1) hd k := funext fun a => by
    match a with
    | ⟨0, _⟩ => rfl
    | ⟨1, _⟩ => rfl
    | ⟨2, _⟩ => rfl
  rw [ei, val_main_v21_apply, val_main_v20_apply, e20, v12_at]
  rfl

set_option maxHeartbeats 400000 in
/-- The destination score of edge e and head hd. -/
theorem v25_at (e : Fin 1000000) (hd : Fin 4) :
    val_main_v25 (F := Ideal) A0 A1 A2 A4 (ix2 e hd)
      = scoreR (arr2 A1) (arr2 A2) (att A4) (node (ecol (dstIdx A0) e)) hd := by
  rw [val_main_v25_apply]
  unfold scoreR
  refine congrArg₂ (· + ·) rfl (Finset.sum_congr rfl fun k _ => ?_)
  have ei : idx_main_v25 (ix2 e hd) k = ix3 e hd k := funext fun a => by
    match a with
    | ⟨0, _⟩ => rfl
    | ⟨1, _⟩ => rfl
    | ⟨2, _⟩ => rfl
  have e23 : idx_main_v23 (ix3 e hd k) = ix3 (0 : Fin 1) hd k := funext fun a => by
    match a with
    | ⟨0, _⟩ => rfl
    | ⟨1, _⟩ => rfl
    | ⟨2, _⟩ => rfl
  rw [ei, val_main_v24_apply, val_main_v23_apply, e23, v19_at]
  rfl

/-- The logits as the specification names them. -/
abbrev LG : Fin 1000000 → Fin 4 → EReal :=
  logitR (arr2 A1) (arr2 A2) (att A3) (att A4) (ecol (srcIdx A0)) (ecol (dstIdx A0))

set_option maxHeartbeats 400000 in
/-- The logit of edge e and head hd: the leaky rectifier of the sum of the two scores. -/
theorem v31_at (e : Fin 1000000) (hd : Fin 4) :
    val_main_v31 (F := Ideal) A0 A1 A2 A3 A4 (ix2 e hd) = LG A0 A1 A2 A3 A4 e hd := by
  rw [val_main_v31_apply, val_main_v28_apply, val_main_v30_apply, val_main_v27_apply, val_main_v29_apply,
    val_main_v26_apply, v22_at, v25_at]
  rfl

end Stages

section Stages2
variable (A0 : (⟨S2x1000000, .i32⟩ : BufTy).Contents (Elt Ideal))
  (A1 : (⟨S50000x128, .f32⟩ : BufTy).Contents (Elt Ideal)) (A2 : (⟨S128x64, .f32⟩ : BufTy).Contents (Elt Ideal))
  (A3 A4 : (⟨S1x4x16, .f32⟩ : BufTy).Contents (Elt Ideal))

/-- The head's largest logit, the numerators and the weights, as the specification names them. -/
abbrev TP : Fin 4 → EReal :=
  topR (arr2 A1) (arr2 A2) (att A3) (att A4) (ecol (srcIdx A0)) (ecol (dstIdx A0))
abbrev PR : Fin 1000000 → Fin 4 → EReal :=
  pR (arr2 A1) (arr2 A2) (att A3) (att A4) (ecol (srcIdx A0)) (ecol (dstIdx A0))
abbrev AT : Fin 1000000 → Fin 4 → EReal :=
  attnR (arr2 A1) (arr2 A2) (att A3) (att A4) (ecol (srcIdx A0)) (ecol (dstIdx A0))

set_option maxHeartbeats 400000 in
/-- The head's largest logit: the larger of minus infinity and the supremum over the edges. -/
theorem v34_at (hd : Fin 4) :
    val_main_v34 (F := Ideal) A0 A1 A2 A3 A4 (ix1 hd) = TP A0 A1 A2 A3 A4 hd := by
  have h32 : val_main_v32 (F := Ideal) A0 A1 A2 A3 A4 (ix1 hd)
      = Finset.univ.sup fun e : Fin 1000000 => LG A0 A1 A2 A3 A4 e hd := by
    refine (reduce_max_rows (val_main_v31 (F := Ideal) A0 A1 A2 A3 A4) _ _ hd).trans ?_
    exact congrArg (Finset.sup Finset.univ) (funext fun e => v31_at A0 A1 A2 A3 A4 e hd)
  rw [val_main_v34_apply, val_main_v33_apply, h32]
  rfl

set_option maxHeartbeats 400000 in
/-- The softmax numerator of edge e and head hd. -/
theorem v38_at (e : Fin 1000000) (hd : Fin 4) :
    val_main_v38 (F := Ideal) A0 A1 A2 A3 A4 (ix2 e hd) = PR A0 A1 A2 A3 A4 e hd := by
  have ei : idx_main_v35 (idx_main_v36 (ix2 e hd)) = ix1 hd := funext fun a => by
    match a with
    | ⟨0, _⟩ => rfl
  rw [val_main_v38_apply, val_main_v37_apply, val_main_v36_apply, val_main_v35_apply, ei, v34_at, v31_at]
  rfl

set_option maxHeartbeats 400000 in
/-- The softmax denominator of head hd: zero plus the sum of the numerators over all edges. -/
theorem v39_at (hd : Fin 4) :
    val_main_v39 (F := Ideal) A0 A1 A2 A3 A4 (ix1 hd) = z0 + zsum (PR A0 A1 A2 A3 A4) hd := by
  rw [val_main_v39_apply]
  unfold zsum
  refine congrArg₂ (· + ·) rfl (Finset.sum_congr rfl fun k _ => ?_)
  have ei : idx_main_v39 (ix1 hd) k = ix2 k hd := funext fun a => by
    match a with
    | ⟨0, _⟩ => rfl
    | ⟨1, _⟩ => rfl
  rw [ei, v38_at]

set_option maxHeartbeats 400000 in
/-- The softmax weight of edge e and head hd. -/
theorem v42_at (e : Fin 1000000) (hd : Fin 4) :
    val_main_v42 (F := Ideal) A0 A1 A2 A3 A4 (ix2 e hd) = AT A0 A1 A2 A3 A4 e hd := by
  have ei : idx_main_v40 (idx_main_v41 (ix2 e hd)) = ix1 hd := funext fun a => by
    match a with
    | ⟨0, _⟩ => rfl
  rw [val_main_v42_apply, val_main_v41_apply, val_main_v40_apply, ei, v39_at, v38_at]
  rfl

set_option maxHeartbeats 400000 in
/-- The message of edge e: its weight times its source's projected feature. -/
theorem v45_at (e : Fin 1000000) (hd : Fin 4) (f : Fin 16) :
    val_main_v45 (F := Ideal) A0 A1 A2 A3 A4 (ix3 e hd f)
      = AT A0 A1 A2 A3 A4 e hd * wh (arr2 A1) (arr2 A2) (node (ecol (srcIdx A0) e)) (flat hd f) := by
  have ei : idx_main_v43 (idx_main_v44 (ix3 e hd f)) = ix2 e hd := funext fun a => by
    match a with
    | ⟨0, _⟩ => rfl
    | ⟨1, _⟩ => rfl
  rw [val_main_v45_apply, val_main_v44_apply, val_main_v43_apply, ei, v42_at, v12_at]
  rfl

set_option maxHeartbeats 400000 in
/-- What lands on node n at (hd, f): zero plus the messages of the edges whose destination word is n. -/
theorem v48_at (n : Fin 50000) (hd : Fin 4) (f : Fin 16) :
    val_main_v48 (F := Ideal) A0 A1 A2 A3 A4 (ix3 n hd f)
      = z0 + ∑ e ∈ hits (ecol (dstRaw A0)) n,
          AT A0 A1 A2 A3 A4 e hd * wh (arr2 A1) (arr2 A2) (node (ecol (srcIdx A0) e)) (flat hd f) := by
  unfold val_main_v48
  rw [Cert.Hits.scatterAdd_at]
  refine congrArg₂ (· + ·) ?_ ?_
  · rw [val_main_v46_apply]; rfl
  · rw [v47_eq]
    refine (sum_hitSet (dstRaw A0) (val_main_v45 (F := Ideal) A0 A1 A2 A3 A4) n hd f).trans ?_
    exact Finset.sum_congr rfl fun e _ => v45_at A0 A1 A2 A3 A4 e hd f

set_option maxHeartbeats 400000 in
/-- THE REFERENCE'S RESULT, as a function of its five arguments, read at (n, d): the split form of the layer. -/
theorem v50_at (n : Fin 50000) (d : Fin 64) :
    val_main_v50 (F := Ideal) A0 A1 A2 A3 A4 (ix2 n d)
      = outR (arr2 A1) (arr2 A2) (att A3) (att A4) (ecol (srcIdx A0)) (ecol (dstIdx A0)) (ecol (dstRaw A0)) n d := by
  have hd := d.isLt
  have ei : idx_main_v50 (ix2 n d) = ix3 n (headOf d) (featOf d) := funext fun a => Fin.ext (by
    match a with
    | ⟨0, _⟩ => show (n.val * 64 + d.val) / 64 = n.val; omega
    | ⟨1, _⟩ => show (n.val * 64 + d.val) / 16 % 4 = d.val / 16; omega
    | ⟨2, _⟩ => show (n.val * 64 + d.val) % 16 = d.val % 16; omega)
  have ef : flat (headOf d) (featOf d) = d := Fin.ext (by show 16 * (d.val / 16) + d.val % 16 = d.val; omega)
  rw [val_main_v50_apply, val_main_v49_apply, ei, v48_at, ef, val_main_call1_v0_apply]
  rfl

end Stages2

/-! ## The run's result, and the packaged run -/

set_option maxHeartbeats 400000 in
/-- The run's result term for the output, read at (n, d), is the split form of the layer at the launch contents of
    the five arguments, with the three index columns the ones the program computes from the edge list. -/
theorem ref_value (m' : (ℓ : Loc nD τ sig) → Buf (Elt Ideal) ℓ) (c : Dev nD) (n : Fin 50000) (d : Fin 64) :
    Cert.ReferenceIdeal.Value.res_main_v50 (F := Ideal) m' c (ix2 n d)
      = outR (arr2 (m' ((c.tc : Thread nD τ).loc main_arg1))) (arr2 (m' ((c.tc : Thread nD τ).loc main_arg2)))
          (fun hd f => m' ((c.tc : Thread nD τ).loc main_arg3) (ix3 (0 : Fin 1) hd f))
          (fun hd f => m' ((c.tc : Thread nD τ).loc main_arg4) (ix3 (0 : Fin 1) hd f))
          (fun e => srcIdx (m' ((c.tc : Thread nD τ).loc main_arg0)) (ix2 e (0 : Fin 1)))
          (fun e => dstIdx (m' ((c.tc : Thread nD τ).loc main_arg0)) (ix2 e (0 : Fin 1)))
          (fun e => dstRaw (m' ((c.tc : Thread nD τ).loc main_arg0)) (ix2 e (0 : Fin 1))) n d := by
  rw [val_main_v50_eq]
  exact v50_at _ _ _ _ _ n d

set_option maxHeartbeats 4000000 in
/-- Every weakly fair execution of the reference from the launch memory terminates with the output the split form of
    the layer, element by element, and the five arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v50)
        = (fun i : S50000x64.Idx =>
            outR (arr2 (m' ((c.tc : Thread nD τ).loc main_arg1))) (arr2 (m' ((c.tc : Thread nD τ).loc main_arg2)))
              (fun hd f => m' ((c.tc : Thread nD τ).loc main_arg3) (ix3 (0 : Fin 1) hd f))
              (fun hd f => m' ((c.tc : Thread nD τ).loc main_arg4) (ix3 (0 : Fin 1) hd f))
              (fun e => srcIdx (m' ((c.tc : Thread nD τ).loc main_arg0)) (ix2 e (0 : Fin 1)))
              (fun e => dstIdx (m' ((c.tc : Thread nD τ).loc main_arg0)) (ix2 e (0 : Fin 1)))
              (fun e => dstRaw (m' ((c.tc : Thread nD τ).loc main_arg0)) (ix2 e (0 : Fin 1))) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun r h c => ⟨(h c).1.trans (funext fun i => by
      obtain ⟨n, d, rfl⟩ : ∃ (n : Fin 50000) (d : Fin 64), i = ix2 n d := ⟨i 0, i 1, eq_ix2 i⟩
      exact ref_value m' c n d), (h c).2⟩)
    (Cert.ReferenceIdeal.Value.run (F := Ideal) m' ρ')

end Cert.Gat.Ref

end
-- ==== Proof.LibExtRealLayer.lean ====
import Idealize.ShloMosaic.PureOps.Ideal

/-!
  Real-valued entries of a graph-convolution row on the extended reals.

  On `EReal` multiplication does not distribute over addition at the infinities, so two
  arrangements of the same row, `d · (Σ g + g₀)` with `g = h · d`, and
  `Σ h · (dγ · dδ) + h₀ · d²` with `dδ = d` on every summand, are compared only after every
  entry has been shown to be (the coercion of) a real number; the identity is then an identity
  of real numbers.
-/

noncomputable section

namespace Cert.ExtRealLayer

open scoped BigOperators
open Idealize.ShloMosaic

/-- An extended real that is the coercion of a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {υ : Type} (A : Finset υ) (f : υ → ℝ) :
    ((∑ j ∈ A, f j : ℝ) : EReal) = ∑ j ∈ A, (f j : EReal) := by
  classical
  refine Finset.induction_on A ?_ ?_
  · simp
  · intro a s ha ih
    rw [Finset.sum_insert ha, Finset.sum_insert ha, EReal.coe_add, ih]

/-- A finite sum of reals is real. -/
theorem IsReal.sum {υ : Type} (A : Finset υ) (f : υ → EReal) (h : ∀ j ∈ A, IsReal (f j)) :
    IsReal (∑ j ∈ A, f j) := by
  classical
  revert h
  refine Finset.induction_on A ?_ ?_
  · intro _
    rw [Finset.sum_empty]; exact isReal_zero
  · intro a s ha ih h
    rw [Finset.sum_insert ha]
    exact (h a (Finset.mem_insert_self a s)).add
      (ih fun j hj => h j (Finset.mem_insert_of_mem hj))

theorem IsReal.fsum {κ : Type} [Fintype κ] (f : κ → EReal) (h : ∀ k, IsReal (f k)) :
    IsReal (∑ k, f k) :=
  IsReal.sum Finset.univ f fun k _ => h k

/-- The all-zero single-precision pattern denotes `0`. -/
theorem ofBits_zero : Ideal.ofBits .f32 0x00000000#32 = 0 := by
  simp [Ideal.ofBits, Ideal.ieee]

/-- The single-precision pattern of `1.0` (exponent field 127, zero fraction) denotes `1`. -/
theorem ofBits_one : Ideal.ofBits .f32 0x3F800000#32 = 1 := by
  simp [Ideal.ofBits, Ideal.ieee, -EReal.coe_mul]; norm_num

/-- `1 + |A|`, written as `0 + Σ_{j ∈ A} 1 + 1`, is a real number `≥ 1`, so its reciprocal
    square root is the real `(√(1 + |A|))⁻¹`. -/
theorem isReal_rsqrt_count {υ : Type} (A : Finset υ) :
    IsReal (Ideal.rsqrt (((0 : EReal) + ∑ _j ∈ A, (1 : EReal)) + 1)) := by
  have hsum : (∑ _j ∈ A, (1 : EReal)) = (((A.card : ℝ)) : EReal) := by
    have h1 : (∑ _j ∈ A, (1 : EReal)) = ∑ _j ∈ A, (((1 : ℝ)) : EReal) := by
      simp only [EReal.coe_one]
    rw [h1, ← coe_sum]
    simp
  have harg : (((0 : EReal) + ∑ _j ∈ A, (1 : EReal)) + 1) = (((A.card : ℝ) + 1 : ℝ) : EReal) := by
    rw [hsum, zero_add, EReal.coe_add, EReal.coe_one]
  have hpos : (0 : ℝ) < (A.card : ℝ) + 1 := by positivity
  rw [harg, Ideal.rsqrt_coe, if_neg (not_lt.mpr hpos.le), if_neg hpos.ne']
  exact isReal_coe _

/-- The two arrangements of the row agree when every entry is real. The last summand `b` is
    added on both sides and may be any extended real. -/
theorem layer_eq {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) :
    (((0 : EReal) + ∑ j ∈ A, hγ j * dγ j) + h * d) * d + b
      = (((0 : EReal) + ∑ j ∈ A, hγ j * (dγ j * dδ j)) + h * (d * d)) + b := by
  classical
  obtain ⟨h', rfl⟩ := Hh0
  obtain ⟨d', rfl⟩ := Hd0
  -- real-valued representatives of the two families (arbitrary off `A`)
  let hr : υ → ℝ := fun j => if hj : j ∈ A then Classical.choose (Hh j hj) else 0
  let dr : υ → ℝ := fun j => if hj : j ∈ A then Classical.choose (Hd j hj) else 0
  have hhr : ∀ j ∈ A, hγ j = (hr j : EReal) := by
    intro j hj
    simp only [hr, dif_pos hj]
    exact Classical.choose_spec (Hh j hj)
  have hdr : ∀ j ∈ A, dγ j = (dr j : EReal) := by
    intro j hj
    simp only [dr, dif_pos hj]
    exact Classical.choose_spec (Hd j hj)
  have hL : (∑ j ∈ A, hγ j * dγ j) = ((∑ j ∈ A, hr j * dr j : ℝ) : EReal) := by
    rw [coe_sum]
    refine Finset.sum_congr rfl fun j hj => ?_
    rw [hhr j hj, hdr j hj, EReal.coe_mul]
  have hR : (∑ j ∈ A, hγ j * (dγ j * dδ j)) = ((∑ j ∈ A, hr j * (dr j * d') : ℝ) : EReal) := by
    rw [coe_sum]
    refine Finset.sum_congr rfl fun j hj => ?_
    rw [hhr j hj, hdr j hj, hδ j hj, EReal.coe_mul, EReal.coe_mul]
  congr 1
  rw [hL, hR, zero_add, zero_add, ← EReal.coe_mul, ← EReal.coe_mul, ← EReal.coe_mul,
    ← EReal.coe_add, ← EReal.coe_add, ← EReal.coe_mul]
  congr 1
  rw [add_mul, Finset.sum_mul]
  congr 1
  · refine Finset.sum_congr rfl fun j _ => ?_
    ring
  · ring

/-- The row in its second arrangement is real when every entry, and the last summand, is. -/
theorem layer_isReal {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) (Hb : IsReal b) :
    IsReal ((((0 : EReal) + ∑ j ∈ A, hγ j * (dγ j * dδ j)) + h * (d * d)) + b) := by
  refine ((isReal_zero.add (IsReal.sum A _ fun j hj => ?_)).add (Hh0.mul (Hd0.mul Hd0))).add Hb
  rw [hδ j hj]
  exact (Hh j hj).mul ((Hd j hj).mul Hd0)

end Cert.ExtRealLayer
-- ==== Proof.Law.lean ====
/-
  The flat form and the split form of the graph-attention layer agree on real data.

  Three facts carry the proof.
  (1) The two 0/1 tables only select: a sum over the 64 flat features against column hd of G keeps the 16
      features of head hd, and a sum over the 4 heads against column d of Gt keeps the head of d.  On the
      extended reals x * 0 = 0 and x * 1 = x for every x, so this needs no finiteness.
  (2) On real inputs every logit is real, so the largest logit of a head is real, every softmax numerator is
      exp of a real (a positive real), and the denominator, a sum of positive reals over a nonempty edge
      list, is a positive real Z.
  (3) Over the reals, scaling by 1 / Z > 0 commutes with the sum over edges and with the rectifier max(., 0).
-/
import proofs.«116205_j188978561163_2_alg».proof.Proof.Spec
import proofs.«116205_j188978561163_2_alg».proof.Proof.LibExtRealLayer
import Mathlib

noncomputable section

open scoped BigOperators

namespace Cert.Gat

open Idealize.ShloMosaic Cert.ExtRealLayer

/-! ## The three words -/

theorem z0_eq : z0 = 0 := ofBits_zero
theorem o1_eq : o1 = 1 := ofBits_one

/-- Sign bit set, exponent field all ones, zero fraction: minus infinity. -/
theorem ninf_eq : Ideal.ofBits .f32 0xFF800000#32 = (⊥ : EReal) := by
  simp [Ideal.ofBits, Ideal.ieee]

/-- The slope's exponent field is 124, neither 0 nor 255: the word denotes a real number. -/
theorem slope_real : IsReal slope := by
  have hne : ¬ (BitVec.extractLsb' 23 8 (0x3E4CCCCD#32)).toNat = 2 ^ 8 - 1 := by decide
  unfold IsReal
  simp only [Ideal.ofBits, Ideal.ieee, if_neg hne]
  split_ifs <;> exact ⟨_, rfl⟩

/-! ## Flat features as (head, feature) pairs -/

theorem headOf_flat (hd : Fin 4) (f : Fin 16) : headOf (flat hd f) = hd := by
  apply Fin.ext
  show (16 * hd.val + f.val) / 16 = hd.val
  omega

theorem featOf_flat (hd : Fin 4) (f : Fin 16) : featOf (flat hd f) = f := by
  apply Fin.ext
  show (16 * hd.val + f.val) % 16 = f.val
  omega

/-- d = 16 (d / 16) + d % 16. -/
def flatEquiv : Fin 4 × Fin 16 ≃ Fin 64 where
  toFun x := flat x.1 x.2
  invFun d := (headOf d, featOf d)
  left_inv x := by
    rcases x with ⟨a, b⟩
    show (headOf (flat a b), featOf (flat a b)) = (a, b)
    rw [headOf_flat, featOf_flat]
  right_inv d := by
    apply Fin.ext
    show 16 * (d.val / 16) + d.val % 16 = d.val
    omega

theorem G_flat (a : Fin 4) (b : Fin 16) (hd : Fin 4) : G (flat a b) hd = if a = hd then 1 else 0 := by
  have hq : (flat a b).val / 16 = a.val := by
    show (16 * a.val + b.val) / 16 = a.val
    omega
  unfold G
  rw [hq, z0_eq, o1_eq]
  by_cases hah : a = hd
  · rw [if_pos hah, if_pos (congrArg Fin.val hah)]
  · rw [if_neg hah, if_neg (fun hc => hah (Fin.ext hc))]

/-- Summing against column hd of G keeps the 16 features of head hd. -/
theorem sum_G (g : Fin 64 → EReal) (hd : Fin 4) :
    ∑ d : Fin 64, g d * G d hd = ∑ f : Fin 16, g (flat hd f) := by
  rw [← Fintype.sum_equiv flatEquiv (fun x => g (flat x.1 x.2) * G (flat x.1 x.2) hd)
    (fun d => g d * G d hd) (fun _ => rfl)]
  rw [Fintype.sum_prod_type]
  rw [Finset.sum_eq_single hd]
  · refine Finset.sum_congr rfl fun f _ => ?_
    show g (flat hd f) * G (flat hd f) hd = g (flat hd f)
    rw [G_flat, if_pos rfl, mul_one]
  · intro a _ ha
    refine Finset.sum_eq_zero fun f _ => ?_
    show g (flat a f) * G (flat a f) hd = 0
    rw [G_flat, if_neg ha, mul_zero]
  · intro hn
    exact absurd (Finset.mem_univ hd) hn

/-- Summing against column d of Gt keeps the head of d. -/
theorem sum_Gt (p : Fin 4 → EReal) (d : Fin 64) : ∑ hd : Fin 4, p hd * Gt hd d = p (headOf d) := by
  rw [Finset.sum_eq_single (headOf d)]
  · have h1 : Gt (headOf d) d = 1 := by
      unfold Gt
      rw [if_pos rfl, o1_eq]
    rw [h1, mul_one]
  · intro hd _ hne
    have h0 : Gt hd d = 0 := by
      unfold Gt
      rw [if_neg (fun hc => hne (Fin.ext hc.symm)), z0_eq]
    rw [h0, mul_zero]
  · intro hn
    exact absurd (Finset.mem_univ (headOf d)) hn

/-! ## Scores, logits, numerators: the two forms are the same functions -/

section Same
variable (h : Fin 50000 → Fin 128 → EReal) (W : Fin 128 → Fin 64 → EReal)
  (as3 ad3 : Fin 4 → Fin 16 → EReal) (sW dW : Fin 1000000 → BitVec 32)

theorem scoreK_eq_scoreR (a3 : Fin 4 → Fin 16 → EReal) (n : Fin 50000) (hd : Fin 4) :
    scoreK (wh h W) (flatA a3) G n hd = scoreR h W a3 n hd := by
  unfold scoreK scoreR
  rw [z0_eq, zero_add]
  calc ∑ d : Fin 64, (wh h W n d * flatA a3 d) * G d hd
      = ∑ f : Fin 16, wh h W n (flat hd f) * flatA a3 (flat hd f) :=
        sum_G (fun d => wh h W n d * flatA a3 d) hd
    _ = ∑ f : Fin 16, wh h W n (flat hd f) * a3 hd f := by
        refine Finset.sum_congr rfl fun f _ => ?_
        unfold flatA
        rw [headOf_flat, featOf_flat]

theorem logitK_eq_logitR : logitK h W as3 ad3 sW dW = logitR h W as3 ad3 sW dW := by
  unfold logitK logitR
  simp only [scoreK_eq_scoreR]

/-- Minus infinity is below everything, so the split form's largest logit is the largest logit. -/
theorem topR_eq : topR h W as3 ad3 sW dW = top (logitR h W as3 ad3 sW dW) := by
  funext hd
  unfold topR
  rw [ninf_eq]
  exact max_eq_right bot_le

theorem pK_eq_pR : pK h W as3 ad3 sW dW = pR h W as3 ad3 sW dW := by
  unfold pK pR
  rw [logitK_eq_logitR, topR_eq]

end Same

/-! ## Real data gives real logits and a positive real denominator -/

/-- An extended real that is the coercion of a positive real number. -/
def IsPos (x : EReal) : Prop := ∃ r : ℝ, 0 < r ∧ x = (r : EReal)

theorem IsPos.isReal {x : EReal} (hx : IsPos x) : IsReal x := by
  obtain ⟨r, _, hr⟩ := hx
  exact ⟨r, hr⟩

/-- The rectifier picks one of two real numbers. -/
theorem leaky_real {x : EReal} (hx : IsReal x) : IsReal (leaky x) := by
  unfold leaky Scalar.select
  split_ifs
  · exact hx
  · exact slope_real.mul hx

/-- The largest of a nonempty finite family of reals is one of them. -/
theorem sup_real {ε : Type} [Fintype ε] [Nonempty ε] (f : ε → EReal) (hf : ∀ e, IsReal (f e)) :
    IsReal (Finset.univ.sup f) := by
  obtain ⟨i, _, hi⟩ := Finset.exists_mem_eq_sup Finset.univ Finset.univ_nonempty f
  rw [hi]
  exact hf i

/-- exp of a difference of reals is a positive real. -/
theorem exp_sub_pos {x y : EReal} (hx : IsReal x) (hy : IsReal y) : IsPos (Ideal.exp (x - y)) := by
  obtain ⟨a, rfl⟩ := hx
  obtain ⟨b, rfl⟩ := hy
  rw [← EReal.coe_sub, Ideal.exp_coe]
  exact ⟨_, Real.exp_pos _, rfl⟩

/-- A sum of positive reals over a nonempty finite index set is a positive real. -/
theorem sum_pos_real {ε : Type} [Fintype ε] [Nonempty ε] (f : ε → EReal) (hf : ∀ e, IsPos (f e)) :
    IsPos (∑ e, f e) := by
  choose r hr hfr using hf
  refine ⟨∑ e, r e, Finset.sum_pos (fun e _ => hr e) Finset.univ_nonempty, ?_⟩
  rw [coe_sum]
  exact Finset.sum_congr rfl fun e _ => hfr e

section Real
variable (h : Fin 50000 → Fin 128 → EReal) (W : Fin 128 → Fin 64 → EReal)
  (as3 ad3 : Fin 4 → Fin 16 → EReal) (sW dW : Fin 1000000 → BitVec 32)
  (hh : ∀ n k, IsReal (h n k)) (hW : ∀ k d, IsReal (W k d))
  (has : ∀ hd f, IsReal (as3 hd f)) (had : ∀ hd f, IsReal (ad3 hd f))

include hh hW in
theorem wh_real (n : Fin 50000) (d : Fin 64) : IsReal (wh h W n d) :=
  IsReal.fsum _ fun k => (hh n k).mul (hW k d)

include hh hW in
theorem scoreR_real (a3 : Fin 4 → Fin 16 → EReal) (ha : ∀ hd f, IsReal (a3 hd f)) (n : Fin 50000) (hd : Fin 4) :
    IsReal (scoreR h W a3 n hd) := by
  unfold scoreR
  rw [z0_eq, zero_add]
  exact IsReal.fsum _ fun f => (wh_real h W hh hW n (flat hd f)).mul (ha hd f)

include hh hW has had in
theorem logitR_real (e : Fin 1000000) (hd : Fin 4) : IsReal (logitR h W as3 ad3 sW dW e hd) := by
  unfold logitR logit
  exact leaky_real ((scoreR_real h W hh hW as3 has _ hd).add (scoreR_real h W hh hW ad3 had _ hd))

instance : Nonempty (Fin 1000000) := ⟨⟨0, by norm_num⟩⟩

include hh hW has had in
theorem pR_pos (e : Fin 1000000) (hd : Fin 4) : IsPos (pR h W as3 ad3 sW dW e hd) := by
  unfold pR pexp
  rw [topR_eq]
  refine exp_sub_pos (logitR_real h W as3 ad3 sW dW hh hW has had e hd) ?_
  unfold top
  exact sup_real _ fun e' => logitR_real h W as3 ad3 sW dW hh hW has had e' hd

include hh hW has had in
theorem zsumR_pos (hd : Fin 4) : IsPos (zsum (pR h W as3 ad3 sW dW) hd) := by
  unfold zsum
  exact sum_pos_real _ fun e => pR_pos h W as3 ad3 sW dW hh hW has had e hd

end Real

/-! ## Scaling by a positive real commutes with the sum and with the rectifier -/

theorem coe_max' (a b : ℝ) : ((max a b : ℝ) : EReal) = max (a : EReal) (b : EReal) :=
  EReal.coe_strictMono.monotone.map_max

/-- Normalising after the sum over the landing edges is normalising each edge before it. -/
theorem norm_after_eq_norm_before {υ : Type} (A : Finset υ) (p w : υ → EReal) (Z : EReal)
    (hp : ∀ e, IsReal (p e)) (hw : ∀ e, IsReal (w e)) (hZ : IsPos Z) :
    max (z0 + ∑ e ∈ A, p e * w e) z0 * Ideal.div o1 Z
      = max (z0 + ∑ e ∈ A, Ideal.div (p e) (z0 + Z) * w e) z0 := by
  obtain ⟨Zr, hZr, rfl⟩ := hZ
  choose pr hpr using hp
  choose wr hwr using hw
  rw [z0_eq, o1_eq, zero_add, zero_add, zero_add, Ideal.div_coe hZr.ne']
  have hL : (∑ e ∈ A, p e * w e) = ((∑ e ∈ A, pr e * wr e : ℝ) : EReal) := by
    rw [coe_sum]
    refine Finset.sum_congr rfl fun e _ => ?_
    rw [hpr e, hwr e, EReal.coe_mul]
  have hR : (∑ e ∈ A, Ideal.div (p e) (Zr : EReal) * w e)
      = ((∑ e ∈ A, pr e * (1 / Zr) * wr e : ℝ) : EReal) := by
    rw [coe_sum]
    refine Finset.sum_congr rfl fun e _ => ?_
    rw [Ideal.div_coe hZr.ne', hpr e, hwr e, EReal.coe_mul, EReal.coe_mul]
  rw [hL, hR, ← EReal.coe_zero, ← coe_max', ← coe_max', ← EReal.coe_one, ← EReal.coe_mul, ← EReal.coe_mul]
  congr 1
  have hc : (0 : ℝ) ≤ 1 * (1 / Zr) := by positivity
  rw [max_mul_of_nonneg _ _ hc, zero_mul, Finset.sum_mul]
  congr 1
  refine Finset.sum_congr rfl fun e _ => ?_
  ring

/-! ## The law -/

theorem outK_eq_outR (h : Fin 50000 → Fin 128 → EReal) (W : Fin 128 → Fin 64 → EReal)
    (as3 ad3 : Fin 4 → Fin 16 → EReal) (sW dW dS : Fin 1000000 → BitVec 32)
    (hh : ∀ n k, IsReal (h n k)) (hW : ∀ k d, IsReal (W k d))
    (has : ∀ hd f, IsReal (as3 hd f)) (had : ∀ hd f, IsReal (ad3 hd f))
    (n : Fin 50000) (d : Fin 64) :
    outK h W as3 ad3 sW dW dS n d = outR h W as3 ad3 sW dW dS n d := by
  unfold outK outR normK landK msgK attnR
  rw [pK_eq_pR]
  simp only [sum_Gt]
  exact norm_after_eq_norm_before (hits dS n)
    (fun e => pR h W as3 ad3 sW dW e (headOf d)) (fun e => wh h W (node (sW e)) d)
    (zsum (pR h W as3 ad3 sW dW) (headOf d))
    (fun e => (pR_pos h W as3 ad3 sW dW hh hW has had e (headOf d)).isReal)
    (fun e => wh_real h W hh hW (node (sW e)) d)
    (zsumR_pos h W as3 ad3 sW dW hh hW has had (headOf d))

end Cert.Gat

end
-- ==== Proof.Finite.lean ====
/-
  From "the finiteness test of the arguments came out all ones" to "every entry of the four
  floating-point arguments is a real number".

  The test is, for each floating-point argument, the conjunction over all its entries of |x| < +infinity,
  and the four results are conjoined.  A conjunction of bits that is 1 has every conjunct 1, and
  |x| = max x (-x) < +infinity on the extended reals excludes both infinities, leaving the reals.
-/
import proofs.«116205_j188978561163_2_alg».proof.Defs
import proofs.«116205_j188978561163_2_alg».proof.Proof.LibExtRealLayer
import Idealize.ShloMosaic.Lib.ReduceAll
import Idealize.ShloMosaic.Lib.ValueIdx

noncomputable section

namespace Cert.Gat

open Idealize.ShloMosaic Idealize.SL.Sem Cert.ExtRealLayer Cert.Pre_finite_inputs

/-- Sign bit clear, exponent field all ones, zero fraction: plus infinity. -/
theorem pinf_eq : Ideal.ofBits .f32 0x7F800000#32 = (⊤ : EReal) := by
  simp [Ideal.ofBits, Ideal.ieee]

/-- |x| < +infinity leaves only the real numbers. -/
theorem isReal_of_abs_lt_top (x : EReal) (h : max x (-x) < ⊤) : IsReal x := by
  induction x using EReal.rec with
  | bot => exact absurd h (by simp)
  | coe r => exact ⟨r, rfl⟩
  | top => exact absurd h (by simp)

/-- The comparison bit of |x| < +infinity being 1 says x is real. -/
theorem isReal_of_cmp (x : EReal)
    (h : Ideal.cmp .olt (max x (-x)) (Ideal.ofBits .f32 0x7F800000#32) = 1#1) : IsReal x := by
  rw [pinf_eq] at h
  refine isReal_of_abs_lt_top x ?_
  by_contra hc
  have h0 : Ideal.cmp .olt (max x (-x)) ⊤ = 0#1 := by
    show BitVec.ofBool (decide (max x (-x) < ⊤)) = 0#1
    rw [decide_eq_false hc]
    rfl
  rw [h0] at h
  exact absurd h (by decide)

/-- The rank-0 shape has one index. -/
instance : Subsingleton S_.Idx := ⟨fun a b => funext fun d => d.elim0⟩

/-- The test, over any argument arrays: all ones means every floating-point entry is real. -/
theorem finite_of_fn [Facts] (a0 : IVec S2x1000000 32) (a1 : FVec Ideal S50000x128 .f32)
    (a2 : FVec Ideal S128x64 .f32) (a3 a4 : FVec Ideal S1x4x16 .f32)
    (hfn : fn (F := Ideal) a0 a1 a2 a3 a4 = (fun _ => 1#1)) :
    (∀ i, IsReal (a1 i)) ∧ (∀ i, IsReal (a2 i)) ∧ (∀ i, IsReal (a3 i)) ∧ (∀ i, IsReal (a4 i)) := by
  have h0 := congrFun hfn ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact isReal_of_cmp (a1 i) (Host.reduce_andi_all _ _ _ _ _ h1 i)
  · exact isReal_of_cmp (a2 i) (Host.reduce_andi_all _ _ _ _ _ h2 i)
  · exact isReal_of_cmp (a3 i) (Host.reduce_andi_all _ _ _ _ _ h3 i)
  · exact isReal_of_cmp (a4 i) (Host.reduce_andi_all _ _ _ _ _ h4 i)

/-- The precondition of the idealized kernel gives real entries in its four floating-point arguments, on every device. -/
theorem finite_of_pre [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) :=
  finite_of_fn _ _ _ _ _ (hpre c)

end Cert.Gat

end
-- ==== Proof.Assemble.lean ====
/-
  The five claims, assembled.

  The two programs' frames are their generated runs.  For the value claim: the idealized kernel's run ends with its
  result array at the flat form of the layer on the argument arrays; the idealized reference's run ends with its
  result array at the split form on its own argument arrays, which agree with the kernel's; every float argument is
  finite under the precondition, and on finite data the two forms are one function.
-/
import proofs.«116205_j188978561163_2_alg».proof.Defs
import proofs.«116205_j188978561163_2_alg».proof.Proof.Gen.Kernel
import proofs.«116205_j188978561163_2_alg».proof.Proof.Gen.Kernel.Frame
import proofs.«116205_j188978561163_2_alg».proof.Proof.Gen.KernelIdeal
import proofs.«116205_j188978561163_2_alg».proof.Proof.Gen.KernelIdeal.Frame
import proofs.«116205_j188978561163_2_alg».proof.Proof.Gen.ReferenceIdeal
import proofs.«116205_j188978561163_2_alg».proof.Proof.Gen.ReferenceIdeal.Run
import proofs.«116205_j188978561163_2_alg».proof.Proof.Gen.Pre_finite_inputs
import proofs.«116205_j188978561163_2_alg».proof.Proof.KRun
import proofs.«116205_j188978561163_2_alg».proof.Proof.KValue
import proofs.«116205_j188978561163_2_alg».proof.Proof.RefValue
import proofs.«116205_j188978561163_2_alg».proof.Proof.Law
import proofs.«116205_j188978561163_2_alg».proof.Proof.Finite

noncomputable section

namespace Cert.Gat.Assemble

open Idealize.ShloMosaic Idealize.SL.Sem Idealize.ShloMosaic.ValueIdx Cert.Gat

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result array: the flat form on one side, the split form on the other,
    equal because every float argument is finite. -/
theorem algebraic (H : KValue.RegionFacts) : Cert.algebraic_KernelIdeal_ReferenceIdeal := by
  intro m ρ m' ρ' hpre hagree
  refine ⟨fun c => fun i => outK (KValue.hA m c) (KValue.WA m c) (KValue.as3 m c) (KValue.ad3 m c)
    (KValue.sW m c) (KValue.dW m c) (KValue.dS m c) (i 0) (i 1), ?_, ?_⟩
  · exact (θ_run Cert.KernelIdeal.defs _ _).mono
      (fun r h c => ⟨(h c).1.trans (KValue.kernel_value m ρ c H), (h c).2⟩) (KRun.run_named m ρ)
  · refine (θ_run Cert.ReferenceIdeal.defs _ _).mono (fun r h c => ⟨(h c).1.trans ?_, (h c).2⟩) (Ref.ref_run m' ρ')
    obtain ⟨h0, h1, h2, h3, h4⟩ := hagree c
    obtain ⟨f1, f2, f3, f4⟩ := finite_of_pre m hpre c
    rw [h0, h1, h2, h3, h4]
    funext i
    exact (outK_eq_outR _ _ _ _ _ _ _ (fun n k => f1 _) (fun k d => f2 _) (fun hd f => f3 _) (fun hd f => f4 _) (i 0) (i 1)).symm

end Cert.Gat.Assemble

end
-- ==== Proof.Region0.lean ====
/-
  The first region of the kernel, read through its first output as one function of the arrays it finds.

  The region runs over ten grid points.  Point t holds rows 5000 t … 5000 t + 4999 of the node features h
  (50000 x 128) and the whole weight matrix W (128 x 64), and stores through its first output, at row p and flat
  feature q of its block,

      Σ_k h (5000 t + p, k) * W (k, q):

  a product into a zero accumulator, so just the sum over the 128 input features; the change of float format of both
  operands on the way in, and of the product on the way out, is the identity on exact values.  Every point writes its
  block back, and the ten row blocks tile the 50000 rows, so after the region the first output array is the projected
  features at every entry.  Nothing here needs finiteness: no term is moved across a sum.

  (The region's other two outputs, the per-head scores, are read in a sibling module.)

  Order of the file: the product at an index, the stored value at an index over arbitrary blocks, the blocks as rows
  of their arrays, what a point writes back, the cover, and the array.
-/
import proofs.«116205_j188978561163_2_alg».proof.Proof.Gen.KernelIdeal.Frame
import proofs.«116205_j188978561163_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open Idealize.ShloMosaic.Pipeline (Dat)
open scoped BigOperators

namespace Cert.Gat.K0

open Cert.KernelIdeal Cert.KernelIdeal.Gen

/-- The zero offsets of a whole-buffer access, as the constant function. -/
theorem zeros2 : (![0, 0] : Fin 2 → Nat) = fun _ => 0 := funext fun a => by fin_cases a <;> rfl

/-! ## The projection at an index -/

/-- The dimension numbers of the 5000 x 128 by 128 x 64 product: contract the left operand's axis 1 with the right's axis 0. -/
abbrev D0 := dot_S5000x128_S128x64_S5000x64_1_0_0_1_n_n

/-- The left operand is read at the output's row … -/
theorem d0_lhs0 (i : S5000x64.Idx) (k : D0.contr.Idx) : (D0.lhsIdx i k 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
/-- … and the contraction index; -/
theorem d0_lhs1 (i : S5000x64.Idx) (k : D0.contr.Idx) : (D0.lhsIdx i k 1).val = (k ⟨0, by decide⟩).val :=
  D0.lhsIdx_val_of_single rfl i k
/-- the right operand at the contraction index … -/
theorem d0_rhs0 (i : S5000x64.Idx) (k : D0.contr.Idx) : (D0.rhsIdx i k 0).val = (k ⟨0, by decide⟩).val :=
  D0.rhsIdx_val_of_single rfl i k
/-- … and the output's column. -/
theorem d0_rhs1 (i : S5000x64.Idx) (k : D0.contr.Idx) : (D0.rhsIdx i k 1).val = (i 1).val := by
  unfold DotDims.rhsIdx
  rw [dif_neg (show ¬(1 : Fin S128x64.rank) ∈ D0.rhsBatch by decide), dif_pos (show (1 : Fin S128x64.rank) ∈ D0.rhsNonContracting by decide)]
  rfl

set_option maxHeartbeats 400000 in
/-- The product into a zero accumulator at (p, q): the sum over the 128 input features of the row's entry times the
    column's entry (the contraction index re-read as a feature). -/
theorem mm_apply (l : FVec Ideal S5000x128 .bf16) (r : FVec Ideal S128x64 .bf16) (p : Fin 5000) (q : Fin 64) :
    FloatOps.matmul (F := Ideal) D0 none l r (constant S5000x64 .f32 0x00000000#32) (ix2 p q)
      = ∑ k : Fin 128, l (ix2 p k) * r (ix2 k q) := by
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k :=
    funext fun a => Fin.ext (by
      match a with
      | ⟨0, _⟩ => exact d0_lhs0 _ _
      | ⟨1, _⟩ => exact (d0_lhs1 _ _).trans hk)
  have er : D0.rhsIdx (ix2 p q) ((contrEquiv1 D0 128 rfl rfl).symm k) = ix2 k q :=
    funext fun a => Fin.ext (by
      match a with
      | ⟨0, _⟩ => exact (d0_rhs0 _ _).trans hk
      | ⟨1, _⟩ => exact d0_rhs1 _ _)
  rw [el, er]

set_option maxHeartbeats 400000 in
/-- The stored value at row p, column q of a block, over arbitrary loaded blocks x0 (feature rows) and x1 (weights):
    row p of x0 times column q of x1.  The two changes of float format on the way in and the one on the way out are
    the identity on exact values. -/
theorem pay_apply (x0 : Vec Ideal S5000x128 .f32) (x1 : Vec Ideal S128x64 .f32) (p : Fin 5000) (q : Fin 64) :
    k0_pay2 (F := Ideal) x0 x1 (ix2 p q) = ∑ k : Fin 128, x0 (ix2 p k) * x1 (ix2 k q) := by
  unfold k0_pay2 k0_pay1
  show FloatOps.matmul (F := Ideal) D0 none (truncf .bf16 x0 _) (truncf .bf16 x1 _) (constant S5000x64 .f32 0x00000000#32) (ix2 p q) = _
  refine (mm_apply _ _ p q).trans ?_
  exact Finset.sum_congr rfl fun k _ => rfl

/-- The array the region writes through its first output, as one function of the arrays it reads: the projected features. -/
def G5 (h : S50000x128.Idx → EReal) (W : S128x64.Idx → EReal) : S50000x64.Idx → EReal :=
  fun i => wh (arr2 h) (arr2 W) (i 0) (i 1)

set_option maxHeartbeats 400000 in
/-- If row p of the loaded feature block is row n of the features and the loaded weights are the weights, the stored
    value at (p, q) is the whole-array function at (n, q). -/
theorem point_eq (h : S50000x128.Idx → EReal) (W : S128x64.Idx → EReal)
    (x0 : Vec Ideal S5000x128 .f32) (x1 : Vec Ideal S128x64 .f32) (n : Fin 50000) (p : Fin 5000) (q : Fin 64)
    (h0 : ∀ k : Fin 128, x0 (ix2 p k) = h (ix2 n k)) (h1 : ∀ k : Fin 128, x1 (ix2 k q) = W (ix2 k q)) :
    k0_pay2 (F := Ideal) x0 x1 (ix2 p q) = G5 h W (ix2 n q) := by
  rw [pay_apply]
  show _ = ∑ k : Fin 128, h (ix2 n k) * W (ix2 k q)
  refine Finset.sum_congr rfl fun k _ => ?_
  rw [h0, h1]

/-! ## The blocks as parts of their arrays -/

section Blocks
variable (V : (c : Dev nD) → (b : Ref sig .tc) → Buf (Elt Ideal) ((c : Thread nD τ).loc b))

/-- The block indices over the grid: the features' and the output's row blocks move with the point, the weights'
    block is their whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_5.index t (0 : Fin 2) = t.val ∧ win0_5.index t (1 : Fin 2) = 0 :=
  (by decide +kernel : ∀ t : Fin grid0.N, _)

set_option maxHeartbeats 400000 in
/-- Row p of point t's block of the features is row 5000 t + p of their array (a block's element sits at block index
    times block size plus its own coordinate). -/
theorem blk0_apply (c : Dev nD) (t : Fin cfg0.N) (p : Fin 5000) (k : Fin 128) (n : Fin 50000) (hn : n.val = 5000 * t.val + p.val) :
    (iblk0 V c 0 t : Vec Ideal S5000x128 .f32) (ix2 p k) = (V c main_arg1 : S50000x128.Idx → EReal) (ix2 n k) := by
  obtain ⟨e00, e01, -⟩ := idx_facts t
  unfold iblk0
  rw [View.read_apply]
  show V c main_arg1 _ = V c main_arg1 _
  refine congrArg _ ?_
  funext a; apply Fin.ext
  match a with
  | ⟨0, _⟩ => show win0_0.index t (0 : Fin 2) * 5000 + 1 * p.val = n.val; omega
  | ⟨1, _⟩ => show win0_0.index t (1 : Fin 2) * 128 + 1 * k.val = k.val; omega

set_option maxHeartbeats 400000 in
/-- The weights' block is their whole array at every point. -/
theorem blk1_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e10, e11, -⟩ := idx_facts t
  unfold iblk0
  rw [View.read_apply]
  show V c main_arg2 _ = V c main_arg2 _
  refine congrArg _ ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-! ## What a point writes back, the cover, and the array -/

set_option maxHeartbeats 400000 in
/-- What point t writes back through the first output is its block of the one whole-array function: the body's single
    store covers the block, and entry (p, q) of the block sits at row 5000 t + p, column q of the array. -/
theorem flushed_eq (c : Dev nD) (t : Fin cfg0.N) :
    (dat0 (F := Ideal) V c).flushed 5 t = ((cfg0.win 5).blk t).view.read (Elt Ideal) (G5 (V c main_arg1) (V c main_arg2)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x64) zeros2]
  funext j
  obtain ⟨-, -, -, -, e50, e51⟩ := idx_facts t
  have hN : cfg0.N = 10 := N_0
  have ht : t.val < 10 := by have := t.isLt; omega
  have hj0 : (j 0).val < 5000 := (j 0).isLt
  have hj1 : (j 1).val < 64 := (j 1).isLt
  have hjeq : j = ix2 (⟨(j 0).val, hj0⟩ : Fin 5000) (⟨(j 1).val, hj1⟩ : Fin 64) := eq_ix2 (n0 := 5000) (n1 := 64) j
  have hemb : ((cfg0.win 5).blk t).view.emb j = ix2 (⟨5000 * t.val + (j 0).val, by omega⟩ : Fin 50000) (⟨(j 1).val, hj1⟩ : Fin 64) := by
    funext a; apply Fin.ext
    match a with
    | ⟨0, _⟩ => show win0_5.index t (0 : Fin 2) * 5000 + 1 * (j 0).val = 5000 * t.val + (j 0).val; omega
    | ⟨1, _⟩ => show win0_5.index t (1 : Fin 2) * 64 + 1 * (j 1).val = (j 1).val; omega
  show k0_pay2 (F := Ideal) (iblk0 V c 0 t) (iblk0 V c 1 t) j = G5 (V c main_arg1) (V c main_arg2) (((cfg0.win 5).blk t).view.emb j)
  rw [hemb]
  refine (congrArg (k0_pay2 (F := Ideal) (iblk0 V c 0 t) (iblk0 V c 1 t)) hjeq).trans ?_
  exact point_eq (V c main_arg1) (V c main_arg2) (iblk0 V c 0 t) (iblk0 V c 1 t)
    ⟨5000 * t.val + (j 0).val, by omega⟩ ⟨(j 0).val, hj0⟩ ⟨(j 1).val, hj1⟩
    (fun k => blk0_apply V c t ⟨(j 0).val, hj0⟩ k ⟨5000 * t.val + (j 0).val, by omega⟩ rfl)
    (fun k => blk1_apply V c t k ⟨(j 1).val, hj1⟩)

/-- An index of the array lies in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v6_0).slice (win0_5.rect t)).set ↔ _
  rw [View.set_slice_whole, Rect.mem_set_unit]
  exact Iff.rfl

set_option maxHeartbeats 400000 in
/-- Row r is written by point r / 5000: the ten row blocks tile the array. -/
theorem cover (i : S50000x64.Idx) : ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  let t : Fin cfg0.N := ⟨(i 0).val / 5000, by omega⟩
  obtain ⟨-, -, -, -, e50, e51⟩ := idx_facts t
  have htv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first output array after the region, whole: every point writes its block of one function, and the blocks cover. -/
theorem final (c : Dev nD) :
    (dat0 (F := Ideal) V c).arrAt 5 cfg0.N = G5 (V c main_arg1) (V c main_arg2) :=
  (dat0 V c).arrAt_eq_of_cover 5 (G5 (V c main_arg1) (V c main_arg2)) (fun t _ => flushed_eq V c t) cover

/-- The first output array after the region, entry by entry: the projected features. -/
theorem arrAt_eq (c : Dev nD) (n : Fin 50000) (d : Fin 64) :
    (dat0 (F := Ideal) V c).arrAt 5 cfg0.N (ix2 n d) = wh (arr2 (V c main_arg1)) (arr2 (V c main_arg2)) n d := by
  rw [final V c]
  rfl

end Blocks

end Cert.Gat.K0

end
-- ==== Proof.Region0S.lean ====
/-
  Region 0 of the kernel, its two score outputs: after the region, the array of window 6 holds every node's
  source score per head, and the array of window 7 its destination score, in the flat form of the specification:

      score n hd = sum over the 64 flat features d of  (wh n d * a d) * T d hd,
      wh n d     = sum over k of  h n k * W k d.

  Grid point t handles the node rows 5000 t .. 5000 t + 4999.  The body computes, for its block of rows,
  the projected features by one matrix product (zero accumulator; the format change in front of it is the
  identity on the extended reals), multiplies them by the attention vector broadcast over the rows, and
  contracts with the 64 x 4 table by a second matrix product.  So what point t writes back is block t of
  ONE function of the arrays as the region finds them, the blocks of the ten points tile the 50000 rows,
  and the array ends holding that function.
-/
import proofs.«116205_j188978561163_2_alg».proof.Proof.Gen.KernelIdeal.Frame
import proofs.«116205_j188978561163_2_alg».proof.Proof.Spec
import Idealize.ShloMosaic.PureOps.Ideal.Laws
import Idealize.ShloMosaic.Lib.Pipeline.Value
import Idealize.ShloMosaic.Lib.ValueIdx

set_option maxRecDepth 16384

noncomputable section

open scoped BigOperators

namespace Cert.Gat.K0S

open Idealize.ShloMosaic Idealize.ShloMosaic.ValueIdx Idealize.ShloMosaic.TcCoe Idealize.SL.Sem
open Idealize.ShloMosaic.Pipeline (Dat Cfg Window)
open Cert.KernelIdeal Cert.KernelIdeal.Gen

/-! ## The two matrix products at an index -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem lhsB_0 (i : S5000x4.Idx) (q : dot_S5000x64_S64x4_S5000x4_1_0_0_1_n_n.contr.Idx) :
    (dot_S5000x64_S64x4_S5000x4_1_0_0_1_n_n.lhsIdx i q 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl
theorem lhsB_1 (i : S5000x4.Idx) (q : dot_S5000x64_S64x4_S5000x4_1_0_0_1_n_n.contr.Idx) :
    (dot_S5000x64_S64x4_S5000x4_1_0_0_1_n_n.lhsIdx i q 1).val = (q ⟨0, by decide⟩).val :=
  dot_S5000x64_S64x4_S5000x4_1_0_0_1_n_n.lhsIdx_val_of_single rfl i q
theorem rhsB_0 (i : S5000x4.Idx) (q : dot_S5000x64_S64x4_S5000x4_1_0_0_1_n_n.contr.Idx) :
    (dot_S5000x64_S64x4_S5000x4_1_0_0_1_n_n.rhsIdx i q 0).val = (q ⟨0, by decide⟩).val :=
  dot_S5000x64_S64x4_S5000x4_1_0_0_1_n_n.rhsIdx_val_of_single rfl i q
theorem rhsB_1 (i : S5000x4.Idx) (q : dot_S5000x64_S64x4_S5000x4_1_0_0_1_n_n.contr.Idx) :
    (dot_S5000x64_S64x4_S5000x4_1_0_0_1_n_n.rhsIdx i q 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

set_option maxHeartbeats 400000 in
/-- The first product, row r and flat feature d: the sum over the 128 input features. -/
theorem proj_apply (x0 : Vec Ideal S5000x128 .f32) (x1 : Vec Ideal S128x64 .f32) (r : Fin 5000) (d : Fin 64) :
    k0_pay1 (F := Ideal) x0 x1 (ix2 r d) = ∑ k : Fin 128, x0 (ix2 r k) * x1 (ix2 k d) := by
  show FloatOps.matmul dot_S5000x128_S128x64_S5000x64_1_0_0_1_n_n none (truncf .bf16 x0 bitsLt_bf16_f32) (truncf .bf16 x1 bitsLt_bf16_f32)
    (constant (F := Ideal) S5000x64 .f32 0x00000000#32) (ix2 r d) = _
  refine (Ideal.matmul_constant_zero_apply dot_S5000x128_S128x64_S5000x64_1_0_0_1_n_n none _ _ (ix2 r d)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r d) ((ValueIdx.contrEquiv1 dot_S5000x128_S128x64_S5000x64_1_0_0_1_n_n 128 rfl rfl).symm k) = ix2 r k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 r d) ((ValueIdx.contrEquiv1 dot_S5000x128_S128x64_S5000x64_1_0_0_1_n_n 128 rfl rfl).symm k) = ix2 k d := funext fun a => Fin.ext (by
    match a with
    | ⟨0, _⟩ => exact (rhsA_0 _ _).trans hk
    | ⟨1, _⟩ => exact rhsA_1 _ _)
  rw [el, er]
  rfl

/-- The attention row, cast to its own shape and broadcast over the 5000 rows, read at (r, d). -/
theorem bcast_apply (x2 : Vec Ideal S1x64 .f32) (r : Fin 5000) (d : Fin 64) :
    broadcastTo S5000x64 (shapeCast S1x64 x2 shapeCasts_S1x64_S1x64) broadcasts_S1x64_S5000x64 (ix2 r d) = x2 (ix2 0 d) := by
  rw [shapeCast_self]
  exact broadcastTo_apply x2 broadcasts_S1x64_S5000x64 (ix2 r d) (ix2 0 d) (fun a => by
    match a with
    | ⟨0, _⟩ => rfl
    | ⟨1, _⟩ => rfl)

set_option maxHeartbeats 400000 in
/-- The second product over (projected features times attention row) and the table, at row r and head hd. -/
theorem contract_apply (y : FVec Ideal S5000x64 .f32) (x2 : Vec Ideal S1x64 .f32) (x4 : Vec Ideal S64x4 .f32) (r : Fin 5000) (hd : Fin 4) :
    FloatOps.matmul (φ₁ := .f32) (φ₂ := .f32) dot_S5000x64_S64x4_S5000x4_1_0_0_1_n_n (some .fp32)
        (mulf y (broadcastTo S5000x64 (shapeCast S1x64 x2 shapeCasts_S1x64_S1x64) broadcasts_S1x64_S5000x64)) x4
        (constant (F := Ideal) S5000x4 .f32 0x00000000#32) (ix2 r hd)
      = ∑ d : Fin 64, (y (ix2 r d) * x2 (ix2 0 d)) * x4 (ix2 d hd) := by
  refine (Ideal.matmul_constant_zero_apply dot_S5000x64_S64x4_S5000x4_1_0_0_1_n_n (some .fp32) _ _ (ix2 r hd)).trans ?_
  rw [← Equiv.sum_comp (ValueIdx.contrEquiv1 dot_S5000x64_S64x4_S5000x4_1_0_0_1_n_n 64 rfl rfl).symm]
  refine Finset.sum_congr rfl fun d _ => ?_
  have hk := ValueIdx.contrEquiv1_symm_val dot_S5000x64_S64x4_S5000x4_1_0_0_1_n_n 64 rfl rfl d
  have el : dot_S5000x64_S64x4_S5000x4_1_0_0_1_n_n.lhsIdx (ix2 r hd) ((ValueIdx.contrEquiv1 dot_S5000x64_S64x4_S5000x4_1_0_0_1_n_n 64 rfl rfl).symm d) = ix2 r d := funext fun a => Fin.ext (by
    match a with
    | ⟨0, _⟩ => exact lhsB_0 _ _
    | ⟨1, _⟩ => exact (lhsB_1 _ _).trans hk)
  have er : dot_S5000x64_S64x4_S5000x4_1_0_0_1_n_n.rhsIdx (ix2 r hd) ((ValueIdx.contrEquiv1 dot_S5000x64_S64x4_S5000x4_1_0_0_1_n_n 64 rfl rfl).symm d) = ix2 d hd := funext fun a => Fin.ext (by
    match a with
    | ⟨0, _⟩ => exact (rhsB_0 _ _).trans hk
    | ⟨1, _⟩ => exact rhsB_1 _ _)
  rw [el, er]
  show (y (ix2 r d) * broadcastTo S5000x64 (shapeCast S1x64 x2 shapeCasts_S1x64_S1x64) broadcasts_S1x64_S5000x64 (ix2 r d)) * x4 (ix2 d hd) = _
  rw [bcast_apply]

/-! ## The body's result at a row of its block is the score of the node that row holds -/

set_option maxHeartbeats 400000 in
/-- Over any blocks: if row p of the feature block is row n of the feature array A1, the result at (p, q) is
    the flat-form score of node n for head q, with the weight, attention and table blocks as the arrays. -/
theorem score_point (x0 : Vec Ideal S5000x128 .f32) (x1 : Vec Ideal S128x64 .f32) (x2 : Vec Ideal S1x64 .f32)
    (x4 : Vec Ideal S64x4 .f32) (A1 : S50000x128.Idx → EReal) (p : Fin 5000) (q : Fin 4) (n : Fin 50000)
    (h0 : ∀ k : Fin 128, x0 (ix2 p k) = A1 (ix2 n k)) :
    FloatOps.matmul (φ₁ := .f32) (φ₂ := .f32) dot_S5000x64_S64x4_S5000x4_1_0_0_1_n_n (some .fp32)
        (mulf (k0_pay1 (F := Ideal) x0 x1) (broadcastTo S5000x64 (shapeCast S1x64 x2 shapeCasts_S1x64_S1x64) broadcasts_S1x64_S5000x64)) x4
        (constant (F := Ideal) S5000x4 .f32 0x00000000#32) (ix2 p q)
      = scoreK (wh (arr2 A1) (arr2 x1)) (fun d => x2 (ix2 0 d)) (arr2 x4) n q := by
  rw [contract_apply]
  unfold scoreK wh
  refine Finset.sum_congr rfl fun d _ => ?_
  rw [proj_apply]
  congr 2
  refine Finset.sum_congr rfl fun k _ => ?_
  rw [h0 k]

/-- The same, stated at the body's two results (each IS that product of its loaded blocks). -/
theorem pay3_point (x0 : Vec Ideal S5000x128 .f32) (x1 : Vec Ideal S128x64 .f32) (x2 : Vec Ideal S1x64 .f32)
    (x4 : Vec Ideal S64x4 .f32) (A1 : S50000x128.Idx → EReal) (A2 : S128x64.Idx → EReal) (A3 : S1x64.Idx → EReal)
    (A4 : S64x4.Idx → EReal) (p : Fin 5000) (q : Fin 4) (n : Fin 50000)
    (h0 : ∀ k : Fin 128, x0 (ix2 p k) = A1 (ix2 n k)) (h1 : x1 = A2) (h2 : x2 = A3) (h4 : x4 = A4) :
    k0_pay3 (F := Ideal) x0 x1 x2 x4 (ix2 p q)
      = scoreK (wh (arr2 A1) (arr2 A2)) (fun d => A3 (ix2 0 d)) (arr2 A4) n q := by
  subst h1 h2 h4
  exact score_point x0 x1 x2 x4 A1 p q n h0

theorem pay4_point (x0 : Vec Ideal S5000x128 .f32) (x1 : Vec Ideal S128x64 .f32) (x3 : Vec Ideal S1x64 .f32)
    (x4 : Vec Ideal S64x4 .f32) (A1 : S50000x128.Idx → EReal) (A2 : S128x64.Idx → EReal) (A3 : S1x64.Idx → EReal)
    (A4 : S64x4.Idx → EReal) (p : Fin 5000) (q : Fin 4) (n : Fin 50000)
    (h0 : ∀ k : Fin 128, x0 (ix2 p k) = A1 (ix2 n k)) (h1 : x1 = A2) (h3 : x3 = A3) (h4 : x4 = A4) :
    k0_pay4 (F := Ideal) x0 x1 x3 x4 (ix2 p q)
      = scoreK (wh (arr2 A1) (arr2 A2)) (fun d => A3 (ix2 0 d)) (arr2 A4) n q := by
  subst h1 h3 h4
  exact score_point x0 x1 x3 x4 A1 p q n h0

/-! ## From the ten blocks to the array -/

section Array
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the two score windows sit at block row t,
    block column 0; the weight, the two attention rows and the table are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The flat-form score array of the region's feature, weight and table arrays and an attention row array. -/
def scoreArr (c : Dev nD) (A : S1x64.Idx → EReal) : S50000x4.Idx → EReal := fun i =>
  scoreK (wh (arr2 (V c main_arg1)) (arr2 (V c main_arg2))) (fun d => A (ix2 0 d)) (arr2 (V c main_cst))
    ⟨(i 0).val, (i 0).isLt⟩ ⟨(i 1).val, (i 1).isLt⟩

set_option maxHeartbeats 400000 in
/-- Row p of point t's feature block is row 5000 t + p of the feature array. -/
theorem blk0_apply (c : Dev nD) (t : Fin cfg0.N) (p : Fin 5000) (k : Fin 128) (n : Fin 50000)
    (hn : n.val = t.val * 5000 + p.val) : iblk0 V c 0 t (ix2 p k) = V c main_arg1 (ix2 n k) := by
  obtain ⟨e0, e1, -⟩ := idx_facts t
  show V c main_arg1 (((cfg0.win 0).blk t).view.emb (ix2 p k)) = V c main_arg1 (ix2 n k)
  refine congrArg (V c main_arg1) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

set_option maxHeartbeats 400000 in
/-- The weight block is the weight array. -/
theorem blk1_eq (c : Dev nD) (t : Fin cfg0.N) : (iblk0 V c 1 t : S128x64.Idx → EReal) = V c main_arg2 := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

set_option maxHeartbeats 400000 in
/-- The source attention block is its array. -/
theorem blk2_eq (c : Dev nD) (t : Fin cfg0.N) : (iblk0 V c 2 t : S1x64.Idx → EReal) = V c main_v4 := by
  obtain ⟨-, -, -, -, e0, e1, -⟩ := idx_facts t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

set_option maxHeartbeats 400000 in
/-- The destination attention block is its array. -/
theorem blk3_eq (c : Dev nD) (t : Fin cfg0.N) : (iblk0 V c 3 t : S1x64.Idx → EReal) = V c main_v5 := by
  obtain ⟨-, -, -, -, -, -, e0, e1, -⟩ := idx_facts t
  funext y
  show V c main_v5 (((cfg0.win 3).blk t).view.emb y) = V c main_v5 y
  refine congrArg (V c main_v5) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

set_option maxHeartbeats 400000 in
/-- The table block is the table. -/
theorem blk4_eq (c : Dev nD) (t : Fin cfg0.N) : (iblk0 V c 4 t : S64x4.Idx → EReal) = V c main_cst := by
  obtain ⟨-, -, -, -, -, -, -, -, e0, e1, -⟩ := idx_facts t
  funext y
  show V c main_cst (((cfg0.win 4).blk t).view.emb y) = V c main_cst y
  refine congrArg (V c main_cst) (funext fun a => Fin.ext ?_)
  match a with
  | ⟨0, _⟩ => show win0_4.index t (0 : Fin 2) * 64 + 1 * (y 0).val = (y 0).val; omega
  | ⟨1, _⟩ => show win0_4.index t (1 : Fin 2) * 4 + 1 * (y 1).val = (y 1).val; omega

/-! ### Window 6: the source scores -/

set_option maxHeartbeats 400000 in
/-- What point t writes back through window 6 is block t of the source score array. -/
theorem flushed6_eq (c : Dev nD) (t : Fin cfg0.N) :
    (dat0 V c).flushed 6 t = ((cfg0.win 6).blk t).view.read (Elt Ideal) (scoreArr V c (V c main_v4)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz,
    View.ld_unit_zero (S := S1x64) hz, View.ld_unit_zero (S := S64x4) hz]
  obtain ⟨-, -, -, -, -, -, -, -, -, -, e0, e1, -⟩ := idx_facts t
  have ht : t.val < 10 := t.isLt
  funext j
  obtain ⟨p, q, rfl⟩ : ∃ (p : Fin 5000) (q : Fin 4), j = ix2 p q := ⟨j 0, j 1, eq_ix2 j⟩
  have hp : p.val < 5000 := p.isLt
  have hn : t.val * 5000 + p.val < 50000 := by omega
  show k0_pay3 (iblk0 V c 0 t) (iblk0 V c 1 t) (iblk0 V c 2 t) (iblk0 V c 4 t) (ix2 p q)
    = scoreArr V c (V c main_v4) (((cfg0.win 6).blk t).view.emb (ix2 p q))
  refine (pay3_point (iblk0 V c 0 t) (iblk0 V c 1 t) (iblk0 V c 2 t) (iblk0 V c 4 t)
    (V c main_arg1) (V c main_arg2) (V c main_v4) (V c main_cst) p q ⟨t.val * 5000 + p.val, hn⟩
    (fun k => blk0_apply V c t p k ⟨t.val * 5000 + p.val, hn⟩ rfl) (blk1_eq V c t) (blk2_eq V c t) (blk4_eq V c t)).trans ?_
  have hn' : (⟨t.val * 5000 + p.val, hn⟩ : Fin 50000)
      = ⟨(((cfg0.win 6).blk t).view.emb (ix2 p q) 0).val, (((cfg0.win 6).blk t).view.emb (ix2 p q) 0).isLt⟩ :=
    Fin.ext (by show t.val * 5000 + p.val = win0_6.index t (0 : Fin 2) * 5000 + 1 * p.val; omega)
  have hq' : q = ⟨(((cfg0.win 6).blk t).view.emb (ix2 p q) 1).val, (((cfg0.win 6).blk t).view.emb (ix2 p q) 1).isLt⟩ :=
    Fin.ext (by show q.val = win0_6.index t (1 : Fin 2) * 4 + 1 * q.val; omega)
  exact congrArg₂ (fun n q => scoreK (wh (arr2 (V c main_arg1)) (arr2 (V c main_arg2))) (fun d => V c main_v4 (ix2 0 d)) (arr2 (V c main_cst)) n q) hn' hq'

/-- An index of the array is in point t's block iff each coordinate is in the block's range on its axis. -/
theorem mem_blk6 (t : Fin cfg0.N) (i : S50000x4.Idx) :
    i ∈ ((cfg0.win 6).blk t).view.set ↔ ∀ a : Fin 2, win0_6.index t a * S5000x4.size a ≤ (i a).val ∧ (i a).val < win0_6.index t a * S5000x4.size a + S5000x4.size a := by
  show i ∈ ((View.whole main_v6_1).slice (win0_6.rect t)).set ↔ _
  rw [View.set_slice_whole, Rect.mem_set_unit]
  exact Iff.rfl

/-- Row r is in the block of point r / 5000, and every point writes back. -/
theorem cover6 (i : S50000x4.Idx) :
    ∃ t : Fin cfg0.N, (cfg0.win 6).flush t = true ∧ i ∈ ((cfg0.win 6).blk t).view.set := by
  have hi0 : (i 0).val < 50000 := (i 0).isLt
  have hi1 : (i 1).val < 4 := (i 1).isLt
  have hlt : (i 0).val / 5000 < 10 := by omega
  obtain ⟨-, -, -, -, -, -, -, -, -, -, e0, e1, -⟩ := idx_facts ⟨(i 0).val / 5000, hlt⟩
  have e0' : win0_6.index ⟨(i 0).val / 5000, hlt⟩ (0 : Fin 2) = (i 0).val / 5000 := e0
  refine ⟨⟨(i 0).val / 5000, hlt⟩, flush0_6 _, ?_⟩
  rw [mem_blk6]
  intro a
  match a with
  | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; omega
  | ⟨1, _⟩ => show win0_6.index ⟨(i 0).val / 5000, hlt⟩ (1 : Fin 2) * 4 ≤ (i 1).val ∧ (i 1).val < win0_6.index ⟨(i 0).val / 5000, hlt⟩ (1 : Fin 2) * 4 + 4; omega

/-- The array of window 6 after the region: the source score array. -/
theorem final6 (c : Dev nD) : (dat0 V c).arrAt 6 cfg0.N = scoreArr V c (V c main_v4) :=
  (dat0 V c).arrAt_eq_of_cover 6 (scoreArr V c (V c main_v4)) (fun t _ => flushed6_eq V c t) cover6

/-- SOURCE SCORES: node n, head hd. -/
theorem score_src (c : Dev nD) (n : Fin 50000) (hd : Fin 4) :
    (dat0 V c).arrAt 6 cfg0.N (ix2 n hd)
      = Cert.Gat.scoreK (Cert.Gat.wh (arr2 (V c main_arg1)) (arr2 (V c main_arg2))) (fun d => V c main_v4 (ix2 0 d)) (arr2 (V c main_cst)) n hd :=
  congrFun (final6 V c) (ix2 n hd)

/-! ### Window 7: the destination scores -/

set_option maxHeartbeats 400000 in
/-- What point t writes back through window 7 is block t of the destination score array. -/
theorem flushed7_eq (c : Dev nD) (t : Fin cfg0.N) :
    (dat0 V c).flushed 7 t = ((cfg0.win 7).blk t).view.read (Elt Ideal) (scoreArr V c (V c main_v5)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x64) hz,
    View.ld_unit_zero (S := S1x64) hz, View.ld_unit_zero (S := S64x4) hz]
  obtain ⟨-, -, -, -, -, -, -, -, -, -, -, -, e0, e1⟩ := idx_facts t
  have ht : t.val < 10 := t.isLt
  funext j
  obtain ⟨p, q, rfl⟩ : ∃ (p : Fin 5000) (q : Fin 4), j = ix2 p q := ⟨j 0, j 1, eq_ix2 j⟩
  have hp : p.val < 5000 := p.isLt
  have hn : t.val * 5000 + p.val < 50000 := by omega
  show k0_pay4 (iblk0 V c 0 t) (iblk0 V c 1 t) (iblk0 V c 3 t) (iblk0 V c 4 t) (ix2 p q)
    = scoreArr V c (V c main_v5) (((cfg0.win 7).blk t).view.emb (ix2 p q))
  refine (pay4_point (iblk0 V c 0 t) (iblk0 V c 1 t) (iblk0 V c 3 t) (iblk0 V c 4 t)
    (V c main_arg1) (V c main_arg2) (V c main_v5) (V c main_cst) p q ⟨t.val * 5000 + p.val, hn⟩
    (fun k => blk0_apply V c t p k ⟨t.val * 5000 + p.val, hn⟩ rfl) (blk1_eq V c t) (blk3_eq V c t) (blk4_eq V c t)).trans ?_
  have hn' : (⟨t.val * 5000 + p.val, hn⟩ : Fin 50000)
      = ⟨(((cfg0.win 7).blk t).view.emb (ix2 p q) 0).val, (((cfg0.win 7).blk t).view.emb (ix2 p q) 0).isLt⟩ :=
    Fin.ext (by show t.val * 5000 + p.val = win0_7.index t (0 : Fin 2) * 5000 + 1 * p.val; omega)
  have hq' : q = ⟨(((cfg0.win 7).blk t).view.emb (ix2 p q) 1).val, (((cfg0.win 7).blk t).view.emb (ix2 p q) 1).isLt⟩ :=
    Fin.ext (by show q.val = win0_7.index t (1 : Fin 2) * 4 + 1 * q.val; omega)
  exact congrArg₂ (fun n q => scoreK (wh (arr2 (V c main_arg1)) (arr2 (V c main_arg2))) (fun d => V c main_v5 (ix2 0 d)) (arr2 (V c main_cst)) n q) hn' hq'

theorem mem_blk7 (t : Fin cfg0.N) (i : S50000x4.Idx) :
    i ∈ ((cfg0.win 7).blk t).view.set ↔ ∀ a : Fin 2, win0_7.index t a * S5000x4.size a ≤ (i a).val ∧ (i a).val < win0_7.index t a * S5000x4.size a + S5000x4.size a := by
  show i ∈ ((View.whole main_v6_2).slice (win0_7.rect t)).set ↔ _
  rw [View.set_slice_whole, Rect.mem_set_unit]
  exact Iff.rfl

theorem cover7 (i : S50000x4.Idx) :
    ∃ t : Fin cfg0.N, (cfg0.win 7).flush t = true ∧ i ∈ ((cfg0.win 7).blk t).view.set := by
  have hi0 : (i 0).val < 50000 := (i 0).isLt
  have hi1 : (i 1).val < 4 := (i 1).isLt
  have hlt : (i 0).val / 5000 < 10 := by omega
  obtain ⟨-, -, -, -, -, -, -, -, -, -, -, -, e0, e1⟩ := idx_facts ⟨(i 0).val / 5000, hlt⟩
  have e0' : win0_7.index ⟨(i 0).val / 5000, hlt⟩ (0 : Fin 2) = (i 0).val / 5000 := e0
  refine ⟨⟨(i 0).val / 5000, hlt⟩, flush0_7 _, ?_⟩
  rw [mem_blk7]
  intro a
  match a with
  | ⟨0, _⟩ => show win0_7.index ⟨(i 0).val / 5000, hlt⟩ (0 : Fin 2) * 5000 ≤ (i 0).val ∧ (i 0).val < win0_7.index ⟨(i 0).val / 5000, hlt⟩ (0 : Fin 2) * 5000 + 5000; omega
  | ⟨1, _⟩ => show win0_7.index ⟨(i 0).val / 5000, hlt⟩ (1 : Fin 2) * 4 ≤ (i 1).val ∧ (i 1).val < win0_7.index ⟨(i 0).val / 5000, hlt⟩ (1 : Fin 2) * 4 + 4; omega

/-- The array of window 7 after the region: the destination score array. -/
theorem final7 (c : Dev nD) : (dat0 V c).arrAt 7 cfg0.N = scoreArr V c (V c main_v5) :=
  (dat0 V c).arrAt_eq_of_cover 7 (scoreArr V c (V c main_v5)) (fun t _ => flushed7_eq V c t) cover7

/-- DESTINATION SCORES: node n, head hd. -/
theorem score_dst (c : Dev nD) (n : Fin 50000) (hd : Fin 4) :
    (dat0 V c).arrAt 7 cfg0.N (ix2 n hd)
      = Cert.Gat.scoreK (Cert.Gat.wh (arr2 (V c main_arg1)) (arr2 (V c main_arg2))) (fun d => V c main_v5 (ix2 0 d)) (arr2 (V c main_cst)) n hd :=
  congrFun (final7 V c) (ix2 n hd)

end Array

end Cert.Gat.K0S

end
-- ==== Proof.LibBlock.lean ====
/-
  Minima, maxima and sums over `a * b` indices, read block by block.

  The indices below `a * b` are cut into `a` consecutive blocks of length `b`: index `k * b + q` is position `q` of
  block `k` (`col k q`), and every index is of that form. `pre a b k` is the set of the indices that lie in the blocks
  before block `k`: it is empty at `k = 0`, it is every index at `k = a`, and passing from `k` to `k + 1` adds exactly
  block `k`, which is disjoint from it.

  Meet, join and addition are associative and commutative, so a fold over `pre a b (k + 1)` is the fold over `pre a b k`
  combined with the fold over block `k`. Hence an accumulator that starts at the neutral element (`⊤` for a minimum, `⊥`
  for a maximum, `0` for a sum) and absorbs one block's fold per step holds, after `k` steps, the fold over the first
  `k * b` indices, and after `a` steps the fold over all of them. A running maximum started at a value `z` instead of
  `⊥` is `z ⊔` that fold, and it exceeds `z` exactly when some term does.
-/
import Mathlib.Data.Finset.Lattice.Fold
import Mathlib.Algebra.BigOperators.Fin

open scoped BigOperators

namespace Cert.LibBlock

variable {a b : ℕ}

/-! ## Blocks and prefixes -/

/-- Position `q` of block `k`, among `a` blocks of length `b`, is an index below `a * b`. -/
theorem col_lt (k : Fin a) (q : Fin b) : k.val * b + q.val < a * b := by
  have hk : k.val + 1 ≤ a := k.isLt
  have hq : q.val < b := q.isLt
  calc k.val * b + q.val < k.val * b + b := Nat.add_lt_add_left hq _
    _ = (k.val + 1) * b := (Nat.succ_mul _ _).symm
    _ ≤ a * b := Nat.mul_le_mul_right b hk

/-- Position `q` of block `k`: the index `k * b + q`. -/
def col (k : Fin a) (q : Fin b) : Fin (a * b) := ⟨k.val * b + q.val, col_lt k q⟩

theorem col_val (k : Fin a) (q : Fin b) : (col k q).val = k.val * b + q.val := rfl

/-- Inside one block, different positions are different indices. -/
theorem col_injective (k : Fin a) : Function.Injective (col (b := b) k) := fun q q' h => by
  have hv : k.val * b + q.val = k.val * b + q'.val := congrArg Fin.val h
  exact Fin.ext (Nat.add_left_cancel hv)

/-- Every index below `a * b` is a position of a block: block `j / b`, position `j % b`. -/
theorem exists_col (j : Fin (a * b)) : ∃ (k : Fin a) (q : Fin b), j = col k q := by
  have hj : j.val < a * b := j.isLt
  have hb : 0 < b := by
    rcases Nat.eq_zero_or_pos b with h | h
    · have h0 : a * b = 0 := by rw [h, Nat.mul_zero]
      omega
    · exact h
  have hk : j.val / b < a := Nat.div_lt_of_lt_mul (by have := Nat.mul_comm a b; omega)
  exact ⟨⟨j.val / b, hk⟩, ⟨j.val % b, Nat.mod_lt _ hb⟩, Fin.ext (Nat.div_add_mod' j.val b).symm⟩

/-- The indices that lie in the blocks before block `k`: those below `k * b`. -/
def pre (a b k : ℕ) : Finset (Fin (a * b)) := Finset.univ.filter fun j => j.val < k * b

theorem mem_pre {k : ℕ} {j : Fin (a * b)} : j ∈ pre a b k ↔ j.val < k * b := by
  unfold pre; rw [Finset.mem_filter]; exact ⟨fun h => h.2, fun h => ⟨Finset.mem_univ _, h⟩⟩

/-- Before the first block there is nothing. -/
theorem pre_zero : pre a b 0 = ∅ := by
  ext j
  rw [mem_pre, Nat.zero_mul]
  exact ⟨fun h => absurd h (Nat.not_lt_zero _), fun h => absurd h (Finset.notMem_empty j)⟩

/-- Before block `a`, which is past the last one, there is everything. -/
theorem pre_full : pre a b a = Finset.univ := by
  ext j
  rw [mem_pre]
  exact ⟨fun _ => Finset.mem_univ _, fun _ => j.isLt⟩

/-- One step adds exactly block `k`. -/
theorem pre_succ (k : Fin a) : pre a b (k.val + 1) = pre a b k.val ∪ Finset.univ.image (col (b := b) k) := by
  ext j
  rw [Finset.mem_union, mem_pre, mem_pre, Finset.mem_image, Nat.succ_mul]
  constructor
  · intro h
    by_cases hj : j.val < k.val * b
    · exact Or.inl hj
    · refine Or.inr ⟨⟨j.val - k.val * b, by omega⟩, Finset.mem_univ _, Fin.ext ?_⟩
      show k.val * b + (j.val - k.val * b) = j.val
      omega
  · rintro (h | ⟨q, _, rfl⟩)
    · omega
    · show k.val * b + q.val < k.val * b + b
      have := q.isLt
      omega

/-- Block `k` is disjoint from the blocks before it. -/
theorem pre_disjoint (k : Fin a) : Disjoint (pre a b k.val) (Finset.univ.image (col (b := b) k)) := by
  rw [Finset.disjoint_left]
  intro j hj hj'
  rw [mem_pre] at hj
  rw [Finset.mem_image] at hj'
  obtain ⟨q, _, rfl⟩ := hj'
  rw [col_val] at hj
  omega

/-! ## A minimum, block by block -/

section Inf
variable {α : Type*} [SemilatticeInf α] [OrderTop α]

theorem inf_pre_zero (f : Fin (a * b) → α) : (pre a b 0).inf f = ⊤ := by
  rw [pre_zero, Finset.inf_empty]

/-- The minimum over the first `k + 1` blocks is the minimum over the first `k` meet the minimum over block `k`. -/
theorem inf_pre_succ (f : Fin (a * b) → α) (k : Fin a) :
    (pre a b (k.val + 1)).inf f = (pre a b k.val).inf f ⊓ Finset.univ.inf fun q : Fin b => f (col k q) := by
  rw [pre_succ, Finset.inf_union, Finset.inf_image]
  rfl

theorem inf_pre_full (f : Fin (a * b) → α) : (pre a b a).inf f = Finset.univ.inf f := by
  rw [pre_full]

/-- The minimum over all `a * b` indices is the minimum over the blocks of the minima inside each block. -/
theorem inf_blocks (f : Fin (a * b) → α) :
    Finset.univ.inf f = Finset.univ.inf fun k : Fin a => Finset.univ.inf fun q : Fin b => f (col k q) := by
  refine le_antisymm (Finset.le_inf fun k _ => Finset.le_inf fun q _ => Finset.inf_le (Finset.mem_univ _))
    (Finset.le_inf fun j _ => ?_)
  obtain ⟨k, q, rfl⟩ := exists_col j
  exact (Finset.inf_le (Finset.mem_univ k)).trans (Finset.inf_le (Finset.mem_univ q))

end Inf

/-! ## A maximum, block by block -/

section Sup
variable {α : Type*} [SemilatticeSup α] [OrderBot α]

theorem sup_pre_zero (f : Fin (a * b) → α) : (pre a b 0).sup f = ⊥ := by
  rw [pre_zero, Finset.sup_empty]

/-- The maximum over the first `k + 1` blocks is the maximum over the first `k` join the maximum over block `k`. -/
theorem sup_pre_succ (f : Fin (a * b) → α) (k : Fin a) :
    (pre a b (k.val + 1)).sup f = (pre a b k.val).sup f ⊔ Finset.univ.sup fun q : Fin b => f (col k q) := by
  rw [pre_succ, Finset.sup_union, Finset.sup_image]
  rfl

theorem sup_pre_full (f : Fin (a * b) → α) : (pre a b a).sup f = Finset.univ.sup f := by
  rw [pre_full]

/-- The maximum over all `a * b` indices is the maximum over the blocks of the maxima inside each block. -/
theorem sup_blocks (f : Fin (a * b) → α) :
    Finset.univ.sup f = Finset.univ.sup fun k : Fin a => Finset.univ.sup fun q : Fin b => f (col k q) := by
  refine le_antisymm (Finset.sup_le fun j _ => ?_)
    (Finset.sup_le fun k _ => Finset.sup_le fun q _ => Finset.le_sup (Finset.mem_univ _))
  obtain ⟨k, q, rfl⟩ := exists_col j
  exact (Finset.le_sup (f := fun q : Fin b => f (col k q)) (Finset.mem_univ q)).trans
    (Finset.le_sup (f := fun k : Fin a => Finset.univ.sup fun q : Fin b => f (col k q)) (Finset.mem_univ k))

/-- A running maximum started at `z`: absorbing block `k` into `z ⊔` (the maximum over the first `k` blocks) gives
    `z ⊔` (the maximum over the first `k + 1` blocks). -/
theorem sup_acc_succ (z : α) (f : Fin (a * b) → α) (k : Fin a) :
    (z ⊔ (pre a b k.val).sup f) ⊔ (Finset.univ.sup fun q : Fin b => f (col k q)) = z ⊔ (pre a b (k.val + 1)).sup f := by
  rw [sup_pre_succ, sup_assoc]

end Sup

/-! ## A sum, block by block -/

section Sum
variable {M : Type*} [AddCommMonoid M]

theorem sum_pre_zero (f : Fin (a * b) → M) : ∑ j ∈ pre a b 0, f j = 0 := by
  rw [pre_zero, Finset.sum_empty]

/-- The sum over the first `k + 1` blocks is the sum over the first `k` plus the sum over block `k`. -/
theorem sum_pre_succ (f : Fin (a * b) → M) (k : Fin a) :
    ∑ j ∈ pre a b (k.val + 1), f j = ∑ j ∈ pre a b k.val, f j + ∑ q : Fin b, f (col k q) := by
  rw [pre_succ, Finset.sum_union (pre_disjoint k), Finset.sum_image fun q _ q' _ h => col_injective k h]

theorem sum_pre_full (f : Fin (a * b) → M) : ∑ j ∈ pre a b a, f j = ∑ j, f j := by
  rw [pre_full]

end Sum

/-! ## A fold of any commutative, associative operation, block by block

The accumulator may start at a value `z` other than the value `w` each block's own fold starts at, as long as `z` absorbs
`w` (`op z w = z`): a minimum kept from `+∞` with block minima taken from `+∞` (`min` is idempotent), a maximum kept from
`0` with block maxima taken from `-∞`. -/

section Fold
variable {α : Type*} (op : α → α → α) [Std.Commutative op] [Std.Associative op]

theorem fold_pre_zero (z : α) (f : Fin (a * b) → α) : (pre a b 0).fold op z f = z := by
  rw [pre_zero, Finset.fold_empty]

/-- The fold from `z` over the first `k + 1` blocks is the fold from `z` over the first `k` combined with the fold from
    `w` over block `k`, when `z` absorbs `w`. -/
theorem fold_pre_succ {z w : α} (hzw : op z w = z) (f : Fin (a * b) → α) (k : Fin a) :
    (pre a b (k.val + 1)).fold op z f
      = op ((pre a b k.val).fold op z f) (Finset.univ.fold op w fun q : Fin b => f (col k q)) := by
  calc (pre a b (k.val + 1)).fold op z f
      = ((pre a b k.val).disjUnion (Finset.univ.image (col (b := b) k)) (pre_disjoint k)).fold op (op z w) f := by
        rw [hzw, Finset.disjUnion_eq_union, pre_succ]
    _ = op ((pre a b k.val).fold op z f) ((Finset.univ.image (col (b := b) k)).fold op w f) :=
        Finset.fold_disjUnion _
    _ = op ((pre a b k.val).fold op z f) (Finset.univ.fold op w fun q : Fin b => f (col k q)) := by
        rw [Finset.fold_image fun q _ q' _ e => col_injective k e]
        rfl

theorem fold_pre_full (z : α) (f : Fin (a * b) → α) : (pre a b a).fold op z f = Finset.univ.fold op z f := by
  rw [pre_full]

end Fold

/-! ## "Some term is positive", read off a running maximum -/

section Any
variable {α : Type*} [LinearOrder α] [OrderBot α] {ι : Type*}

/-- A maximum started at `z` exceeds `z` exactly when one of its terms does. -/
theorem lt_sup_sup_iff (s : Finset ι) (m : ι → α) (z : α) : z < z ⊔ s.sup m ↔ ∃ j ∈ s, z < m j := by
  rw [lt_sup_iff, Finset.lt_sup_iff]
  exact ⟨fun h => h.resolve_left (lt_irrefl z), Or.inr⟩

/-- Over every index: `z < z ⊔ (maximum of all terms)` exactly when some term exceeds `z`. -/
theorem lt_sup_univ_iff [Fintype ι] (m : ι → α) (z : α) : z < z ⊔ Finset.univ.sup m ↔ ∃ j, z < m j := by
  rw [lt_sup_sup_iff]
  exact ⟨fun ⟨j, _, h⟩ => ⟨j, h⟩, fun ⟨j, h⟩ => ⟨j, Finset.mem_univ _, h⟩⟩

end Any

end Cert.LibBlock
-- ==== Proof.Region1.lean ====
/-
  The second region of the kernel: every edge's logit, and the largest logit of each head, read as functions of the
  arrays the region finds.

  The region runs over 125 grid points.  Point t holds rows 8000 t … 8000 t + 7999 of the two gathered score arrays
  (one row per edge, one column per head; 1000000 x 4 each): the source scores es and the destination scores ed.  At
  row r and head hd of its block it stores the edge's logit

      leaky (es (8000 t + r, hd) + ed (8000 t + r, hd)),

  and it writes the block back at every point; the 125 row blocks tile the 1000000 rows, so after the region the
  first output array holds the logit of every edge and head.

  The second output is one 1 x 4 row that stays in place across the grid and is written back after the last point
  only.  Point 0 first sets it to minus infinity; every point then replaces entry hd by the larger of what the row
  held and the largest of the point's own 8000 logits of head hd (a maximum over the block's rows, taken from minus
  infinity).  So after point t the row holds, per head, the maximum over the edges below 8000 (t + 1) — by induction
  on t: the maximum over the first t + 1 blocks is the maximum over the first t joined with the maximum over block t
  — and after point 124 the maximum over all edges.  Join on the extended reals is associative and commutative with
  minus infinity neutral; nothing here needs finiteness.

  Order of the file: what each of the body's two cases leaves in the two outputs, as the body's stored values; those
  values read at an index over arbitrary blocks; the blocks as rows of their arrays; the running maximum; what the
  points write back, the covers, and the two arrays.
-/
import proofs.«116205_j188978561163_2_alg».proof.Proof.Gen.KernelIdeal.Frame
import proofs.«116205_j188978561163_2_alg».proof.Proof.Spec
import proofs.«116205_j188978561163_2_alg».proof.Proof.LibBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Gat.K1

open Cert.KernelIdeal Cert.KernelIdeal.Gen

variable {F : FTy → Type} [FloatOps F]

/-- The zero offsets of a whole-buffer access, as the constant function. -/
theorem zeros2 : (![0, 0] : Fin 2 → Nat) = fun _ => 0 := funext fun a => by fin_cases a <;> rfl

/-! ## What each case of the body leaves in the two outputs

Over any float values.  At a point other than the first the body stores the block of logits of its two loaded blocks
`x0`, `x1` into the first output, and into the carried row the larger of what the row held (`xo`) and the blocks'
row maxima.  At the first point it does the same after first storing minus infinity into the row, so the row it reads
back is that constant.  Each output's last store covers its whole buffer, so the buffer holds that store's value. -/

set_option maxHeartbeats 400000 in
/-- A later point leaves the block of logits in the first output. -/
theorem later_logits (c : Dev nD) (i : grid1.Coords) (a1 : Memref sig .tc .vmem S8000x4 .f32) (h1 : a1.IsWhole)
    (a2 : Memref sig .tc .vmem S8000x4 .f32) (h2 : a2.IsWhole) (a3 : Memref sig .tc .vmem S8000x4 .f32) (h3 : a3.IsWhole)
    (a4 : Memref sig .tc .vmem S1x4 .f32) (h4 : a4.IsWhole) (hc : ¬cond1_0 i)
    (x0 x1 : Vec F S8000x4 .f32) (xo : Vec F S1x4 .f32) :
    out1_B_2 c i a1 h1 a2 h2 a3 h3 a4 h4 hc x0 x1 xo = k1_pay2 x0 x1 := by
  unfold out1_B_2
  rw [View.read_writes_eq_canon _ _ _ (cover1_B_2 c i a1 h1 a2 h2 a3 h3 a4 h4 hc x0 x1 xo)]
  unfold kernelRun1_B
  dsimp only
  rw [View.canon_unit_zero zeros2]
  simp only [View.readAt_eq_ld, h1.read_unread, h2.read_unread, View.ld_unit_zero (S := S8000x4) zeros2]

set_option maxHeartbeats 400000 in
/-- A later point leaves, in the carried row, the larger of what it held and the blocks' row maxima. -/
theorem later_row (c : Dev nD) (i : grid1.Coords) (a1 : Memref sig .tc .vmem S8000x4 .f32) (h1 : a1.IsWhole)
    (a2 : Memref sig .tc .vmem S8000x4 .f32) (h2 : a2.IsWhole) (a3 : Memref sig .tc .vmem S8000x4 .f32) (h3 : a3.IsWhole)
    (a4 : Memref sig .tc .vmem S1x4 .f32) (h4 : a4.IsWhole) (hc : ¬cond1_0 i)
    (x0 x1 : Vec F S8000x4 .f32) (xo : Vec F S1x4 .f32) :
    out1_B_3 c i a1 h1 a2 h2 a3 h3 a4 h4 hc x0 x1 xo = k1_pay3 x0 x1 xo := by
  unfold out1_B_3
  rw [View.read_writes_eq_canon _ _ _ (cover1_B_3 c i a1 h1 a2 h2 a3 h3 a4 h4 hc x0 x1 xo)]
  unfold kernelRun1_B
  dsimp only
  rw [View.canon_unit_zero zeros2]
  simp only [View.readAt_eq_ld, h1.read_unread, h2.read_unread, h4.read_unread, View.ld_unit_zero (S := S8000x4) zeros2,
    View.ld_unit_zero (S := S1x4) zeros2]

set_option maxHeartbeats 400000 in
/-- The first point leaves the block of logits in the first output. -/
theorem first_logits (c : Dev nD) (i : grid1.Coords) (a1 : Memref sig .tc .vmem S8000x4 .f32) (h1 : a1.IsWhole)
    (a2 : Memref sig .tc .vmem S8000x4 .f32) (h2 : a2.IsWhole) (a3 : Memref sig .tc .vmem S8000x4 .f32) (h3 : a3.IsWhole)
    (a4 : Memref sig .tc .vmem S1x4 .f32) (h4 : a4.IsWhole) (hc : cond1_0 i)
    (x0 x1 : Vec F S8000x4 .f32) :
    out1_A_2 c i a1 h1 a2 h2 a3 h3 a4 h4 hc x0 x1 = k1_pay2 x0 x1 := by
  unfold out1_A_2
  rw [View.read_writes_eq_canon _ _ _ (cover1_A_2 c i a1 h1 a2 h2 a3 h3 a4 h4 hc x0 x1)]
  unfold kernelRun1_A
  dsimp only
  rw [View.canon_unit_zero zeros2]
  simp only [View.readAt_eq_ld, h1.read_unread, h2.read_unread, View.ld_unit_zero (S := S8000x4) zeros2]

set_option maxHeartbeats 400000 in
/-- The first point leaves, in the carried row, the larger of minus infinity (the row it has just stored and reads
    back) and the blocks' row maxima. -/
theorem first_row (c : Dev nD) (i : grid1.Coords) (a1 : Memref sig .tc .vmem S8000x4 .f32) (h1 : a1.IsWhole)
    (a2 : Memref sig .tc .vmem S8000x4 .f32) (h2 : a2.IsWhole) (a3 : Memref sig .tc .vmem S8000x4 .f32) (h3 : a3.IsWhole)
    (a4 : Memref sig .tc .vmem S1x4 .f32) (h4 : a4.IsWhole) (hc : cond1_0 i)
    (x0 x1 : Vec F S8000x4 .f32) :
    out1_A_3 c i a1 h1 a2 h2 a3 h3 a4 h4 hc x0 x1 = k1_pay3 x0 x1 k1_pay1 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x4) zeros2, View.readCov_unit_zero (S := S1x4) _ zeros2]
  simp only [View.readAt_eq_ld, h1.read_unread, h2.read_unread, View.ld_unit_zero (S := S8000x4) zeros2]

/-! ## The stored values at an index, over the extended reals -/

/-- The word of minus infinity denotes the least extended real. -/
theorem negInf_word : Ideal.ofBits .f32 0xFF800000#32 = (⊥ : EReal) := by simp [Ideal.ofBits, Ideal.ieee]

/-- The reset row is minus infinity at every entry. -/
theorem reset_apply (i : S1x4.Idx) : k1_pay1 (F := Ideal) i = (⊥ : EReal) := by
  unfold k1_pay1
  exact negInf_word

/-- The stored logit at an index: the rectifier of the sum of the two blocks' entries there (the casts to the same
    shape are the identity; sum, comparison, product and selection are pointwise). -/
theorem logit_apply (x0 x1 : Vec Ideal S8000x4 .f32) (i : S8000x4.Idx) :
    k1_pay2 (F := Ideal) x0 x1 i = leaky (x0 i + x1 i) := by
  unfold k1_pay2
  simp only [shapeCast_self]
  rfl

set_option maxHeartbeats 400000 in
/-- The maximum over the rows of an 8000 x 4 block, taken from minus infinity, is at head hd the join over the 8000
    rows of the block's entries of that head: the fold of `max` from the least element over all rows is the join. -/
theorem rowMax_apply (P : FVec Ideal S8000x4 .f32) (h : S8000x4.Reduces [0] S4) (hφ : FKind.Formats .f32)
    (hacc : (0xFF800000#32 : BitVec 32) = FKind.maximumf.neutral .f32 hφ) (hd : Fin 4) :
    multiReduction .maximumf [0] S4 P 0xFF800000#32 h hφ hacc (ix1 hd)
      = Finset.univ.sup fun r : Fin 8000 => P (ix2 r hd) := by
  refine (Ideal.multiReduction_maximumf_single P _ h hφ hacc (ix1 hd)).trans ?_
  have e : (P ∘ h.lift (ix1 hd)) = fun r : Fin 8000 => P (ix2 r hd) := by
    funext r
    refine congrArg P ?_
    funext a
    match a with
    | ⟨0, _⟩ => rfl
    | ⟨1, _⟩ => rfl
  rw [e]
  show (Finset.univ : Finset (Fin 8000)).fold max (Ideal.ofBits .f32 0xFF800000#32) _ = _
  rw [negInf_word]
  rfl

set_option maxHeartbeats 400000 in
/-- The stored row at head hd: the larger of the carried entry and the join over the block's 8000 rows of the stored
    logits of that head (the 4-vector of row maxima re-read as a 1 x 4 row). -/
theorem row_apply (x0 x1 : Vec Ideal S8000x4 .f32) (acc : Vec Ideal S1x4 .f32) (u : Fin 1) (hd : Fin 4) :
    k1_pay3 (F := Ideal) x0 x1 acc (ix2 u hd)
      = max (acc (ix2 u hd)) (Finset.univ.sup fun r : Fin 8000 => k1_pay2 (F := Ideal) x0 x1 (ix2 r hd)) := by
  unfold k1_pay3
  simp only [shapeCast_self]
  refine (maximumf_apply _ _ _).trans ?_
  refine congrArg (max (acc (ix2 u hd))) ?_
  refine (shapeCast_a_1a_apply _ _ u hd).trans ?_
  exact rowMax_apply _ _ _ _ hd

/-! ## Rows, blocks, and a running maximum over the blocks -/

/-- Row `r` of block `t` is edge `8000 t + r`. -/
def row (t : Fin 125) (r : Fin 8000) : Fin 1000000 := ⟨t.val * 8000 + r.val, by have := t.isLt; have := r.isLt; omega⟩

/-- The block indices over the grid: the two inputs' and the first output's row blocks move with the point; the
    carried row's block is its whole array at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

section AtEntry
variable (V : (c : Dev nD) → (b : Ref sig .tc) → Buf (Elt Ideal) ((c : Thread nD τ).loc b))

set_option maxHeartbeats 400000 in
/-- Row r of point t's block of the source scores is row 8000 t + r of their array (a block's element sits at block
    index times block size plus its own coordinate). -/
theorem srcBlock_apply (c : Dev nD) (t : Fin cfg1.N) (t' : Fin 125) (ht : t'.val = t.val) (r : Fin 8000) (hd : Fin 4) :
    (iblk1 V c 0 t : Vec Ideal S8000x4 .f32) (ix2 r hd) = V c main_v13 (ix2 (row t' r) hd) := by
  obtain ⟨e0, e1, -⟩ := idx_facts t
  unfold iblk1
  rw [View.read_apply]
  show V c main_v13 _ = V c main_v13 _
  refine congrArg (V c main_v13) ?_
  funext a
  apply Fin.ext
  match a with
  | ⟨0, _⟩ => show win1_0.index t (0 : Fin 2) * 8000 + 1 * r.val = t'.val * 8000 + r.val; rw [e0, ht]; omega
  | ⟨1, _⟩ => show win1_0.index t (1 : Fin 2) * 4 + 1 * hd.val = hd.val; rw [e1]; omega

set_option maxHeartbeats 400000 in
/-- The same for the destination scores. -/
theorem dstBlock_apply (c : Dev nD) (t : Fin cfg1.N) (t' : Fin 125) (ht : t'.val = t.val) (r : Fin 8000) (hd : Fin 4) :
    (iblk1 V c 1 t : Vec Ideal S8000x4 .f32) (ix2 r hd) = V c main_v20 (ix2 (row t' r) hd) := by
  obtain ⟨-, -, e0, e1, -⟩ := idx_facts t
  unfold iblk1
  rw [View.read_apply]
  show V c main_v20 _ = V c main_v20 _
  refine congrArg (V c main_v20) ?_
  funext a
  apply Fin.ext
  match a with
  | ⟨0, _⟩ => show win1_1.index t (0 : Fin 2) * 8000 + 1 * r.val = t'.val * 8000 + r.val; rw [e0, ht]; omega
  | ⟨1, _⟩ => show win1_1.index t (1 : Fin 2) * 4 + 1 * hd.val = hd.val; rw [e1]; omega

/-- The logits of all edges, from the two score arrays as the region finds them. -/
abbrev E (c : Dev nD) : Fin 1000000 → Fin 4 → EReal :=
  logit (arr2 (V c main_v13)) (arr2 (V c main_v20))

/-- The two score arrays as the region finds them. -/
abbrev src (c : Dev nD) : S1000000x4.Idx → EReal := V c main_v13
abbrev dst (c : Dev nD) : S1000000x4.Idx → EReal := V c main_v20

/-- The first output array as one function of the score arrays: entry by entry, the rectifier of their sum. -/
abbrev logits (c : Dev nD) : S1000000x4.Idx → EReal := fun i => leaky (src V c i + dst V c i)

/-- The carried row as one function of the score arrays: at head hd the largest logit of that head. -/
abbrev tops (c : Dev nD) : S1x4.Idx → EReal := fun i => top (E V c) (i 1)

set_option maxHeartbeats 400000 in
/-- After every point the first output's buffer holds the logits of the point's two blocks. -/
theorem held_logits (c : Dev nD) (t : Fin cfg1.N) :
    (outsAt1 V c t.val t.isLt).1 = k1_pay2 (F := Ideal) (iblk1 V c 0 t) (iblk1 V c 1 t) := by
  by_cases h0 : t.val % 125 = 0
  · rw [outsAt1_A V c t h0]
    dsimp only
    exact first_logits (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t)
  · rw [outsAt1_B V c t h0]
    dsimp only
    exact later_logits (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).2

set_option maxHeartbeats 400000 in
/-- After the first point the carried row is the stored row over the reset row. -/
theorem held_row_first (c : Dev nD) (t : Fin cfg1.N) (h0 : t.val % 125 = 0) :
    (outsAt1 V c t.val t.isLt).2 = k1_pay3 (F := Ideal) (iblk1 V c 0 t) (iblk1 V c 1 t) (k1_pay1 (F := Ideal)) := by
  rw [outsAt1_A V c t h0]
  dsimp only
  exact first_row (F := Ideal) c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t)

set_option maxHeartbeats 400000 in
/-- After a later point the carried row is the stored row over what the point before left. -/
theorem held_row_later (c : Dev nD) (t : Fin cfg1.N) (h0 : ¬t.val % 125 = 0) :
    (outsAt1 V c t.val t.isLt).2 = k1_pay3 (F := Ideal) (iblk1 V c 0 t) (iblk1 V c 1 t)
      (outsAt1 V c (t.val - 1) (Nat.lt_of_le_of_lt (Nat.sub_le _ _) t.isLt)).2 := by
  rw [outsAt1_B V c t h0]
  dsimp only
  exact later_row (F := Ideal) c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t)
    (outsAt1 V c (t.val - 1) (Nat.lt_of_le_of_lt (Nat.sub_le _ _) t.isLt)).2

set_option maxHeartbeats 400000 in
/-- The largest stored logit of head hd at point t is the largest logit of that head among the edges of block t. -/
theorem blockTop (c : Dev nD) (t : Fin cfg1.N) (t' : Fin 125) (ht : t'.val = t.val) (hd : Fin 4) :
    (Finset.univ.sup fun r : Fin 8000 => k1_pay2 (F := Ideal) (iblk1 V c 0 t) (iblk1 V c 1 t) (ix2 r hd))
      = Finset.univ.sup fun r : Fin 8000 => E V c (row t' r) hd := by
  refine congrArg (Finset.sup Finset.univ) (funext fun r => ?_)
  refine (logit_apply (iblk1 V c 0 t) (iblk1 V c 1 t) (ix2 r hd)).trans ?_
  rw [srcBlock_apply V c t t' ht r hd, dstBlock_apply V c t t' ht r hd]
  rfl

set_option maxHeartbeats 400000 in
/-- After point 0 the carried entry of head hd is minus infinity joined with block 0's largest logit. -/
theorem carried_zero (c : Dev nD) (hd : Fin 4) (h : 0 < cfg1.N) (h' : 0 < 125) :
    (outsAt1 V c 0 h).2 (ix2 (0 : Fin 1) hd)
      = max ⊥ (Finset.univ.sup fun r : Fin 8000 => E V c (row ⟨0, h'⟩ r) hd) := by
  have e : (outsAt1 V c 0 h).2 = k1_pay3 (F := Ideal) (iblk1 V c 0 ⟨0, h⟩) (iblk1 V c 1 ⟨0, h⟩) (k1_pay1 (F := Ideal)) :=
    held_row_first V c ⟨0, h⟩ (Nat.zero_mod _)
  refine (congrFun e (ix2 (0 : Fin 1) hd)).trans ?_
  refine (row_apply (iblk1 V c 0 ⟨0, h⟩) (iblk1 V c 1 ⟨0, h⟩) (k1_pay1 (F := Ideal)) 0 hd).trans ?_
  rw [reset_apply, blockTop V c ⟨0, h⟩ ⟨0, h'⟩ rfl hd]

set_option maxHeartbeats 400000 in
/-- After point n + 1 the carried entry of head hd is what point n left joined with block n + 1's largest logit. -/
theorem carried_succ (c : Dev nD) (hd : Fin 4) (n : ℕ) (h : n + 1 < cfg1.N) (h' : n + 1 < 125) :
    (outsAt1 V c (n + 1) h).2 (ix2 (0 : Fin 1) hd)
      = max ((outsAt1 V c n (Nat.lt_of_succ_lt h)).2 (ix2 (0 : Fin 1) hd))
          (Finset.univ.sup fun r : Fin 8000 => E V c (row ⟨n + 1, h'⟩ r) hd) := by
  have hB : ¬(⟨n + 1, h⟩ : Fin cfg1.N).val % 125 = 0 := by dsimp only; omega
  have e : (outsAt1 V c (n + 1) h).2 = k1_pay3 (F := Ideal) (iblk1 V c 0 ⟨n + 1, h⟩) (iblk1 V c 1 ⟨n + 1, h⟩)
      (outsAt1 V c n (Nat.lt_of_succ_lt h)).2 := held_row_later V c ⟨n + 1, h⟩ hB
  refine (congrFun e (ix2 (0 : Fin 1) hd)).trans ?_
  refine (row_apply (iblk1 V c 0 ⟨n + 1, h⟩) (iblk1 V c 1 ⟨n + 1, h⟩) (outsAt1 V c n (Nat.lt_of_succ_lt h)).2 0 hd).trans ?_
  rw [blockTop V c ⟨n + 1, h⟩ ⟨n + 1, h'⟩ rfl hd]

set_option maxHeartbeats 400000 in
/-- THE RUNNING MAXIMUM: after point n the carried entry of head hd is the largest logit of that head among the edges
    of the first n + 1 blocks (the edges below 8000 (n + 1); an index below 125 * 8000 is an edge, the two numbers
    being the same).  By induction on the point: one more point joins in exactly one more block. -/
theorem carried_eq (c : Dev nD) (hd : Fin 4) : ∀ (n : ℕ) (h : n < cfg1.N) (h' : n < 125),
    (outsAt1 V c n h).2 (ix2 (0 : Fin 1) hd)
      = (LibBlock.pre 125 8000 (n + 1)).sup (fun e : Fin (125 * 8000) => E V c e hd)
  | 0, h, h' => by
    rw [carried_zero V c hd h h',
      LibBlock.sup_pre_succ (a := 125) (b := 8000) (fun e : Fin (125 * 8000) => E V c e hd) ⟨0, h'⟩, LibBlock.sup_pre_zero]
    rfl
  | n + 1, h, h' => by
    rw [carried_succ V c hd n h h', carried_eq c hd n (Nat.lt_of_succ_lt h) (Nat.lt_of_succ_lt h'),
      LibBlock.sup_pre_succ (a := 125) (b := 8000) (fun e : Fin (125 * 8000) => E V c e hd) ⟨n + 1, h'⟩]
    rfl

set_option maxHeartbeats 400000 in
/-- After the last point the carried entry of head hd is the largest logit of that head over all edges. -/
theorem carried_last (c : Dev nD) (hd : Fin 4) (t : Fin cfg1.N) (ht : t.val = 124) :
    (outsAt1 V c t.val t.isLt).2 (ix2 (0 : Fin 1) hd) = top (E V c) hd := by
  rw [carried_eq V c hd t.val t.isLt (by omega), ht]
  exact LibBlock.sup_pre_full (a := 125) (b := 8000) (fun e : Fin (125 * 8000) => E V c e hd)

set_option maxHeartbeats 400000 in
/-- So after the last point the carried row is the row of largest logits. -/
theorem row_last (c : Dev nD) (t : Fin cfg1.N) (h3 : t.val = 124) :
    (outsAt1 V c t.val t.isLt).2 = tops V c := by
  funext y
  obtain ⟨u, hd, rfl⟩ : ∃ (u : Fin 1) (hd : Fin 4), y = ix2 u hd := ⟨y 0, y 1, eq_ix2 y⟩
  obtain rfl : u = 0 := Subsingleton.elim _ _
  exact carried_last V c hd t h3

/-! ## The carried row's array: one write-back, after the last point -/

/-- An index of the 1 x 4 array lies in a point's block iff each coordinate is in the block's range on its axis. -/
theorem mem_rowBlk (t : Fin cfg1.N) (i : S1x4.Idx) :
    i ∈ ((cfg1.win 3).blk t).view.set ↔ ∀ a : Fin 2, win1_3.index t a * S1x4.size a ≤ (i a).val
      ∧ (i a).val < win1_3.index t a * S1x4.size a + S1x4.size a := by
  show i ∈ ((View.whole main_v28_1).slice (win1_3.rect t)).set ↔ _
  rw [View.set_slice_whole, Rect.mem_set_unit]
  exact Iff.rfl

set_option maxHeartbeats 400000 in
/-- The one write-back, after point 124, writes the row of largest logits: the block at zero offsets is the array. -/
theorem rowFlushed_eq (c : Dev nD) (t : Fin cfg1.N) (hf : (cfg1.win 3).flush t = true) :
    (dat1 V c).flushed 3 t = ((cfg1.win 3).blk t).view.read (Elt Ideal) (tops V c) := by
  have hN : cfg1.N = 125 := N_1
  have h3 : t.val = 124 := by have := (flush1_3 t).mp hf; have := t.isLt; omega
  obtain ⟨-, -, -, -, -, -, e0, e1⟩ := idx_facts t
  show (cfg1.win 3).cut (grid1.coords t) ((dat1 V c).after 3 t) = _
  rw [after1_3, row_last V c t h3]
  have hz' : (fun a => win1_3.index t a * main_v28_1.ty.shape.size a) = fun _ => 0 := funext fun a => by
    match a with
    | ⟨0, _⟩ => show win1_3.index t (0 : Fin 2) * 1 = 0; rw [e0]
    | ⟨1, _⟩ => show win1_3.index t (1 : Fin 2) * 4 = 0; rw [e1]
  exact (Memref.read_access_unit_zero (Elt Ideal) main_v28_1 hz' (fun a => by rw [congrFun hz' a]; simp) (tops V c)).symm

set_option maxHeartbeats 400000 in
/-- The last point's block covers the 1 x 4 array. -/
theorem rowCover (i : S1x4.Idx) :
    ∃ t : Fin cfg1.N, (cfg1.win 3).flush t = true ∧ i ∈ ((cfg1.win 3).blk t).view.set := by
  have hN : cfg1.N = 125 := N_1
  obtain ⟨t, ht⟩ : ∃ t : Fin cfg1.N, t.val = 124 := ⟨⟨124, by rw [hN]; decide⟩, rfl⟩
  refine ⟨t, (flush1_3 t).mpr (by rw [ht]), ?_⟩
  rw [mem_rowBlk]
  obtain ⟨-, -, -, -, -, -, e0, e1⟩ := idx_facts t
  have h0 : (i 0).val < 1 := (i 0).isLt
  have h1 : (i 1).val < 4 := (i 1).isLt
  intro a
  match a with
  | ⟨0, _⟩ => show win1_3.index t (0 : Fin 2) * 1 ≤ (i 0).val ∧ (i 0).val < win1_3.index t (0 : Fin 2) * 1 + 1; rw [e0]; omega
  | ⟨1, _⟩ => show win1_3.index t (1 : Fin 2) * 4 ≤ (i 1).val ∧ (i 1).val < win1_3.index t (1 : Fin 2) * 4 + 4; rw [e1]; omega

set_option maxHeartbeats 400000 in
/-- The carried row's array after the region: the row of largest logits. -/
theorem final_tops (c : Dev nD) : (dat1 V c).arrAt 3 cfg1.N = tops V c :=
  (dat1 V c).arrAt_eq_of_cover 3 (tops V c) (fun t hf => rowFlushed_eq V c t hf) rowCover

/-! ## The logits' array: every point writes its block back, and the blocks tile the rows -/

/-- An index of the 1000000 x 4 array lies in point t's block iff each coordinate is in the block's range on its axis. -/
theorem mem_logitBlk (t : Fin cfg1.N) (i : S1000000x4.Idx) :
    i ∈ ((cfg1.win 2).blk t).view.set ↔ ∀ a : Fin 2, win1_2.index t a * S8000x4.size a ≤ (i a).val
      ∧ (i a).val < win1_2.index t a * S8000x4.size a + S8000x4.size a := by
  show i ∈ ((View.whole main_v28_0).slice (win1_2.rect t)).set ↔ _
  rw [View.set_slice_whole, Rect.mem_set_unit]
  exact Iff.rfl

set_option maxHeartbeats 400000 in
/-- What point t writes back is its block of the one whole-array function: the stored logit is pointwise in the two
    loaded blocks, and the three windows' blocks at point t sit at the same rows of their arrays. -/
theorem logitFlushed_eq (c : Dev nD) (t : Fin cfg1.N) :
    (dat1 V c).flushed 2 t = ((cfg1.win 2).blk t).view.read (Elt Ideal) (logits V c) := by
  show (cfg1.win 2).cut (grid1.coords t) ((dat1 V c).after 2 t) = _
  rw [after1_2, held_logits V c t]
  obtain ⟨e0, e1, e2, e3, e4, e5, -⟩ := idx_facts t
  funext j
  show k1_pay2 (F := Ideal) (iblk1 V c 0 t) (iblk1 V c 1 t) j = logits V c (((cfg1.win 2).blk t).view.emb j)
  refine (logit_apply (iblk1 V c 0 t) (iblk1 V c 1 t) j).trans ?_
  show leaky (src V c (((cfg1.win 0).blk t).view.emb j) + dst V c (((cfg1.win 1).blk t).view.emb j))
    = leaky (src V c (((cfg1.win 2).blk t).view.emb j) + dst V c (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; rw [e0, e4]
    | ⟨1, _⟩ => show win1_0.index t (1 : Fin 2) * 4 + 1 * (j 1).val = win1_2.index t (1 : Fin 2) * 4 + 1 * (j 1).val; rw [e1, e5]
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; rw [e2, e4]
    | ⟨1, _⟩ => show win1_1.index t (1 : Fin 2) * 4 + 1 * (j 1).val = win1_2.index t (1 : Fin 2) * 4 + 1 * (j 1).val; rw [e3, e5]
  rw [h0, h1]

set_option maxHeartbeats 400000 in
/-- Row e is written by point e / 8000: the 125 row blocks tile the array. -/
theorem logitCover (i : S1000000x4.Idx) :
    ∃ t : Fin cfg1.N, (cfg1.win 2).flush t = true ∧ i ∈ ((cfg1.win 2).blk t).view.set := by
  have hN : cfg1.N = 125 := N_1
  have hi0 : (i 0).val < 1000000 := (i 0).isLt
  have hi1 : (i 1).val < 4 := (i 1).isLt
  obtain ⟨t, ht⟩ : ∃ t : Fin cfg1.N, t.val = (i 0).val / 8000 := ⟨⟨(i 0).val / 8000, by rw [hN]; omega⟩, rfl⟩
  refine ⟨t, flush1_2 t, ?_⟩
  rw [mem_logitBlk]
  obtain ⟨-, -, -, -, e0, e1, -⟩ := idx_facts t
  intro a
  match a with
  | ⟨0, _⟩ => show win1_2.index t (0 : Fin 2) * 8000 ≤ (i 0).val ∧ (i 0).val < win1_2.index t (0 : Fin 2) * 8000 + 8000; rw [e0, ht]; omega
  | ⟨1, _⟩ => show win1_2.index t (1 : Fin 2) * 4 ≤ (i 1).val ∧ (i 1).val < win1_2.index t (1 : Fin 2) * 4 + 4; rw [e1]; omega

set_option maxHeartbeats 400000 in
/-- The logits' array after the region, whole. -/
theorem final_logits (c : Dev nD) : (dat1 V c).arrAt 2 cfg1.N = logits V c :=
  (dat1 V c).arrAt_eq_of_cover 2 (logits V c) (fun t _ => logitFlushed_eq V c t) logitCover

/-! ## The two results, entry by entry -/

/-- After the region the first output holds, at edge e and head hd, the edge's logit. -/
theorem logits_eq (c : Dev nD) (e : Fin 1000000) (hd : Fin 4) :
    (dat1 V c).arrAt 2 cfg1.N (ix2 e hd) = logit (arr2 (V c main_v13)) (arr2 (V c main_v20)) e hd := by
  rw [final_logits]
  rfl

/-- After the region the second output holds, at head hd, the largest logit of that head over all edges. -/
theorem top_eq (c : Dev nD) (hd : Fin 4) :
    (dat1 V c).arrAt 3 cfg1.N (ix2 (0 : Fin 1) hd)
      = top (logit (arr2 (V c main_v13)) (arr2 (V c main_v20))) hd := by
  rw [final_tops]

end AtEntry

end Cert.Gat.K1

end
-- ==== Proof.Region2.lean ====
/-
  The third region of the kernel program: softmax numerators, their per-head sums, and the unnormalised messages.

  The region runs over 125 points; point t handles the 8000 consecutive edges 8000 t … 8000 t + 7999. From its block of
  the logits (8000 x 4), the heads' largest logits (1 x 4, the same at every point), its block of the sources' projected
  rows (8000 x 64) and the 0/1 table from heads to flat features (4 x 64, the same at every point), a point computes
  p = exp (logit - largest), writes (p times the table) * (source row) into its block of the wide result
  (1000000 x 64), and adds the column sums of p into a four-word block that is carried from point to point: the first
  point starts it from zero words, every later point adds to what the point before left, and only the last point
  writes it back.

  Hence the wide result is, edge by edge and feature by feature, `Cert.Gat.msgK` of the numerators, the table and the
  source rows; and the four-word result is, head by head, `Cert.Gat.zsum` of the numerators: after point n the carried
  block holds the zero word plus the sum of the numerators over the edges of blocks 0 … n (induction on n, one step
  adding one block of 8000 consecutive edges), the zero word is the extended real 0, and the 125 blocks are all the
  million edges. Addition of extended reals is a commutative monoid, so no finiteness is used.

  Everything is stated at the contents `V` that the region finds on entry.
-/
import proofs.«116205_j188978561163_2_alg».proof.Proof.Gen.KernelIdeal.Frame
import proofs.«116205_j188978561163_2_alg».proof.Proof.Spec
import proofs.«116205_j188978561163_2_alg».proof.Proof.LibBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen

/-! ## What each control case leaves in the two output blocks

The body, in either case, stores into the wide output block the message payload of the four loaded blocks, and into
the four-word output block the old contents plus the column sums of the exponentials. In the case of the first point
the four-word block was first overwritten with zeros, so "the old contents" there are the zero words. -/

section Pieces
variable {F : FTy → Type} [FloatOps F]

theorem hz : (![0, 0] : Fin 2 → Nat) = fun _ => 0 := funext fun a => by fin_cases a <;> rfl

set_option maxHeartbeats 400000 in
/-- A later point leaves, in the wide output block, the message payload of the loaded blocks. -/
theorem out_B_4 (c : Dev nD) (i : grid2.Coords) (a1 : Memref sig .tc .vmem S8000x4 .f32) (h1 : a1.IsWhole)
    (a2 : Memref sig .tc .vmem S1x4 .f32) (h2 : a2.IsWhole) (a3 : Memref sig .tc .vmem S8000x64 .bf16) (h3 : a3.IsWhole)
    (a4 : Memref sig .tc .vmem S4x64 .f32) (h4 : a4.IsWhole) (a5 : Memref sig .tc .vmem S8000x64 .f32) (h5 : a5.IsWhole)
    (a6 : Memref sig .tc .vmem S1x4 .f32) (h6 : a6.IsWhole) (hc : ¬cond2_0 i)
    (x0 : Vec F S8000x4 .f32) (x1 : Vec F S1x4 .f32) (x2 : Vec F S8000x64 .bf16) (x3 : Vec F S4x64 .f32) (xo5 : Vec F S1x4 .f32) :
    out2_B_4 c i a1 h1 a2 h2 a3 h3 a4 h4 a5 h5 a6 h6 hc x0 x1 x2 x3 xo5 = k2_pay4 x0 x1 x3 x2 := by
  unfold out2_B_4
  rw [View.read_writes_eq_canon _ _ _ (cover2_B_4 c i a1 h1 a2 h2 a3 h3 a4 h4 a5 h5 a6 h6 hc x0 x1 x2 x3 xo5)]
  unfold kernelRun2_B
  dsimp only
  sl_unfold_words
  rw [View.canon_unit_zero hz]
  simp only [View.readAt_eq_ld, h1.read_unread, h2.read_unread, h3.read_unread, h4.read_unread,
    View.ld_unit_zero (S := S8000x4) hz, View.ld_unit_zero (S := S1x4) hz, View.ld_unit_zero (S := S8000x64) hz,
    View.ld_unit_zero (S := S4x64) hz]

set_option maxHeartbeats 400000 in
/-- A later point leaves, in the four-word output block, what the block held plus this point's column sums. -/
theorem out_B_5 (c : Dev nD) (i : grid2.Coords) (a1 : Memref sig .tc .vmem S8000x4 .f32) (h1 : a1.IsWhole)
    (a2 : Memref sig .tc .vmem S1x4 .f32) (h2 : a2.IsWhole) (a3 : Memref sig .tc .vmem S8000x64 .bf16) (h3 : a3.IsWhole)
    (a4 : Memref sig .tc .vmem S4x64 .f32) (h4 : a4.IsWhole) (a5 : Memref sig .tc .vmem S8000x64 .f32) (h5 : a5.IsWhole)
    (a6 : Memref sig .tc .vmem S1x4 .f32) (h6 : a6.IsWhole) (hc : ¬cond2_0 i)
    (x0 : Vec F S8000x4 .f32) (x1 : Vec F S1x4 .f32) (x2 : Vec F S8000x64 .bf16) (x3 : Vec F S4x64 .f32) (xo5 : Vec F S1x4 .f32) :
    out2_B_5 c i a1 h1 a2 h2 a3 h3 a4 h4 a5 h5 a6 h6 hc x0 x1 x2 x3 xo5 = k2_pay3 x0 x1 xo5 := by
  unfold out2_B_5
  rw [View.read_writes_eq_canon _ _ _ (cover2_B_5 c i a1 h1 a2 h2 a3 h3 a4 h4 a5 h5 a6 h6 hc x0 x1 x2 x3 xo5)]
  unfold kernelRun2_B
  dsimp only
  sl_unfold_words
  rw [View.canon_unit_zero hz]
  simp only [View.readAt_eq_ld, h1.read_unread, h2.read_unread, h6.read_unread,
    View.ld_unit_zero (S := S8000x4) hz, View.ld_unit_zero (S := S1x4) hz]

set_option maxHeartbeats 400000 in
/-- The first point leaves, in the wide output block, the message payload of the loaded blocks. -/
theorem out_A_4 (c : Dev nD) (i : grid2.Coords) (a1 : Memref sig .tc .vmem S8000x4 .f32) (h1 : a1.IsWhole)
    (a2 : Memref sig .tc .vmem S1x4 .f32) (h2 : a2.IsWhole) (a3 : Memref sig .tc .vmem S8000x64 .bf16) (h3 : a3.IsWhole)
    (a4 : Memref sig .tc .vmem S4x64 .f32) (h4 : a4.IsWhole) (a5 : Memref sig .tc .vmem S8000x64 .f32) (h5 : a5.IsWhole)
    (a6 : Memref sig .tc .vmem S1x4 .f32) (h6 : a6.IsWhole) (hc : cond2_0 i)
    (x0 : Vec F S8000x4 .f32) (x1 : Vec F S1x4 .f32) (x2 : Vec F S8000x64 .bf16) (x3 : Vec F S4x64 .f32) :
    out2_A_4 c i a1 h1 a2 h2 a3 h3 a4 h4 a5 h5 a6 h6 hc x0 x1 x2 x3 = k2_pay4 x0 x1 x3 x2 := by
  unfold out2_A_4
  rw [View.read_writes_eq_canon _ _ _ (cover2_A_4 c i a1 h1 a2 h2 a3 h3 a4 h4 a5 h5 a6 h6 hc x0 x1 x2 x3)]
  unfold kernelRun2_A
  dsimp only
  sl_unfold_words
  rw [View.canon_unit_zero hz]
  simp only [View.readAt_eq_ld, h1.read_unread, h2.read_unread, h3.read_unread, h4.read_unread,
    View.ld_unit_zero (S := S8000x4) hz, View.ld_unit_zero (S := S1x4) hz, View.ld_unit_zero (S := S8000x64) hz,
    View.ld_unit_zero (S := S4x64) hz]

set_option maxHeartbeats 400000 in
/-- The first point leaves, in the four-word output block, the zero words plus this point's column sums. -/
theorem out_A_5 (c : Dev nD) (i : grid2.Coords) (a1 : Memref sig .tc .vmem S8000x4 .f32) (h1 : a1.IsWhole)
    (a2 : Memref sig .tc .vmem S1x4 .f32) (h2 : a2.IsWhole) (a3 : Memref sig .tc .vmem S8000x64 .bf16) (h3 : a3.IsWhole)
    (a4 : Memref sig .tc .vmem S4x64 .f32) (h4 : a4.IsWhole) (a5 : Memref sig .tc .vmem S8000x64 .f32) (h5 : a5.IsWhole)
    (a6 : Memref sig .tc .vmem S1x4 .f32) (h6 : a6.IsWhole) (hc : cond2_0 i)
    (x0 : Vec F S8000x4 .f32) (x1 : Vec F S1x4 .f32) (x2 : Vec F S8000x64 .bf16) (x3 : Vec F S4x64 .f32) :
    out2_A_5 c i a1 h1 a2 h2 a3 h3 a4 h4 a5 h5 a6 h6 hc x0 x1 x2 x3 = k2_pay3 x0 x1 (k2_pay1 (F := F)) := by
  unfold out2_A_5
  rw [View.read_writes_eq_canon _ _ _ (cover2_A_5 c i a1 h1 a2 h2 a3 h3 a4 h4 a5 h5 a6 h6 hc x0 x1 x2 x3)]
  unfold kernelRun2_A
  dsimp only
  sl_unfold_words
  rw [View.canon_cons_unit_zero (S := S1x4) hz, View.readCov_unit_zero (S := S1x4) _ hz]
  simp only [View.readAt_eq_ld, h1.read_unread, h2.read_unread,
    View.ld_unit_zero (S := S8000x4) hz, View.ld_unit_zero (S := S1x4) hz]

end Pieces

/-! ## The payloads read at one element, over the extended reals -/

section Payloads

/-- The exponentials: row `r`, head `hd` of the block is `exp` of the logit less the head's largest logit. -/
theorem pay2_apply (x0 : Vec Ideal S8000x4 .f32) (x1 : Vec Ideal S1x4 .f32) (r : Fin 8000) (hd : Fin 4) :
    k2_pay2 (F := Ideal) x0 x1 (ix2 r hd) = Ideal.exp (x0 (ix2 r hd) - x1 (ix2 (0 : Fin 1) hd)) := by
  unfold k2_pay2
  show Ideal.exp (shapeCast S8000x4 x0 shapeCasts_S8000x4_S8000x4 (ix2 r hd)
    - broadcastTo S8000x4 (shapeCast S1x4 x1 shapeCasts_S1x4_S1x4) broadcasts_S1x4_S8000x4 (ix2 r hd)) = _
  rw [shapeCast_self, shapeCast_self, broadcastTo_1b_ab_apply]

/-- A sum over the rows of an 8000 x 4 block, started from the zero word, is at head `hd` the sum of column `hd`. -/
theorem colsum_apply (src : FVec Ideal S8000x4 .f32) (h : S8000x4.Reduces [0] S4) (hφ : FKind.Formats .f32)
    (hacc : (0x00000000#32 : BitVec 32) = 0x00000000#32) (hd : Fin 4) :
    multiReduction .add [0] S4 src 0x00000000#32 h hφ hacc (ix1 hd) = ∑ r : Fin 8000, src (ix2 r hd) := by
  refine (Ideal.multiReduction_add_single src 0x00000000#32 h hφ hacc (ix1 hd)).trans ?_
  refine Finset.sum_congr rfl fun r _ => congrArg src ?_
  funext a
  match a with
  | ⟨0, _⟩ => rfl
  | ⟨1, _⟩ => rfl

/-- The running sums' step: the old word plus the column sum of this block's exponentials. -/
theorem pay3_apply (x0 : Vec Ideal S8000x4 .f32) (x1 : Vec Ideal S1x4 .f32) (acc : Vec Ideal S1x4 .f32) (hd : Fin 4) :
    k2_pay3 (F := Ideal) x0 x1 acc (ix2 (0 : Fin 1) hd)
      = acc (ix2 (0 : Fin 1) hd) + ∑ r : Fin 8000, Ideal.exp (x0 (ix2 r hd) - x1 (ix2 (0 : Fin 1) hd)) := by
  unfold k2_pay3
  show shapeCast S1x4 acc shapeCasts_S1x4_S1x4 (ix2 (0 : Fin 1) hd)
    + shapeCast S1x4 (multiReduction .add [0] S4 (k2_pay2 (F := Ideal) x0 x1) 0x00000000#32 reduces_S8000x4_S4 (.inl rfl) rfl)
        shapeCasts_S4_S1x4 (ix2 (0 : Fin 1) hd) = _
  rw [shapeCast_self]
  refine congrArg (acc (ix2 (0 : Fin 1) hd) + ·) ?_
  refine (shapeCast_a_1a_apply _ shapeCasts_S4_S1x4 (0 : Fin 1) hd).trans ?_
  refine (colsum_apply _ reduces_S8000x4_S4 (.inl rfl) rfl hd).trans ?_
  exact Finset.sum_congr rfl fun r _ => pay2_apply x0 x1 r hd

/-- The reset stores the zero word everywhere. -/
theorem pay1_apply (i : S1x4.Idx) : k2_pay1 (F := Ideal) i = Ideal.ofBits .f32 0x00000000#32 := rfl

end Payloads

/-! ## The 8000 x 4 by 4 x 64 product into zeros, read at one element -/

section Product

theorem mm_lhs0 (i : S8000x64.Idx) (q : dot_S8000x4_S4x64_S8000x64_1_0_0_1_n_n.contr.Idx) :
    (dot_S8000x4_S4x64_S8000x64_1_0_0_1_n_n.lhsIdx i q 0).val = (i 0).val := by
  unfold DotDims.lhsIdx
  rw [dif_neg (show ¬(0 : Fin S8000x4.rank) ∈ dot_S8000x4_S4x64_S8000x64_1_0_0_1_n_n.lhsBatch by decide),
    dif_pos (show (0 : Fin S8000x4.rank) ∈ dot_S8000x4_S4x64_S8000x64_1_0_0_1_n_n.lhsNonContracting by decide)]
  rfl

theorem mm_rhs1 (i : S8000x64.Idx) (q : dot_S8000x4_S4x64_S8000x64_1_0_0_1_n_n.contr.Idx) :
    (dot_S8000x4_S4x64_S8000x64_1_0_0_1_n_n.rhsIdx i q 1).val = (i 1).val := by
  unfold DotDims.rhsIdx
  rw [dif_neg (show ¬(1 : Fin S4x64.rank) ∈ dot_S8000x4_S4x64_S8000x64_1_0_0_1_n_n.rhsBatch by decide),
    dif_pos (show (1 : Fin S4x64.rank) ∈ dot_S8000x4_S4x64_S8000x64_1_0_0_1_n_n.rhsNonContracting by decide)]
  rfl

/-- Row `r`, column `d` of the product is the sum over the four heads of left (r, hd) times right (hd, d). -/
theorem mm_apply (l : FVec Ideal S8000x4 .f32) (w : FVec Ideal S4x64 .f32) (r : Fin 8000) (d : Fin 64) :
    matmul dot_S8000x4_S4x64_S8000x64_1_0_0_1_n_n (some .fp32) l w (constant S8000x64 .f32 0x00000000#32) (ix2 r d)
      = ∑ hd : Fin 4, l (ix2 r hd) * w (ix2 hd d) := by
  simp only [matmul]
  rw [Ideal.matmul_constant_zero_apply,
    ← Equiv.sum_comp (contrEquiv1 dot_S8000x4_S4x64_S8000x64_1_0_0_1_n_n 4 rfl rfl).symm]
  refine Finset.sum_congr rfl fun k _ => ?_
  have hk := contrEquiv1_symm_val dot_S8000x4_S4x64_S8000x64_1_0_0_1_n_n 4 rfl rfl k
  have el : dot_S8000x4_S4x64_S8000x64_1_0_0_1_n_n.lhsIdx (ix2 r d)
      ((contrEquiv1 dot_S8000x4_S4x64_S8000x64_1_0_0_1_n_n 4 rfl rfl).symm k) = ix2 r k := funext fun a => Fin.ext (by
    match a with
    | ⟨0, _⟩ => exact mm_lhs0 _ _
    | ⟨1, _⟩ => exact (dot_S8000x4_S4x64_S8000x64_1_0_0_1_n_n.lhsIdx_val_of_single rfl _ _).trans hk)
  have er : dot_S8000x4_S4x64_S8000x64_1_0_0_1_n_n.rhsIdx (ix2 r d)
      ((contrEquiv1 dot_S8000x4_S4x64_S8000x64_1_0_0_1_n_n 4 rfl rfl).symm k) = ix2 k d := funext fun a => Fin.ext (by
    match a with
    | ⟨0, _⟩ => exact (dot_S8000x4_S4x64_S8000x64_1_0_0_1_n_n.rhsIdx_val_of_single rfl _ _).trans hk
    | ⟨1, _⟩ => exact mm_rhs1 _ _)
  rw [el, er]

/-- The message payload: the exponentials spread over the features by the table, times the source's row. -/
theorem pay4_apply (x0 : Vec Ideal S8000x4 .f32) (x1 : Vec Ideal S1x4 .f32) (x3 : Vec Ideal S4x64 .f32)
    (x2 : Vec Ideal S8000x64 .bf16) (r : Fin 8000) (d : Fin 64) :
    k2_pay4 (F := Ideal) x0 x1 x3 x2 (ix2 r d)
      = (∑ hd : Fin 4, Ideal.exp (x0 (ix2 r hd) - x1 (ix2 (0 : Fin 1) hd)) * x3 (ix2 hd d)) * x2 (ix2 r d) := by
  unfold k2_pay4
  show matmul dot_S8000x4_S4x64_S8000x64_1_0_0_1_n_n (some .fp32) (k2_pay2 (F := Ideal) x0 x1) x3
      (constant S8000x64 .f32 0x00000000#32) (ix2 r d)
    * shapeCast S8000x64 x2 shapeCasts_S8000x64_S8000x64 (ix2 r d) = _
  rw [shapeCast_self]
  refine congrArg (· * x2 (ix2 r d)) ?_
  refine (mm_apply _ x3 r d).trans ?_
  exact Finset.sum_congr rfl fun hd _ => congrArg (· * x3 (ix2 hd d)) (pay2_apply x0 x1 r hd)

end Product

/-! ## The blocks of the four input arrays, and the two cases over payloads -/

section Blocks
variable (V : (c : Dev nD) → (b : Ref sig .tc) → Buf (Elt Ideal) ((c : Thread nD τ).loc b))

/-- The grid has 125 points. -/
theorem pt_lt (t : Fin cfg2.N) : t.val < 125 := lt_of_lt_of_eq t.isLt N_2

/-- Where each window's block sits at point `t`: the three row-blocked windows at block row `t`, the three whole
    windows at block (0, 0) — decided over the grid. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- Row `q` of block `k` is edge `8000 k + q`. -/
def edge (k : Fin 125) (q : Fin 8000) : Fin 1000000 :=
  ⟨k.val * 8000 + q.val, by have := k.isLt; have := q.isLt; omega⟩

/-- Point `t` as a block number. -/
abbrev blkNo (t : Fin cfg2.N) : Fin 125 := ⟨t.val, pt_lt t⟩

/-- The logits' block at point `t`: rows `8000 t …` of the array. -/
theorem iblk0_apply (c : Dev nD) (t : Fin cfg2.N) (r : Fin 8000) (hd : Fin 4) :
    (iblk2 V c 0 t : Vec Ideal S8000x4 .f32) (ix2 r hd) = Cert.Gat.arr2 (V c main_v28_0) (edge (blkNo t) r) hd := by
  obtain ⟨e0, e1, -⟩ := idx_facts t
  unfold iblk2
  rw [View.read_apply]
  show V c main_v28_0 _ = V c main_v28_0 _
  refine congrArg (V c main_v28_0) (funext fun a => Fin.ext ?_)
  match a with
  | ⟨0, _⟩ => show win2_0.index t 0 * 8000 + 1 * r.val = t.val * 8000 + r.val; rw [e0]; omega
  | ⟨1, _⟩ => show win2_0.index t 1 * 4 + 1 * hd.val = hd.val; rw [e1]; omega

/-- The largest logits' block is the whole four-word array at every point. -/
theorem iblk1_apply (c : Dev nD) (t : Fin cfg2.N) (hd : Fin 4) :
    (iblk2 V c 1 t : Vec Ideal S1x4 .f32) (ix2 (0 : Fin 1) hd) = V c main_v28_1 (ix2 (0 : Fin 1) hd) := by
  obtain ⟨-, -, e0, e1, -⟩ := idx_facts t
  unfold iblk2
  rw [View.read_apply]
  show V c main_v28_1 _ = V c main_v28_1 _
  refine congrArg (V c main_v28_1) (funext fun a => Fin.ext ?_)
  match a with
  | ⟨0, _⟩ => show win2_1.index t 0 * 1 + 1 * 0 = 0; rw [e0]
  | ⟨1, _⟩ => show win2_1.index t 1 * 4 + 1 * hd.val = hd.val; rw [e1]; omega

/-- The sources' projected rows at point `t`: rows `8000 t …` of the array. -/
theorem iblk2_apply (c : Dev nD) (t : Fin cfg2.N) (r : Fin 8000) (d : Fin 64) :
    (iblk2 V c 2 t : Vec Ideal S8000x64 .bf16) (ix2 r d) = Cert.Gat.arr2 (V c main_v27) (edge (blkNo t) r) d := by
  obtain ⟨-, -, -, -, e0, e1, -⟩ := idx_facts t
  unfold iblk2
  rw [View.read_apply]
  show V c main_v27 _ = V c main_v27 _
  refine congrArg (V c main_v27) (funext fun a => Fin.ext ?_)
  match a with
  | ⟨0, _⟩ => show win2_2.index t 0 * 8000 + 1 * r.val = t.val * 8000 + r.val; rw [e0]; omega
  | ⟨1, _⟩ => show win2_2.index t 1 * 64 + 1 * d.val = d.val; rw [e1]; omega

/-- The table's block is the whole 4 x 64 array at every point. -/
theorem iblk3_apply (c : Dev nD) (t : Fin cfg2.N) (hd : Fin 4) (d : Fin 64) :
    (iblk2 V c 3 t : Vec Ideal S4x64 .f32) (ix2 hd d) = Cert.Gat.arr2 (V c main_cst_0) hd d := by
  obtain ⟨-, -, -, -, -, -, e0, e1, -⟩ := idx_facts t
  unfold iblk2
  rw [View.read_apply]
  show V c main_cst_0 _ = V c main_cst_0 _
  refine congrArg (V c main_cst_0) (funext fun a => Fin.ext ?_)
  match a with
  | ⟨0, _⟩ => show win2_3.index t 0 * 4 + 1 * hd.val = hd.val; rw [e0]; omega
  | ⟨1, _⟩ => show win2_3.index t 1 * 64 + 1 * d.val = d.val; rw [e1]; omega

/-- The two blocks the first point leaves, as payloads of the point's input blocks. -/
theorem outA4 (c : Dev nD) (t : Fin cfg2.N) (h0 : t.val % 125 = 0) :
    out2_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)
      = k2_pay4 (F := Ideal) (iblk2 V c 0 t) (iblk2 V c 1 t) (iblk2 V c 3 t) (iblk2 V c 2 t) :=
  out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)

theorem outA5 (c : Dev nD) (t : Fin cfg2.N) (h0 : t.val % 125 = 0) :
    out2_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)
      = k2_pay3 (F := Ideal) (iblk2 V c 0 t) (iblk2 V c 1 t) (k2_pay1 (F := Ideal)) :=
  out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)

/-- After the first point: the message payload, and the zero words plus the point's column sums. -/
theorem outs_A (c : Dev nD) (t : Fin cfg2.N) (h0 : t.val % 125 = 0) :
    outsAt2 V c t.val t.isLt
      = (k2_pay4 (F := Ideal) (iblk2 V c 0 t) (iblk2 V c 1 t) (iblk2 V c 3 t) (iblk2 V c 2 t),
         k2_pay3 (F := Ideal) (iblk2 V c 0 t) (iblk2 V c 1 t) (k2_pay1 (F := Ideal))) :=
  (outsAt2_A V c t h0).trans (congrArg₂ Prod.mk (outA4 V c t h0) (outA5 V c t h0))

/-- The two blocks a later point leaves over carried contents `xo`, as payloads of the point's input blocks. -/
theorem outB4 (c : Dev nD) (t : Fin cfg2.N) (h0 : ¬t.val % 125 = 0) (xo : Vec Ideal S1x4 .f32) :
    out2_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) xo
      = k2_pay4 (F := Ideal) (iblk2 V c 0 t) (iblk2 V c 1 t) (iblk2 V c 3 t) (iblk2 V c 2 t) :=
  out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) xo

theorem outB5 (c : Dev nD) (t : Fin cfg2.N) (h0 : ¬t.val % 125 = 0) (xo : Vec Ideal S1x4 .f32) :
    out2_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) xo
      = k2_pay3 (F := Ideal) (iblk2 V c 0 t) (iblk2 V c 1 t) xo :=
  out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) xo

/-- After a later point: the message payload, and what the point before left plus the point's column sums. -/
theorem outs_B (c : Dev nD) (t : Fin cfg2.N) (h0 : ¬t.val % 125 = 0) :
    outsAt2 V c t.val t.isLt
      = (k2_pay4 (F := Ideal) (iblk2 V c 0 t) (iblk2 V c 1 t) (iblk2 V c 3 t) (iblk2 V c 2 t),
         k2_pay3 (F := Ideal) (iblk2 V c 0 t) (iblk2 V c 1 t) (outsAt2 V c (t.val - 1) (Nat.lt_of_le_of_lt (Nat.sub_le _ _) t.isLt)).2) :=
  (outsAt2_B V c t h0).trans (congrArg₂ Prod.mk
    (outB4 V c t h0 (outsAt2 V c (t.val - 1) (Nat.lt_of_le_of_lt (Nat.sub_le _ _) t.isLt)).2)
    (outB5 V c t h0 (outsAt2 V c (t.val - 1) (Nat.lt_of_le_of_lt (Nat.sub_le _ _) t.isLt)).2))

/-- At every point the wide output block is the message payload of the point's input blocks. -/
theorem outs_fst (c : Dev nD) (t : Fin cfg2.N) :
    (outsAt2 V c t.val t.isLt).1
      = k2_pay4 (F := Ideal) (iblk2 V c 0 t) (iblk2 V c 1 t) (iblk2 V c 3 t) (iblk2 V c 2 t) := by
  by_cases h0 : t.val % 125 = 0
  · exact congrArg Prod.fst (outs_A V c t h0)
  · exact congrArg Prod.fst (outs_B V c t h0)

end Blocks

/-! ## The running sums are the sums over the edges of the blocks met so far -/

section Sums
variable (V : (c : Dev nD) → (b : Ref sig .tc) → Buf (Elt Ideal) ((c : Thread nD τ).loc b))

/-- The softmax numerators of the arrays the region finds: `exp` of a logit less its head's largest logit. -/
abbrev num (c : Dev nD) : Fin 1000000 → Fin 4 → EReal :=
  Cert.Gat.pexp (Cert.Gat.arr2 (V c main_v28_0)) (fun hd => V c main_v28_1 (ix2 (0 : Fin 1) hd))

/-- 125 blocks of 8000 rows are the million edges. -/
theorem blocks_edges : 125 * 8000 = 1000000 := by norm_num

/-- Position `q` of block `k`, counted among the million edges, is edge `8000 k + q`. -/
theorem cast_col (k : Fin 125) (q : Fin 8000) : Fin.cast blocks_edges (Cert.LibBlock.col k q) = edge k q := Fin.ext rfl

/-- The sum over the positions of all 125 blocks is the sum over all the edges. -/
theorem sum_all_blocks (f : Fin 1000000 → EReal) :
    ∑ j ∈ Cert.LibBlock.pre 125 8000 125, f (Fin.cast blocks_edges j) = ∑ e : Fin 1000000, f e := by
  rw [Cert.LibBlock.sum_pre_full]
  exact Equiv.sum_comp (finCongr blocks_edges) f

/-- One point's column sum of exponentials is the sum of the numerators over the block's edges. -/
theorem block_sum (c : Dev nD) (t : Fin cfg2.N) (hd : Fin 4) (x0 : Vec Ideal S8000x4 .f32) (x1 : Vec Ideal S1x4 .f32)
    (hx0 : x0 = iblk2 V c 0 t) (hx1 : x1 = iblk2 V c 1 t) :
    ∑ r : Fin 8000, Ideal.exp (x0 (ix2 r hd) - x1 (ix2 (0 : Fin 1) hd))
      = ∑ q : Fin 8000, num V c (Fin.cast blocks_edges (Cert.LibBlock.col (blkNo t) q)) hd := by
  subst hx0 hx1
  refine Finset.sum_congr rfl fun r _ => ?_
  rw [iblk0_apply V c t r hd, iblk1_apply V c t hd, cast_col]
  rfl

set_option maxHeartbeats 400000 in
/-- After point `n` the four-word block holds, at head `hd`, the zero word plus the sum of the numerators over the
    edges of blocks `0 … n`: the first point starts from the zero words, every later one adds its block's sum to what
    the point before left (addition of extended reals is associative). -/
theorem carried_eq (c : Dev nD) (hd : Fin 4) : ∀ (n : ℕ) (h : n < cfg2.N),
    (outsAt2 V c n h).2 (ix2 (0 : Fin 1) hd)
      = Ideal.ofBits .f32 0x00000000#32
        + ∑ j ∈ Cert.LibBlock.pre 125 8000 (n + 1), num V c (Fin.cast blocks_edges j) hd
  | 0, h => by
    have e := congrFun (congrArg Prod.snd (outs_A V c ⟨0, h⟩ rfl)) (ix2 (0 : Fin 1) hd)
    refine e.trans ?_
    refine (pay3_apply (iblk2 V c 0 ⟨0, h⟩) (iblk2 V c 1 ⟨0, h⟩) (k2_pay1 (F := Ideal)) hd).trans ?_
    refine congrArg (Ideal.ofBits .f32 0x00000000#32 + ·) ?_
    refine (block_sum V c ⟨0, h⟩ hd (iblk2 V c 0 ⟨0, h⟩) (iblk2 V c 1 ⟨0, h⟩) rfl rfl).trans ?_
    have s := Cert.LibBlock.sum_pre_succ (a := 125) (b := 8000)
      (fun j => num V c (Fin.cast blocks_edges j) hd) (blkNo ⟨0, h⟩)
    rw [show (blkNo (⟨0, h⟩ : Fin cfg2.N)).val = 0 from rfl, Cert.LibBlock.sum_pre_zero] at s
    exact (s.trans (zero_add _)).symm
  | n + 1, h => by
    have hn : n + 1 < 125 := lt_of_lt_of_eq h N_2
    have hB : ¬(⟨n + 1, h⟩ : Fin cfg2.N).val % 125 = 0 := by show ¬(n + 1) % 125 = 0; omega
    have e := congrFun (congrArg Prod.snd (outs_B V c ⟨n + 1, h⟩ hB)) (ix2 (0 : Fin 1) hd)
    refine e.trans ?_
    refine (pay3_apply (iblk2 V c 0 ⟨n + 1, h⟩) (iblk2 V c 1 ⟨n + 1, h⟩)
      (outsAt2 V c n (Nat.lt_of_succ_lt h)).2 hd).trans ?_
    rw [carried_eq c hd n (Nat.lt_of_succ_lt h), add_assoc]
    refine congrArg (Ideal.ofBits .f32 0x00000000#32 + ·) ?_
    rw [block_sum V c ⟨n + 1, h⟩ hd (iblk2 V c 0 ⟨n + 1, h⟩) (iblk2 V c 1 ⟨n + 1, h⟩) rfl rfl]
    exact (Cert.LibBlock.sum_pre_succ (a := 125) (b := 8000)
      (fun j => num V c (Fin.cast blocks_edges j) hd) (blkNo ⟨n + 1, h⟩)).symm

end Sums

/-! ## The wide result array: every edge's unnormalised message -/

section Wide
variable (V : (c : Dev nD) → (b : Ref sig .tc) → Buf (Elt Ideal) ((c : Thread nD τ).loc b))

/-- What the wide result array ends holding: at (edge, feature), the edge's numerators spread over the features by the
    table, times the source's projected row. -/
def wide (c : Dev nD) : S1000000x64.Idx → EReal := fun i =>
  Cert.Gat.msgK (num V c) (Cert.Gat.arr2 (V c main_cst_0)) (Cert.Gat.arr2 (V c main_v27))
    ⟨(i 0).val, idx2_lt0 i⟩ ⟨(i 1).val, idx2_lt1 i⟩

/-- The message payload of point `t`'s blocks at block index `j` is `wide` at the array index under it: row
    `8000 t + j₀`, feature `j₁`. -/
theorem wide_block (c : Dev nD) (t : Fin cfg2.N) (j : S8000x64.Idx) (i : S1000000x64.Idx)
    (h0 : (i 0).val = t.val * 8000 + (j 0).val) (h1 : (i 1).val = (j 1).val) :
    k2_pay4 (F := Ideal) (iblk2 V c 0 t) (iblk2 V c 1 t) (iblk2 V c 3 t) (iblk2 V c 2 t) j = wide V c i := by
  obtain ⟨r, d, rfl⟩ : ∃ (r : Fin 8000) (d : Fin 64), j = ix2 r d := ⟨j 0, j 1, eq_ix2 j⟩
  have hr : (⟨(i 0).val, idx2_lt0 i⟩ : Fin 1000000) = edge (blkNo t) r := Fin.ext h0
  have hd : (⟨(i 1).val, idx2_lt1 i⟩ : Fin 64) = d := Fin.ext h1
  refine (pay4_apply (iblk2 V c 0 t) (iblk2 V c 1 t) (iblk2 V c 3 t) (iblk2 V c 2 t) r d).trans ?_
  unfold wide Cert.Gat.msgK
  rw [hr, hd, iblk2_apply V c t r d]
  refine congrArg (· * Cert.Gat.arr2 (V c main_v27) (edge (blkNo t) r) d) ?_
  refine Finset.sum_congr rfl fun hd' _ => ?_
  rw [iblk0_apply V c t r hd', iblk1_apply V c t hd', iblk3_apply V c t hd' d]
  rfl

/-- What point `t` writes back is block `t` of `wide`. -/
theorem flushed4_eq (c : Dev nD) (t : Fin cfg2.N) (_hf : (cfg2.win 4).flush t = true) :
    (dat2 V c).flushed 4 t = ((cfg2.win 4).blk t).view.read (Elt Ideal) (wide V c) := by
  show (cfg2.win 4).cut (grid2.coords t) ((dat2 V c).after 4 t) = _
  rw [after2_4, outs_fst V c t]
  obtain ⟨-, -, -, -, -, -, -, -, e0, e1, -⟩ := idx_facts t
  funext j
  show k2_pay4 (F := Ideal) (iblk2 V c 0 t) (iblk2 V c 1 t) (iblk2 V c 3 t) (iblk2 V c 2 t) j
    = wide V c (((cfg2.win 4).blk t).view.emb j)
  refine wide_block V c t j _ ?_ ?_
  · show win2_4.index t 0 * 8000 + 1 * (j 0).val = t.val * 8000 + (j 0).val
    rw [e0]; omega
  · show win2_4.index t 1 * 64 + 1 * (j 1).val = (j 1).val
    rw [e1]; omega

/-- An index of the array is in point `t`'s block iff each coordinate is in the block's range on its axis. -/
theorem mem_blk4 (t : Fin cfg2.N) (i : S1000000x64.Idx) :
    i ∈ ((cfg2.win 4).blk t).view.set
      ↔ ∀ a : Fin 2, win2_4.index t a * S8000x64.size a ≤ (i a).val
          ∧ (i a).val < win2_4.index t a * S8000x64.size a + S8000x64.size a := by
  show i ∈ ((View.whole main_v29_0).slice (win2_4.rect t)).set ↔ _
  rw [View.set_slice_whole, Rect.mem_set_unit]
  exact Iff.rfl

/-- Row `e` lies in the block of point `e / 8000`, and every point writes its block back. -/
theorem cover4 (i : S1000000x64.Idx) :
    ∃ t : Fin cfg2.N, (cfg2.win 4).flush t = true ∧ i ∈ ((cfg2.win 4).blk t).view.set := by
  have h0 : (i 0).val < 1000000 := idx2_lt0 i
  have h1 : (i 1).val < 64 := idx2_lt1 i
  obtain ⟨t, ht⟩ : ∃ t : Fin cfg2.N, t.val = (i 0).val / 8000 :=
    ⟨⟨(i 0).val / 8000, lt_of_lt_of_eq (by omega : (i 0).val / 8000 < 125) N_2.symm⟩, rfl⟩
  obtain ⟨-, -, -, -, -, -, -, -, e0, e1, -⟩ := idx_facts t
  refine ⟨t, flush2_4 t, ?_⟩
  rw [mem_blk4]
  intro a
  match a with
  | ⟨0, _⟩ =>
    show win2_4.index t 0 * 8000 ≤ (i 0).val ∧ (i 0).val < win2_4.index t 0 * 8000 + 8000
    rw [e0, ht]; omega
  | ⟨1, _⟩ =>
    show win2_4.index t 1 * 64 ≤ (i 1).val ∧ (i 1).val < win2_4.index t 1 * 64 + 64
    rw [e1]; omega

/-- The wide result array after the region. -/
theorem wide_final (c : Dev nD) : (dat2 V c).arrAt 4 cfg2.N = wide V c :=
  (dat2 V c).arrAt_eq_of_cover 4 (wide V c) (flushed4_eq V c) cover4

/-- THE WIDE RESULT, at one element: edge `e`'s unnormalised message at feature `d`. -/
theorem msg_apply (c : Dev nD) (e : Fin 1000000) (d : Fin 64) :
    (dat2 V c).arrAt 4 cfg2.N (ix2 e d)
      = Cert.Gat.msgK (Cert.Gat.pexp (Cert.Gat.arr2 (V c main_v28_0)) (fun hd => V c main_v28_1 (ix2 (0 : Fin 1) hd)))
          (Cert.Gat.arr2 (V c main_cst_0)) (Cert.Gat.arr2 (V c main_v27)) e d :=
  congrFun (wide_final V c) (ix2 e d)

end Wide

/-! ## The four-word result array: the softmax denominators -/

section Narrow
variable (V : (c : Dev nD) → (b : Ref sig .tc) → Buf (Elt Ideal) ((c : Thread nD τ).loc b))

/-- What the four-word result array ends holding: per head, the sum of the numerators over all the edges. -/
def narrow (c : Dev nD) : S1x4.Idx → EReal := fun i => Cert.Gat.zsum (num V c) ⟨(i 1).val, idx2_lt1 i⟩

/-- After the last point the four-word block holds the sums over all 125 blocks, that is over all the edges; the zero
    word it started from is the extended real 0. -/
theorem narrow_block (c : Dev nD) (t : Fin cfg2.N) (h124 : t.val = 124) (j : S1x4.Idx) (i : S1x4.Idx)
    (h1 : (i 1).val = (j 1).val) : (outsAt2 V c t.val t.isLt).2 j = narrow V c i := by
  obtain ⟨u, hd, rfl⟩ : ∃ (u : Fin 1) (hd : Fin 4), j = ix2 u hd := ⟨j 0, j 1, eq_ix2 j⟩
  obtain rfl : u = 0 := Subsingleton.elim _ _
  have hh : (⟨(i 1).val, idx2_lt1 i⟩ : Fin 4) = hd := Fin.ext h1
  have e : t.val + 1 = 125 := by omega
  refine (carried_eq V c hd t.val t.isLt).trans ?_
  rw [e, sum_all_blocks (fun x => num V c x hd), Ideal.ofBits_zero_f32, zero_add]
  unfold narrow Cert.Gat.zsum
  rw [hh]

/-- Writing a four-word block back and reading the array's block are the same re-indexing: if a block `X` agrees
    with an array `G` at the array index under each block index, what is written back is the block of `G`. -/
theorem flush5_of (t : Fin cfg2.N) (X : Vec Ideal S1x4 .f32) (G : S1x4.Idx → EReal)
    (h : ∀ j : ((cfg2.win 5).xblock (grid2.coords t)).Idx, X j = G (((cfg2.win 5).blk t).view.emb j)) :
    (cfg2.win 5).cut (grid2.coords t) X = ((cfg2.win 5).blk t).view.read (Elt Ideal) G :=
  funext fun j => h j

/-- The one write-back, at the last point, writes `narrow`. -/
theorem flushed5_eq (c : Dev nD) (t : Fin cfg2.N) (hf : (cfg2.win 5).flush t = true) :
    (dat2 V c).flushed 5 t = ((cfg2.win 5).blk t).view.read (Elt Ideal) (narrow V c) := by
  have h124 : t.val = 124 := by have := (flush2_5 t).mp hf; have := pt_lt t; omega
  obtain ⟨-, -, -, -, -, -, -, -, -, -, e0, e1⟩ := idx_facts t
  show (cfg2.win 5).cut (grid2.coords t) ((dat2 V c).after 5 t) = _
  rw [after2_5]
  refine flush5_of t (outsAt2 V c t.val t.isLt).2 (narrow V c) fun j => ?_
  refine narrow_block V c t h124 j (((cfg2.win 5).blk t).view.emb j) ?_
  show win2_5.index t 1 * 4 + 1 * (j 1).val = (j 1).val
  rw [e1]; omega

theorem mem_blk5 (t : Fin cfg2.N) (i : S1x4.Idx) :
    i ∈ ((cfg2.win 5).blk t).view.set
      ↔ ∀ a : Fin 2, win2_5.index t a * S1x4.size a ≤ (i a).val
          ∧ (i a).val < win2_5.index t a * S1x4.size a + S1x4.size a := by
  show i ∈ ((View.whole main_v29_1).slice (win2_5.rect t)).set ↔ _
  rw [View.set_slice_whole, Rect.mem_set_unit]
  exact Iff.rfl

/-- The last point's block is the whole four-word array. -/
theorem cover5 (i : S1x4.Idx) :
    ∃ t : Fin cfg2.N, (cfg2.win 5).flush t = true ∧ i ∈ ((cfg2.win 5).blk t).view.set := by
  have h0 : (i 0).val < 1 := idx2_lt0 i
  have h1 : (i 1).val < 4 := idx2_lt1 i
  obtain ⟨t, ht⟩ : ∃ t : Fin cfg2.N, t.val = 124 :=
    ⟨⟨124, lt_of_lt_of_eq (by omega : 124 < 125) N_2.symm⟩, rfl⟩
  obtain ⟨-, -, -, -, -, -, -, -, -, -, e0, e1⟩ := idx_facts t
  refine ⟨t, (flush2_5 t).mpr (by rw [ht]), ?_⟩
  rw [mem_blk5]
  intro a
  match a with
  | ⟨0, _⟩ =>
    show win2_5.index t 0 * 1 ≤ (i 0).val ∧ (i 0).val < win2_5.index t 0 * 1 + 1
    rw [e0]; omega
  | ⟨1, _⟩ =>
    show win2_5.index t 1 * 4 ≤ (i 1).val ∧ (i 1).val < win2_5.index t 1 * 4 + 4
    rw [e1]; omega

/-- The four-word result array after the region. -/
theorem narrow_final (c : Dev nD) : (dat2 V c).arrAt 5 cfg2.N = narrow V c :=
  (dat2 V c).arrAt_eq_of_cover 5 (narrow V c) (flushed5_eq V c) cover5

/-- THE FOUR-WORD RESULT, at one element: head `hd`'s softmax denominator. -/
theorem zsum_apply (c : Dev nD) (hd : Fin 4) :
    (dat2 V c).arrAt 5 cfg2.N (ix2 (0 : Fin 1) hd)
      = Cert.Gat.zsum (Cert.Gat.pexp (Cert.Gat.arr2 (V c main_v28_0)) (fun hd => V c main_v28_1 (ix2 (0 : Fin 1) hd))) hd :=
  congrFun (narrow_final V c) (ix2 (0 : Fin 1) hd)

end Narrow

end Cert.KernelIdeal.Region2

end
-- ==== Proof.Region3.lean ====
/-
  The last region of the kernel, read as one function of the arrays it finds.

  The region runs over ten grid points.  Point t holds rows 5000 t … 5000 t + 4999 of the operand H (50000 x 64), the
  whole row Z of four softmax denominators (1 x 4) and the whole 0/1 table T (4 x 64), and stores, at row p and flat
  feature q of its block,

      max (H (5000 t + p, q)) 0  *  Σ_hd (1 / Z hd) * T (hd, q):

  the rectifier is pointwise, and the second factor is the 1 x 4 row of reciprocals times the table (a product into a
  zero accumulator, so just the sum over the four heads), broadcast down the rows.  Every point writes its block back,
  and the ten row blocks tile the 50000 rows, so after the region the output array is that function of H, Z and T at
  every entry.  Nothing here needs finiteness: no term is moved across a sum.

  Order of the file: the two layout facts (row broadcast, the small product at an index), the stored value at an index
  over arbitrary blocks, the blocks as rows of their arrays, what a point writes back, the cover, and the array.
-/
import proofs.«116205_j188978561163_2_alg».proof.Proof.Gen.KernelIdeal.Frame
import proofs.«116205_j188978561163_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open Idealize.ShloMosaic.Pipeline (Dat)
open scoped BigOperators

namespace Cert.Gat.K3

open Cert.KernelIdeal Cert.KernelIdeal.Gen

/-- The zero offsets of a whole-buffer access, as the constant function. -/
theorem zeros2 : (![0, 0] : Fin 2 → Nat) = fun _ => 0 := funext fun a => by fin_cases a <;> rfl

/-! ## Two layout facts -/

/-- A 1 x 64 row broadcast down 5000 rows reads, at (p, q), the row's entry q. -/
theorem bcastRow_apply (x : Vec Ideal S1x64 .f32) (h : S1x64.Broadcasts S5000x64) (p : Fin 5000) (q : Fin 64) :
    broadcastTo S5000x64 x h (ix2 p q) = x (ix2 0 q) :=
  broadcastTo_apply x h (ix2 p q) (ix2 0 q) fun a => by
    match a with
    | ⟨0, _⟩ => rfl
    | ⟨1, _⟩ => rfl

/-- The dimension numbers of the 1 x 4 by 4 x 64 product: contract the left operand's axis 1 with the right's axis 0. -/
abbrev D14 := dot_S1x4_S4x64_S1x64_1_0_0_1_n_n

/-- The left operand is read at the output's row … -/
theorem d14_lhs0 (i : S1x64.Idx) (k : D14.contr.Idx) : (D14.lhsIdx i k 0).val = (i 0).val := by
  unfold DotDims.lhsIdx
  rw [dif_neg (show ¬(0 : Fin S1x4.rank) ∈ D14.lhsBatch by decide), dif_pos (show (0 : Fin S1x4.rank) ∈ D14.lhsNonContracting by decide)]
  rfl
/-- … and the contraction index; -/
theorem d14_lhs1 (i : S1x64.Idx) (k : D14.contr.Idx) : (D14.lhsIdx i k 1).val = (k ⟨0, by decide⟩).val :=
  D14.lhsIdx_val_of_single rfl i k
/-- the right operand at the contraction index … -/
theorem d14_rhs0 (i : S1x64.Idx) (k : D14.contr.Idx) : (D14.rhsIdx i k 0).val = (k ⟨0, by decide⟩).val :=
  D14.rhsIdx_val_of_single rfl i k
/-- … and the output's column. -/
theorem d14_rhs1 (i : S1x64.Idx) (k : D14.contr.Idx) : (D14.rhsIdx i k 1).val = (i 1).val := by
  unfold DotDims.rhsIdx
  rw [dif_neg (show ¬(1 : Fin S4x64.rank) ∈ D14.rhsBatch by decide), dif_pos (show (1 : Fin S4x64.rank) ∈ D14.rhsNonContracting by decide)]
  rfl

set_option maxHeartbeats 400000 in
/-- The 1 x 4 by 4 x 64 product into a zero accumulator, at column q: the sum over the four heads of the row's entry
    times the table's entry (the contraction index re-read as a head). -/
theorem mmRow_apply (l : FVec Ideal S1x4 .f32) (r : FVec Ideal S4x64 .f32) (q : Fin 64) :
    FloatOps.matmul (F := Ideal) D14 (some .fp32) l r (constant S1x64 .f32 0x00000000#32) (ix2 0 q)
      = ∑ hd : Fin 4, l (ix2 0 hd) * r (ix2 hd q) := by
  rw [Ideal.matmul_constant_zero_apply, ← Equiv.sum_comp (contrEquiv1 D14 4 rfl rfl).symm]
  refine Finset.sum_congr rfl fun k _ => ?_
  have hk := contrEquiv1_symm_val D14 4 rfl rfl k
  have el : D14.lhsIdx (ix2 0 q) ((contrEquiv1 D14 4 rfl rfl).symm k) = ix2 0 k :=
    funext fun a => Fin.ext (by
      match a with
      | ⟨0, _⟩ => exact d14_lhs0 _ _
      | ⟨1, _⟩ => exact (d14_lhs1 _ _).trans hk)
  have er : D14.rhsIdx (ix2 0 q) ((contrEquiv1 D14 4 rfl rfl).symm k) = ix2 k q :=
    funext fun a => Fin.ext (by
      match a with
      | ⟨0, _⟩ => exact (d14_rhs0 _ _).trans hk
      | ⟨1, _⟩ => exact d14_rhs1 _ _)
  rw [el, er]

/-! ## The stored value at an index -/

set_option maxHeartbeats 400000 in
/-- The stored value at row p, column q of a block, over arbitrary loaded blocks x0 (denominators), x4 (table) and
    x6 (operand rows): the rectified entry times the column's scale.  The product of two vectors, the maximum and the
    division are pointwise; the cast to the same shape is the identity; the two constants are the zero and one words. -/
theorem pay_apply (x0 : Vec Ideal S1x4 .f32) (x4 : Vec Ideal S4x64 .f32) (x6 : Vec Ideal S5000x64 .f32) (p : Fin 5000) (q : Fin 64) :
    k3_pay1 (F := Ideal) x0 x4 x6 (ix2 p q)
      = max (x6 (ix2 p q)) z0 * ∑ hd : Fin 4, Ideal.div o1 (x0 (ix2 0 hd)) * x4 (ix2 hd q) := by
  unfold k3_pay1
  refine (mulf_apply _ _ (ix2 p q)).trans ?_
  refine congrArg₂ (· * ·) ?_ ?_
  · refine (maximumf_apply _ _ (ix2 p q)).trans ?_
    rw [shapeCast_self]
    rfl
  · refine (bcastRow_apply _ _ p q).trans ?_
    refine (mmRow_apply _ _ q).trans ?_
    refine Finset.sum_congr rfl fun hd _ => ?_
    rw [shapeCast_self]
    rfl

/-- The array the region writes, as one function of the arrays it reads: the last step of the layer's flat form. -/
def G3 (H : S50000x64.Idx → EReal) (Z : S1x4.Idx → EReal) (T : S4x64.Idx → EReal) : S50000x64.Idx → EReal :=
  fun i => normK (arr2 H) (fun hd => Z (ix2 0 hd)) (arr2 T) (i 0) (i 1)

set_option maxHeartbeats 400000 in
/-- If the loaded blocks are the denominators, the table's column q, and entry (n, q) of the operand, the stored
    value at (p, q) is the whole-array function at (n, q). -/
theorem point_eq (H : S50000x64.Idx → EReal) (Z : S1x4.Idx → EReal) (T : S4x64.Idx → EReal)
    (x0 : Vec Ideal S1x4 .f32) (x4 : Vec Ideal S4x64 .f32) (x6 : Vec Ideal S5000x64 .f32)
    (n : Fin 50000) (p : Fin 5000) (q : Fin 64)
    (h0 : ∀ hd : Fin 4, x0 (ix2 0 hd) = Z (ix2 0 hd)) (h4 : ∀ hd : Fin 4, x4 (ix2 hd q) = T (ix2 hd q))
    (h6 : x6 (ix2 p q) = H (ix2 n q)) :
    k3_pay1 (F := Ideal) x0 x4 x6 (ix2 p q) = G3 H Z T (ix2 n q) := by
  rw [pay_apply, h6]
  show _ = max (H (ix2 n q)) z0 * ∑ hd : Fin 4, Ideal.div o1 (Z (ix2 0 hd)) * T (ix2 hd q)
  refine congrArg _ (Finset.sum_congr rfl fun hd _ => ?_)
  rw [h0, h4]

/-! ## The blocks as parts of their arrays -/

section Blocks
variable (V : (c : Dev nD) → (b : Ref sig .tc) → Buf (Elt Ideal) ((c : Thread nD τ).loc b))

/-- The block indices over the grid: the operand's and the output's row blocks move with the point, the
    denominators' and the table's blocks are their whole arrays at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- Row p of point t's block of the operand is row 5000 t + p of its array (a block's element sits at block index
    times block size plus its own coordinate). -/
theorem blk0_apply (c : Dev nD) (t : Fin cfg3.N) (p : Fin 5000) (q : Fin 64) (n : Fin 50000) (hn : n.val = 5000 * t.val + p.val) :
    (iblk3 V c 0 t : Vec Ideal S5000x64 .f32) (ix2 p q) = (V c main_v32 : S50000x64.Idx → EReal) (ix2 n q) := by
  obtain ⟨e00, e01, -⟩ := idx_facts t
  unfold iblk3
  rw [View.read_apply]
  show V c main_v32 _ = V c main_v32 _
  refine congrArg _ ?_
  funext a; apply Fin.ext
  match a with
  | ⟨0, _⟩ => show win3_0.index t (0 : Fin 2) * 5000 + 1 * p.val = n.val; omega
  | ⟨1, _⟩ => show win3_0.index t (1 : Fin 2) * 64 + 1 * q.val = q.val; omega

set_option maxHeartbeats 400000 in
/-- The denominators' block is their whole array at every point. -/
theorem blk1_apply (c : Dev nD) (t : Fin cfg3.N) (a0 : Fin 1) (hd : Fin 4) :
    (iblk3 V c 1 t : Vec Ideal S1x4 .f32) (ix2 a0 hd) = (V c main_v29_1 : S1x4.Idx → EReal) (ix2 a0 hd) := by
  obtain ⟨-, -, e10, e11, -⟩ := idx_facts t
  unfold iblk3
  rw [View.read_apply]
  show V c main_v29_1 _ = V c main_v29_1 _
  refine congrArg _ ?_
  funext a; apply Fin.ext
  match a with
  | ⟨0, _⟩ => show win3_1.index t (0 : Fin 2) * 1 + 1 * a0.val = a0.val; omega
  | ⟨1, _⟩ => show win3_1.index t (1 : Fin 2) * 4 + 1 * hd.val = hd.val; omega

set_option maxHeartbeats 400000 in
/-- The table's block is its whole array at every point. -/
theorem blk2_apply (c : Dev nD) (t : Fin cfg3.N) (hd : Fin 4) (q : Fin 64) :
    (iblk3 V c 2 t : Vec Ideal S4x64 .f32) (ix2 hd q) = (V c main_cst_0 : S4x64.Idx → EReal) (ix2 hd q) := by
  obtain ⟨-, -, -, -, e20, e21, -⟩ := idx_facts t
  unfold iblk3
  rw [View.read_apply]
  show V c main_cst_0 _ = V c main_cst_0 _
  refine congrArg _ ?_
  funext a; apply Fin.ext
  match a with
  | ⟨0, _⟩ => show win3_2.index t (0 : Fin 2) * 4 + 1 * hd.val = hd.val; omega
  | ⟨1, _⟩ => show win3_2.index t (1 : Fin 2) * 64 + 1 * q.val = q.val; omega

/-! ## What a point writes back, the cover, and the array -/

set_option maxHeartbeats 400000 in
/-- What point t writes back is its block of the one whole-array function: the body's single store covers the
    block, and entry (p, q) of the block sits at row 5000 t + p, column q of the array. -/
theorem flushed_eq (c : Dev nD) (t : Fin cfg3.N) :
    (dat3 (F := Ideal) V c).flushed 3 t = ((cfg3.win 3).blk t).view.read (Elt Ideal) (G3 (V c main_v32) (V c main_v29_1) (V c main_cst_0)) := by
  show (cfg3.win 3).cut (grid3.coords t) ((dat3 V c).after 3 t) = _
  rw [after3_3]
  unfold out3_3
  rw [View.canon_unit_zero zeros2]
  simp only [View.ld_unit_zero (S := S1x4) zeros2, View.ld_unit_zero (S := S4x64) zeros2, View.ld_unit_zero (S := S5000x64) zeros2]
  funext j
  obtain ⟨-, -, -, -, -, -, e30, e31⟩ := idx_facts t
  have hN : cfg3.N = 10 := N_3
  have ht : t.val < 10 := by have := t.isLt; omega
  have hj0 : (j 0).val < 5000 := (j 0).isLt
  have hj1 : (j 1).val < 64 := (j 1).isLt
  have hjeq : j = ix2 (⟨(j 0).val, hj0⟩ : Fin 5000) (⟨(j 1).val, hj1⟩ : Fin 64) := eq_ix2 (n0 := 5000) (n1 := 64) j
  have hemb : ((cfg3.win 3).blk t).view.emb j = ix2 (⟨5000 * t.val + (j 0).val, by omega⟩ : Fin 50000) (⟨(j 1).val, hj1⟩ : Fin 64) := by
    funext a; apply Fin.ext
    match a with
    | ⟨0, _⟩ => show win3_3.index t (0 : Fin 2) * 5000 + 1 * (j 0).val = 5000 * t.val + (j 0).val; omega
    | ⟨1, _⟩ => show win3_3.index t (1 : Fin 2) * 64 + 1 * (j 1).val = (j 1).val; omega
  show k3_pay1 (F := Ideal) (iblk3 V c 1 t) (iblk3 V c 2 t) (iblk3 V c 0 t) j = G3 (V c main_v32) (V c main_v29_1) (V c main_cst_0) (((cfg3.win 3).blk t).view.emb j)
  rw [hemb]
  refine (congrArg (k3_pay1 (F := Ideal) (iblk3 V c 1 t) (iblk3 V c 2 t) (iblk3 V c 0 t)) hjeq).trans ?_
  exact point_eq (V c main_v32) (V c main_v29_1) (V c main_cst_0) (iblk3 V c 1 t) (iblk3 V c 2 t) (iblk3 V c 0 t)
    ⟨5000 * t.val + (j 0).val, by omega⟩ ⟨(j 0).val, hj0⟩ ⟨(j 1).val, hj1⟩
    (fun hd => blk1_apply V c t 0 hd) (fun hd => blk2_apply V c t hd ⟨(j 1).val, hj1⟩)
    (blk0_apply V c t ⟨(j 0).val, hj0⟩ ⟨(j 1).val, hj1⟩ ⟨5000 * t.val + (j 0).val, by omega⟩ rfl)

/-- An index of the array lies in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v33).slice (win3_3.rect t)).set ↔ _
  rw [View.set_slice_whole, Rect.mem_set_unit]
  exact Iff.rfl

set_option maxHeartbeats 400000 in
/-- Row r is written by point r / 5000: the ten row blocks tile the array. -/
theorem cover (i : S50000x64.Idx) : ∃ t : Fin cfg3.N, (cfg3.win 3).flush t = true ∧ i ∈ ((cfg3.win 3).blk t).view.set := by
  have hN : cfg3.N = 10 := N_3
  have hi0 : (i 0).val < 50000 := (i 0).isLt
  have hi1 : (i 1).val < 64 := (i 1).isLt
  let t : Fin cfg3.N := ⟨(i 0).val / 5000, by omega⟩
  obtain ⟨-, -, -, -, -, -, e30, e31⟩ := idx_facts t
  have htv : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the region, whole: every point writes its block of one function, and the blocks cover. -/
theorem final (c : Dev nD) :
    (dat3 (F := Ideal) V c).arrAt 3 cfg3.N = G3 (V c main_v32) (V c main_v29_1) (V c main_cst_0) :=
  (dat3 V c).arrAt_eq_of_cover 3 (G3 (V c main_v32) (V c main_v29_1) (V c main_cst_0)) (fun t _ => flushed_eq V c t) cover

/-- The output array after the region, entry by entry: the rectified operand times the reciprocal denominators
    spread over the features by the table. -/
theorem arrAt_eq (c : Dev nD) (n : Fin 50000) (d : Fin 64) :
    (dat3 (F := Ideal) V c).arrAt 3 cfg3.N (ix2 n d)
      = normK (arr2 (V c main_v32)) (fun hd => V c main_v29_1 (ix2 0 hd)) (arr2 (V c main_cst_0)) n d := by
  rw [final V c]
  rfl

end Blocks

end Cert.Gat.K3

end
-- ==== Proof.Regions.lean ====
/-
  What the four grid computations of the kernel program leave in their output arrays, collected: the projected rows and
  the two per-node scores; the logits and their largest value per head; the unnormalised messages and the softmax
  denominators; the rectified, scaled result.
-/
import proofs.«116205_j188978561163_2_alg».proof.Proof.KValue
import proofs.«116205_j188978561163_2_alg».proof.Proof.Region0
import proofs.«116205_j188978561163_2_alg».proof.Proof.Region0S
import proofs.«116205_j188978561163_2_alg».proof.Proof.Region1
import proofs.«116205_j188978561163_2_alg».proof.Proof.Region2
import proofs.«116205_j188978561163_2_alg».proof.Proof.Region3

noncomputable section

namespace Cert.Gat.Regions

theorem regionFacts : Cert.Gat.KValue.RegionFacts where
  r0_wh := Cert.Gat.K0.arrAt_eq
  r0_ss := Cert.Gat.K0S.score_src
  r0_sd := Cert.Gat.K0S.score_dst
  r1_e := Cert.Gat.K1.logits_eq
  r1_m := Cert.Gat.K1.top_eq
  r2_msg := Cert.KernelIdeal.Region2.msg_apply
  r2_z := Cert.KernelIdeal.Region2.zsum_apply
  r3_out := Cert.Gat.K3.arrAt_eq

end Cert.Gat.Regions

end
-- ==== Proof.lean ====
/-
  One graph-attention layer over a fixed list of 1000000 edges on 50000 nodes: a kernel program in four grid
  computations against the one-pass array program, equal on finite data as extended reals.

  Both programs project the node features to 4 heads of 16 features, score every node against two attention vectors,
  gather the scores per edge, rectify their sum (leaky), take per head the softmax over ALL edges, weigh each edge's
  source row by it, add the rows into the destination nodes and rectify.  The kernel keeps the 64 features flat and
  moves between heads and features through two 0/1 tables, carries the per-head maximum and the per-head sum of
  exponentials across its grid points, and divides by that sum only after the rows have been added into the nodes;
  the array program splits the feature axis, takes the maximum and the sum in one reduction each, and divides each
  edge's weight before the rows are added.

  Proof/Spec.lean names the two forms and their parts.  Proof/KRun.lean and Proof/KValue.lean read the kernel program's
  result array as the flat form (the four grid computations' outputs are Proof/Region0.lean, Region0S.lean, Region1.lean,
  Region2.lean, Region3.lean; Proof/LibRowOps.lean reads the row gathers and the row scatter-add at an element);
  Proof/RefValue.lean reads the array program's result as the split form; Proof/Law.lean proves the two forms equal
  on real data (the tables only select; the softmax denominator is a positive real, and scaling by its reciprocal
  commutes with the sum over edges and with the rectifier); Proof/Finite.lean turns the precondition into "every entry
  is real"; Proof/Assemble.lean puts the five claims together.  The idealization rewrote nothing, so the fourth claim
  is trivial.
-/
import proofs.«116205_j188978561163_2_alg».proof.Defs
import proofs.«116205_j188978561163_2_alg».proof.Proof.Gen.Kernel
import proofs.«116205_j188978561163_2_alg».proof.Proof.Gen.KernelIdeal
import proofs.«116205_j188978561163_2_alg».proof.Proof.Gen.ReferenceIdeal
import proofs.«116205_j188978561163_2_alg».proof.Proof.Gen.Pre_finite_inputs
import proofs.«116205_j188978561163_2_alg».proof.Proof.Assemble
import proofs.«116205_j188978561163_2_alg».proof.Proof.Regions
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Gat.Assemble.frame_k, Cert.Gat.Assemble.frame_ki, Cert.Gat.Assemble.frame_ri, Cert.Gat.Assemble.preserves,
    Cert.Gat.Assemble.algebraic Cert.Gat.Regions.regionFacts⟩

end Cert.Proof

end
